-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) (main_arg2 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S4096 : Shape := ⟨1, ![4096]⟩
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S128x512 : Shape := ⟨2, ![128, 512]⟩
abbrev S1024x512 : Shape := ⟨2, ![1024, 512]⟩
abbrev S1024 : Shape := ⟨1, ![1024]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096, .i32⟩
  | .hbm, ⟨3, _⟩ => ⟨S8192x128, .f32⟩
  | .hbm, ⟨4, _⟩ => ⟨S8192x128, .bf16⟩
  | .hbm, ⟨5, _⟩ => ⟨S8192, .i32⟩
  | .hbm, ⟨6, _⟩ => ⟨S8192x1, .i32⟩
  | .hbm, ⟨7, _⟩ => ⟨S1x8192, .i32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  concatenates_S4096x128_S4096x128_S8192x128_d0 : Shape.Concatenates [S4096x128, S4096x128] S8192x128 0
  bitsLt_bf16_f32 : FTy.bits .bf16 < FTy.bits .f32
  concatenates_S4096_S4096_S8192_d0 : Shape.Concatenates [S4096, S4096] S8192 0
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S1024x512_d0_w32 : S1024x512.Iotas .tc 32 [0]
  iota_S1024x512_d1_w32 : S1024x512.Iotas .tc 32 [1]
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  reducesTo_S8192x1_S_d0_1 : S8192x1.ReducesTo [0, 1] S_
  h_S_ : 0 < S_.numel
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S4096 : Shape := ⟨1, ![4096]⟩
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096, .i32⟩
  | .hbm, ⟨3, _⟩ => ⟨S8192x128, .f32⟩
  | .hbm, ⟨4, _⟩ => ⟨S128x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  transposes_S8192x128_S128x8192_1_0 : S8192x128.Transposes [1, 0] S128x8192
  bcast_S_S8192x8192 : S_.BroadcastsInDim S8192x8192 (![] : Fin 0 → Fin S8192x8192.rank)
  concatenates_S4096_S4096_S8192_d0 : Shape.Concatenates [S4096, S4096] S8192 0
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  bcast_S_S8192x1 : S_.BroadcastsInDim S8192x1 (![] : Fin 0 → Fin S8192x1.rank)
  reducesTo_S8192x1_S_d0_1 : S8192x1.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBBase.lean ====
/-
  What the kernel's run is stated over, at any float instance.

  The region is entered after five host operations (the two views stacked, their conversion, the labels
  repeated and reshaped to a column and to a row): `V` names the buffers' contents at that moment. Window
  `w`'s block at grid point `t` is `blockAt w t`. The grid has 8 x 16 points, the column tile the fast axis:
  the body resets its two accumulators where the column tile is the first (`t % 16 = 0`) and stores the row
  losses where it is the last (`t % 16 = 15`); at every other point the output window is idle and its block is
  not written back. Windows 0 and 1 read the SAME array (the converted stack), at row tiles of 1024 and of 512.
-/
import proofs.«124993_j78073915507043_1_alg».proof.Proof.Gen.Kernel.Launch
import proofs.«124993_j78073915507043_1_alg».proof.Proof.Gen.Kernel.Skeleton
import proofs.«124993_j78073915507043_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the five host operations that precede the region. -/
abbrev V0 (c : Dev nD) : Valuation τ sig (Elt F) := StableHlo.after hostOps0 (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, decided over the grid -/

/-- The first column tile: the accumulators are reset here. -/
abbrev atFirst (i : grid0.Coords) : Prop :=
  (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The last column tile: the row losses are stored here. -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile the output window is idle and not written back; -/
theorem idle4 : ∀ t : Fin cfg0.N, ¬atLast (grid0.coords t) → cfg0.idle 4 (grid0.coords t) = true := by decide +kernel
theorem noFlush4 : ∀ t : Fin cfg0.N, ¬atLast (grid0.coords t) → (cfg0.win 4).flush t = false := by decide +kernel
/-- at the last column tile it is live. -/
theorem live4 : ∀ t : Fin cfg0.N, atLast (grid0.coords t) → cfg0.idle 4 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The two accumulators: the positives' and the plain one. -/
abbrev accP : Memref sig .tc .vmem S1024x1 .f32 := Memref.whole cc0_scratch0
abbrev accT : Memref sig .tc .vmem S1024x1 .f32 := Memref.whole cc0_scratch1
/-- The views through which the output block's and the accumulators' contents are stated. -/
abbrev viewO : View sig .tc .vmem S1024x1 .f32 := (Memref.whole cc0_stg4_0 : Memref sig .tc .vmem S1024x1 .f32).view
abbrev viewP : View sig .tc .vmem S1024x1 .f32 := accP.view
abbrev viewT : View sig .tc .vmem S1024x1 .f32 := accT.view

/-- The region's invariant at entry: both accumulators at anything, the generator register at some state. -/
theorem PhiA_eq (c : Dev nD) :
    (Pipeline.ΦA spec0 c : sProp 𝕄)
      = iprop(iprop((∃ d, owns (c : Thread nD τ) accP fullShare d) ∗ (∃ d, owns (c : Thread nD τ) accT fullShare d)) ∗ (∃ r, prngReg c r)) := by
  unfold Pipeline.ΦA; rw [scopedRest0_eq]; simp only [accP, accT, owns_whole]; try rfl

/-! ## An input's staging buffer holds its block at every point -/

theorem before0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

end Cert.Kernel.Hand

end
-- ==== Proof.KBRunFirst.lean ====
/-
  The body at a FIRST column tile (the accumulators are reset, nothing is stored to the output block): on whole
  memrefs, the four inputs at their blocks, the output block at anything (handed back untouched), both accumulators at
  anything, the body runs and leaves each accumulator with the pieces it stored, last first.
-/
import proofs.«124993_j78073915507043_1_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the two accumulators at a first column tile, with the run that finds them. -/
noncomputable def runFirst (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : atFirst i) (hc1 : ¬atLast i)
    (x0 : Vec F S1024x128 .bf16) (x1 : Vec F S512x128 .bf16) (x2 : Vec F S1024x1 .i32) (x3 : Vec F S1x512 .i32) :
    Σ' (LP : List (View.Piece (Elt F) S1024x1 .f32)), { LT : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
                ∗ (∃ f, arg7.view.loc (c : Thread nD τ) ↦[arg7.view.set]{fullShare} arg7.view.writes (Elt F) f LP) ∗ (∃ f, arg8.view.loc (c : Thread nD τ) ↦[arg8.view.set]{fullShare} arg8.view.writes (Elt F) f LT)) -∗ K ⟨⟩))
          ⊢ wp frame (wpE (defs₀ (F := F)) Variants.none c none) E (cc0__supcon_kernel i arg2 harg2 arg3 harg3 arg4 harg4 arg5 harg5 arg6 harg6 arg7 harg7 arg8 harg8) K } := by
  refine ⟨?_, ?_, fun xo E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%fo, %hfo, HO⟩, ⟨%dp, %fp, -, HP⟩, ⟨%dt, %ft, -, HT⟩, Hk⟩
    obtain rfl := harg2.eq_unread hf0; obtain rfl := harg3.eq_unread hf1; obtain rfl := harg4.eq_unread hf2; obtain rfl := harg5.eq_unread hf3
    obtain rfl := harg6.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    isplitl [HP]; · iexists _; iexact HP
    iexists _; iexact HT

end Cert.Kernel.Hand

end
-- ==== Proof.KBRunMid.lean ====
/-
  The body at a MIDDLE column tile (no reset, no store to the output block): the accumulators are found at what the
  tile before left and are each stored once.
-/
import proofs.«124993_j78073915507043_1_alg».proof.Proof.KBRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the two accumulators at a middle column tile, with the run that finds them. -/
noncomputable def runMid (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬atFirst i) (hc1 : ¬atLast i)
    (x0 : Vec F S1024x128 .bf16) (x1 : Vec F S512x128 .bf16) (x2 : Vec F S1024x1 .i32) (x3 : Vec F S1x512 .i32) (xsP xsT : Vec F S1024x1 .f32) :
    Σ' (LP : List (View.Piece (Elt F) S1024x1 .f32)), { LT : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare xsP ∗ owns (c : Thread nD τ) arg8 fullShare xsT
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
                ∗ (∃ f, arg7.view.loc (c : Thread nD τ) ↦[arg7.view.set]{fullShare} arg7.view.writes (Elt F) f LP) ∗ (∃ f, arg8.view.loc (c : Thread nD τ) ↦[arg8.view.set]{fullShare} arg8.view.writes (Elt F) f LT)) -∗ K ⟨⟩))
          ⊢ wp frame (wpE (defs₀ (F := F)) Variants.none c none) E (cc0__supcon_kernel i arg2 harg2 arg3 harg3 arg4 harg4 arg5 harg5 arg6 harg6 arg7 harg7 arg8 harg8) K } := by
  refine ⟨?_, ?_, fun xo E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%fo, %hfo, HO⟩, ⟨%fp, %hfp, HP⟩, ⟨%ft, %hft, HT⟩, Hk⟩
    obtain rfl := harg2.eq_unread hf0; obtain rfl := harg3.eq_unread hf1; obtain rfl := harg4.eq_unread hf2; obtain rfl := harg5.eq_unread hf3
    obtain rfl := harg6.eq_unread hfo; obtain rfl := harg7.eq_unread hfp; obtain rfl := harg8.eq_unread hft
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    isplitl [HP]; · iexists _; iexact HP
    iexists _; iexact HT

end Cert.Kernel.Hand

end
-- ==== Proof.KBRunLast.lean ====
/-
  The body at a LAST column tile: the accumulators are found at what the tile before left, each is stored once, and
  the row losses computed from them are stored over the whole output block.
-/
import proofs.«124993_j78073915507043_1_alg».proof.Proof.KBRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the output block and in the two accumulators at a last column tile, with the run
    that finds them. -/
noncomputable def runLast (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬atFirst i) (hc1 : atLast i)
    (x0 : Vec F S1024x128 .bf16) (x1 : Vec F S512x128 .bf16) (x2 : Vec F S1024x1 .i32) (x3 : Vec F S1x512 .i32) (xsP xsT : Vec F S1024x1 .f32) :
    Σ' (LO : List (View.Piece (Elt F) S1024x1 .f32)) (LP : List (View.Piece (Elt F) S1024x1 .f32)), { LT : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xsP ∗ owns (c : Thread nD τ) arg8 fullShare xsT
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LP) ∗ (∃ f, arg8.view.loc (c : Thread nD τ) ↦[arg8.view.set]{fullShare} arg8.view.writes (Elt F) f LT)) -∗ K ⟨⟩))
          ⊢ wp frame (wpE (defs₀ (F := F)) Variants.none c none) E (cc0__supcon_kernel i arg2 harg2 arg3 harg3 arg4 harg4 arg5 harg5 arg6 harg6 arg7 harg7 arg8 harg8) K } := by
  refine ⟨?_, ?_, ?_, fun E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%dO, %fo, -, HO⟩, ⟨%fp, %hfp, HP⟩, ⟨%ft, %hft, HT⟩, Hk⟩
    obtain rfl := harg2.eq_unread hf0; obtain rfl := harg3.eq_unread hf1; obtain rfl := harg4.eq_unread hf2; obtain rfl := harg5.eq_unread hf3
    obtain rfl := harg7.eq_unread hfp; obtain rfl := harg8.eq_unread hft
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    isplitl [HP]; · iexists _; iexact HP
    iexists _; iexact HT

end Cert.Kernel.Hand

end
-- ==== Proof.KBFrame.lean ====
/-
  The kernel's run, point by point.

  What the two accumulators and the output block hold after the body at each grid point, by recursion on the point
  (`accAt`): at a first column tile the accumulators hold what the reset-then-accumulate body stores, at every
  other tile what the body stores over the contents the tile before left; at a last column tile the output block
  holds the row losses computed from them. Then the proof data of the pipeline (the arrays as the region finds
  them; each input's buffer at its block; the output's at `accAt`; the invariant carrying the accumulators), and the
  body's obligation at every point.
-/
import proofs.«124993_j78073915507043_1_alg».proof.Proof.KBRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section Pieces
variable (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (x0 : Vec F S1024x128 .bf16) (x1 : Vec F S512x128 .bf16) (x2 : Vec F S1024x1 .i32) (x3 : Vec F S1x512 .i32)

theorem coverFirstP (hc0 : atFirst i) (hc1 : ¬atLast i) (y : S1024x1.Idx) :
    ∃ pc ∈ (runFirst c i arg2 harg2 arg3 harg3 arg4 harg4 arg5 harg5 arg6 harg6 arg7 harg7 arg8 harg8 hc0 hc1 x0 x1 x2 x3).1, y ∈ pc.1.set :=
  View.cover_of_tiledL (runFirst c i arg2 harg2 arg3 harg3 arg4 harg4 arg5 harg5 arg6 harg6 arg7 harg7 arg8 harg8 hc0 hc1 x0 x1 x2 x3).1 S1024x1.size (by sl_kernel_rfl) y
theorem coverFirstT (hc0 : atFirst i) (hc1 : ¬atLast i) (y : S1024x1.Idx) :
    ∃ pc ∈ (runFirst c i arg2 harg2 arg3 harg3 arg4 harg4 arg5 harg5 arg6 harg6 arg7 harg7 arg8 harg8 hc0 hc1 x0 x1 x2 x3).2.1, y ∈ pc.1.set :=
  View.cover_of_tiledL (runFirst c i arg2 harg2 arg3 harg3 arg4 harg4 arg5 harg5 arg6 harg6 arg7 harg7 arg8 harg8 hc0 hc1 x0 x1 x2 x3).2.1 S1024x1.size (by sl_kernel_rfl) y
/-- What a first column tile leaves in the positives' accumulator, and in the plain one. -/
def firstP (hc0 : atFirst i) (hc1 : ¬atLast i) : Vec F S1024x1 .f32 :=
  viewP.read (Elt F) (viewP.writes (Elt F) viewP.junk (runFirst c i arg2 harg2 arg3 harg3 arg4 harg4 arg5 harg5 arg6 harg6 arg7 harg7 arg8 harg8 hc0 hc1 x0 x1 x2 x3).1)
def firstT (hc0 : atFirst i) (hc1 : ¬atLast i) : Vec F S1024x1 .f32 :=
  viewT.read (Elt F) (viewT.writes (Elt F) viewT.junk (runFirst c i arg2 harg2 arg3 harg3 arg4 harg4 arg5 harg5 arg6 harg6 arg7 harg7 arg8 harg8 hc0 hc1 x0 x1 x2 x3).2.1)

variable (xsP xsT : Vec F S1024x1 .f32)

theorem coverMidP (hc0 : ¬atFirst i) (hc1 : ¬atLast i) (y : S1024x1.Idx) :
    ∃ pc ∈ (runMid c i arg2 harg2 arg3 harg3 arg4 harg4 arg5 harg5 arg6 harg6 arg7 harg7 arg8 harg8 hc0 hc1 x0 x1 x2 x3 xsP xsT).1, y ∈ pc.1.set :=
  View.cover_of_tiledL (runMid c i arg2 harg2 arg3 harg3 arg4 harg4 arg5 harg5 arg6 harg6 arg7 harg7 arg8 harg8 hc0 hc1 x0 x1 x2 x3 xsP xsT).1 S1024x1.size (by sl_kernel_rfl) y
theorem coverMidT (hc0 : ¬atFirst i) (hc1 : ¬atLast i) (y : S1024x1.Idx) :
    ∃ pc ∈ (runMid c i arg2 harg2 arg3 harg3 arg4 harg4 arg5 harg5 arg6 harg6 arg7 harg7 arg8 harg8 hc0 hc1 x0 x1 x2 x3 xsP xsT).2.1, y ∈ pc.1.set :=
  View.cover_of_tiledL (runMid c i arg2 harg2 arg3 harg3 arg4 harg4 arg5 harg5 arg6 harg6 arg7 harg7 arg8 harg8 hc0 hc1 x0 x1 x2 x3 xsP xsT).2.1 S1024x1.size (by sl_kernel_rfl) y
/-- What a middle column tile leaves in the two accumulators, over what the tile before left. -/
def midP (hc0 : ¬atFirst i) (hc1 : ¬atLast i) : Vec F S1024x1 .f32 :=
  viewP.read (Elt F) (viewP.writes (Elt F) viewP.junk (runMid c i arg2 harg2 arg3 harg3 arg4 harg4 arg5 harg5 arg6 harg6 arg7 harg7 arg8 harg8 hc0 hc1 x0 x1 x2 x3 xsP xsT).1)
def midT (hc0 : ¬atFirst i) (hc1 : ¬atLast i) : Vec F S1024x1 .f32 :=
  viewT.read (Elt F) (viewT.writes (Elt F) viewT.junk (runMid c i arg2 harg2 arg3 harg3 arg4 harg4 arg5 harg5 arg6 harg6 arg7 harg7 arg8 harg8 hc0 hc1 x0 x1 x2 x3 xsP xsT).2.1)

theorem coverLastO (hc0 : ¬atFirst i) (hc1 : atLast i) (y : S1024x1.Idx) :
    ∃ pc ∈ (runLast c i arg2 harg2 arg3 harg3 arg4 harg4 arg5 harg5 arg6 harg6 arg7 harg7 arg8 harg8 hc0 hc1 x0 x1 x2 x3 xsP xsT).1, y ∈ pc.1.set :=
  View.cover_of_tiledL (runLast c i arg2 harg2 arg3 harg3 arg4 harg4 arg5 harg5 arg6 harg6 arg7 harg7 arg8 harg8 hc0 hc1 x0 x1 x2 x3 xsP xsT).1 S1024x1.size (by sl_kernel_rfl) y
theorem coverLastP (hc0 : ¬atFirst i) (hc1 : atLast i) (y : S1024x1.Idx) :
    ∃ pc ∈ (runLast c i arg2 harg2 arg3 harg3 arg4 harg4 arg5 harg5 arg6 harg6 arg7 harg7 arg8 harg8 hc0 hc1 x0 x1 x2 x3 xsP xsT).2.1, y ∈ pc.1.set :=
  View.cover_of_tiledL (runLast c i arg2 harg2 arg3 harg3 arg4 harg4 arg5 harg5 arg6 harg6 arg7 harg7 arg8 harg8 hc0 hc1 x0 x1 x2 x3 xsP xsT).2.1 S1024x1.size (by sl_kernel_rfl) y
theorem coverLastT (hc0 : ¬atFirst i) (hc1 : atLast i) (y : S1024x1.Idx) :
    ∃ pc ∈ (runLast c i arg2 harg2 arg3 harg3 arg4 harg4 arg5 harg5 arg6 harg6 arg7 harg7 arg8 harg8 hc0 hc1 x0 x1 x2 x3 xsP xsT).2.2.1, y ∈ pc.1.set :=
  View.cover_of_tiledL (runLast c i arg2 harg2 arg3 harg3 arg4 harg4 arg5 harg5 arg6 harg6 arg7 harg7 arg8 harg8 hc0 hc1 x0 x1 x2 x3 xsP xsT).2.2.1 S1024x1.size (by sl_kernel_rfl) y
/-- What a last column tile leaves in the output block and in the two accumulators. -/
def lastO (hc0 : ¬atFirst i) (hc1 : atLast i) : Vec F S1024x1 .f32 :=
  viewO.read (Elt F) (viewO.writes (Elt F) viewO.junk (runLast c i arg2 harg2 arg3 harg3 arg4 harg4 arg5 harg5 arg6 harg6 arg7 harg7 arg8 harg8 hc0 hc1 x0 x1 x2 x3 xsP xsT).1)
def lastP (hc0 : ¬atFirst i) (hc1 : atLast i) : Vec F S1024x1 .f32 :=
  viewP.read (Elt F) (viewP.writes (Elt F) viewP.junk (runLast c i arg2 harg2 arg3 harg3 arg4 harg4 arg5 harg5 arg6 harg6 arg7 harg7 arg8 harg8 hc0 hc1 x0 x1 x2 x3 xsP xsT).2.1)
def lastT (hc0 : ¬atFirst i) (hc1 : atLast i) : Vec F S1024x1 .f32 :=
  viewT.read (Elt F) (viewT.writes (Elt F) viewT.junk (runLast c i arg2 harg2 arg3 harg3 arg4 harg4 arg5 harg5 arg6 harg6 arg7 harg7 arg8 harg8 hc0 hc1 x0 x1 x2 x3 xsP xsT).2.2.1)

end Pieces

/-- The output block where nothing is stored into it: a placeholder nothing consults (the window is idle there and
    its block is not written back). -/
def noOut : Vec F S1024x1 .f32 := viewO.read (Elt F) (viewO.writes (Elt F) viewO.junk [])

/-! ## The accumulation, point by point -/

/-- After the body at position `n`: the output block, the positives' accumulator, the plain accumulator. -/
def accAt (c : Dev nD) : (n : ℕ) → n < cfg0.N → Vec F S1024x1 .f32 × Vec F S1024x1 .f32 × Vec F S1024x1 .f32
  | 0, hn =>
    (noOut, firstP c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accP (Memref.isWhole_whole _) accT (Memref.isWhole_whole _) (blockAt m c 0 ⟨0, hn⟩) (blockAt m c 1 ⟨0, hn⟩) (blockAt m c 2 ⟨0, hn⟩) (blockAt m c 3 ⟨0, hn⟩) ((atFirst_iff ⟨0, hn⟩).mpr (Nat.zero_mod _)) (fun h => (by decide : ¬ (0 % 16 = 15)) ((atLast_iff ⟨0, hn⟩).mp h)),
      firstT c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accP (Memref.isWhole_whole _) accT (Memref.isWhole_whole _) (blockAt m c 0 ⟨0, hn⟩) (blockAt m c 1 ⟨0, hn⟩) (blockAt m c 2 ⟨0, hn⟩) (blockAt m c 3 ⟨0, hn⟩) ((atFirst_iff ⟨0, hn⟩).mpr (Nat.zero_mod _)) (fun h => (by decide : ¬ (0 % 16 = 15)) ((atLast_iff ⟨0, hn⟩).mp h)))
  | n + 1, hn =>
    if h0 : (n + 1) % 16 = 0 then
      if h1 : (n + 1) % 16 = 15 then False.elim (by omega)
      else
        (noOut, firstP c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) ((atFirst_iff ⟨n + 1, hn⟩).mpr h0) (fun h => h1 ((atLast_iff ⟨n + 1, hn⟩).mp h)),
          firstT c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) ((atFirst_iff ⟨n + 1, hn⟩).mpr h0) (fun h => h1 ((atLast_iff ⟨n + 1, hn⟩).mp h)))
    else
      if h1 : (n + 1) % 16 = 15 then
        (lastO c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) ((atLast_iff ⟨n + 1, hn⟩).mpr h1),
          lastP c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) ((atLast_iff ⟨n + 1, hn⟩).mpr h1),
          lastT c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) ((atLast_iff ⟨n + 1, hn⟩).mpr h1))
      else
        (noOut, midP c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) (fun h => h1 ((atLast_iff ⟨n + 1, hn⟩).mp h)),
          midT c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) (fun h => h1 ((atLast_iff ⟨n + 1, hn⟩).mp h)))

/-- The contents the point before `t` left. -/
abbrev prevAt (c : Dev nD) (t : Fin cfg0.N) := accAt m c (t.val - 1) (Nat.lt_of_le_of_lt (Nat.sub_le _ _) t.isLt)

theorem accAt_first (c : Dev nD) (t : Fin cfg0.N) (h0 : t.val % 16 = 0) (h1 : ¬t.val % 16 = 15) :
    accAt m c t.val t.isLt = (noOut, firstP c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) ((atFirst_iff t).mpr h0) (fun h => h1 ((atLast_iff t).mp h)),
      firstT c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) ((atFirst_iff t).mpr h0) (fun h => h1 ((atLast_iff t).mp h))) := by
  obtain ⟨n, hn⟩ := t
  cases n with
  | zero => exact rfl
  | succ n => exact (dif_pos h0).trans ((dif_neg h1).trans rfl)

theorem accAt_mid (c : Dev nD) (t : Fin cfg0.N) (h0 : ¬t.val % 16 = 0) (h1 : ¬t.val % 16 = 15) :
    accAt m c t.val t.isLt = (noOut, midP c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) (fun h => h1 ((atLast_iff t).mp h)),
      midT c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) (fun h => h1 ((atLast_iff t).mp h))) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 16 = 0) (h1 : t.val % 16 = 15) :
    accAt m c t.val t.isLt = (lastO c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) ((atLast_iff t).mpr h1),
      lastP c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) ((atLast_iff t).mpr h1),
      lastT c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) ((atLast_iff t).mpr h1)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at entry both accumulators at anything; afterwards each at what the point before left. -/
def PhiS (c : Dev nD) : (n : ℕ) → n ≤ cfg0.N → sProp 𝕄
  | 0, _ => Pipeline.ΦA spec0 c
  | n + 1, hn => iprop(iprop(owns (c : Thread nD τ) accP fullShare ((accAt m c n hn).2.1) ∗ owns (c : Thread nD τ) accT fullShare ((accAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accP fullShare ((accAt m c n hn).2.1) ∗ owns (c : Thread nD τ) accT fullShare ((accAt m c n hn).2.2)) ∗ (∃ r, prngReg c r)) := rfl
theorem PhiS_pos (c : Dev nD) (n : ℕ) (h : n ≤ cfg0.N) (hz : n ≠ 0) :
    PhiS m c n h = iprop(iprop(owns (c : Thread nD τ) accP fullShare ((accAt m c (n - 1) (by omega)).2.1) ∗ owns (c : Thread nD τ) accT fullShare ((accAt m c (n - 1) (by omega)).2.2)) ∗ (∃ r, prngReg c r)) := by
  cases n with
  | zero => exact absurd rfl hz
  | succ n => rfl

/-! ## The pipeline's proof data -/

/-- On core `c`: the arrays as the region finds them; after the body each input's buffer at its block and the
    output's at `accAt`; the invariant above; nothing owed. The two windows on the converted stack hold one half of
    it each; every other array is held whole. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => (accAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = (accAt m c t.val t.isLt).1 := by dsimp only [dats]
theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d
theorem before3 (c : Dev nD) (t : Fin cfg0.N) (d) : (dats m 0 c).before 3 t d = blockAt m c 3 t :=
  before3_of m (dats m 0 c) (A_eq m c 3) (after3 m c) t d

end Cert.Kernel.Hand

end
-- ==== Proof.KBBody.lean ====
/-
  The body's obligation at every grid point: from the invariant and every window's buffer at what it then holds,
  the body runs to the invariant at the next point and every buffer at what the proof data says it leaves. The
  point's case (first, middle or last column tile) is read off `t % 16`; the inputs' buffers hold their blocks; the
  output's buffer is handed back untouched except at a last column tile.
-/
import proofs.«124993_j78073915507043_1_alg».proof.Proof.KBFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · have h1 : ¬t.val % 16 = 15 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [Dat.leavesExact_idle (dats m 0 c) 4 t (idle4 t (fun h => h1 ((atLast_iff t).mp h))) (noFlush4 t (fun h => h1 ((atLast_iff t).mp h)))]
    rw [accAt_first m c t h0 h1]
    unfold firstP firstT; (try dsimp only)
    by_cases hz : t.val = 0
    · rw [PhiS_castSucc m c t, PhiS_zero m c _ _ hz, PhiA_eq]
      iintro ⟨⟨⟨HP, HT⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (blockAt m c 0 t) (blockAt m c 1 t) (blockAt m c 2 t) (blockAt m c 3 t)).2.2 _ Set.univ _)
      isplitl [H0]; · iexact H0
      isplitl [H1]; · iexact H1
      isplitl [H2]; · iexact H2
      isplitl [H3]; · iexact H3
      isplitl [H4]; · iexact H4
      isplitl [HP]; · iexact HP
      isplitl [HT]; · iexact HT
      iintro ⟨H0, H1, H2, H3, H4, ⟨%ep, HP⟩, ⟨%et, HT⟩⟩
      isplitl [HP HT Hg]
      · isplitl [HP HT]
        · isplitl [HP]
          · unfold owns; iexists _; isplitr
            swap; · iexact HP
            ipureintro; exact View.read_writes_of_cover _ _ _ _ _ (coverFirstP c _ _ _ _ _ _ _ _ _ _ _ _ _ _ _ _ _ _ _ _ _)
          · unfold owns; iexists _; isplitr
            swap; · iexact HT
            ipureintro; exact View.read_writes_of_cover _ _ _ _ _ (coverFirstT c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HP, HT⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (blockAt m c 0 t) (blockAt m c 1 t) (blockAt m c 2 t) (blockAt m c 3 t)).2.2 _ Set.univ _)
      isplitl [H0]; · iexact H0
      isplitl [H1]; · iexact H1
      isplitl [H2]; · iexact H2
      isplitl [H3]; · iexact H3
      isplitl [H4]; · iexact H4
      isplitl [HP]; · iexists _; iexact HP
      isplitl [HT]; · iexists _; iexact HT
      iintro ⟨H0, H1, H2, H3, H4, ⟨%ep, HP⟩, ⟨%et, HT⟩⟩
      isplitl [HP HT Hg]
      · isplitl [HP HT]
        · isplitl [HP]
          · unfold owns; iexists _; isplitr
            swap; · iexact HP
            ipureintro; exact View.read_writes_of_cover _ _ _ _ _ (coverFirstP c _ _ _ _ _ _ _ _ _ _ _ _ _ _ _ _ _ _ _ _ _)
          · unfold owns; iexists _; isplitr
            swap; · iexact HT
            ipureintro; exact View.read_writes_of_cover _ _ _ _ _ (coverFirstT c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 16 = 15
    · skip
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t ((atLast_iff t).mpr h1)], after4]
      rw [accAt_last m c t h0 h1]
      unfold lastO lastP lastT; (try dsimp only)
      rw [PhiS_castSucc m c t, PhiS_pos m c _ _ hz]
      iintro ⟨⟨⟨HP, HT⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((atFirst_iff t).mp h)) ((atLast_iff t).mpr h1) (blockAt m c 0 t) (blockAt m c 1 t) (blockAt m c 2 t) (blockAt m c 3 t) _ _).2.2.2 Set.univ _)
      isplitl [H0]; · iexact H0
      isplitl [H1]; · iexact H1
      isplitl [H2]; · iexact H2
      isplitl [H3]; · iexact H3
      isplitl [H4]; · iexists _; iexact H4
      isplitl [HP]; · iexact HP
      isplitl [HT]; · iexact HT
      iintro ⟨H0, H1, H2, H3, ⟨%eo, H4⟩, ⟨%ep, HP⟩, ⟨%et, HT⟩⟩
      isplitl [HP HT Hg]
      · isplitl [HP HT]
        · isplitl [HP]
          · unfold owns; iexists _; isplitr
            swap; · iexact HP
            ipureintro; exact View.read_writes_of_cover _ _ _ _ _ (coverLastP c _ _ _ _ _ _ _ _ _ _ _ _ _ _ _ _ _ _ _ _ _ _ _)
          · unfold owns; iexists _; isplitr
            swap; · iexact HT
            ipureintro; exact View.read_writes_of_cover _ _ _ _ _ (coverLastT c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO c _ _ _ _ _ _ _ _ _ _ _ _ _ _ _ _ _ _ _ _ _ _ _)
    · skip
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((atLast_iff t).mp h))) (noFlush4 t (fun h => h1 ((atLast_iff t).mp h)))]
      rw [accAt_mid m c t h0 h1]
      unfold midP midT; (try dsimp only)
      rw [PhiS_castSucc m c t, PhiS_pos m c _ _ hz]
      iintro ⟨⟨⟨HP, HT⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((atFirst_iff t).mp h)) (fun h => h1 ((atLast_iff t).mp h)) (blockAt m c 0 t) (blockAt m c 1 t) (blockAt m c 2 t) (blockAt m c 3 t) _ _).2.2 _ Set.univ _)
      isplitl [H0]; · iexact H0
      isplitl [H1]; · iexact H1
      isplitl [H2]; · iexact H2
      isplitl [H3]; · iexact H3
      isplitl [H4]; · iexact H4
      isplitl [HP]; · iexact HP
      isplitl [HT]; · iexact HT
      iintro ⟨H0, H1, H2, H3, H4, ⟨%ep, HP⟩, ⟨%et, HT⟩⟩
      isplitl [HP HT Hg]
      · isplitl [HP HT]
        · isplitl [HP]
          · unfold owns; iexists _; isplitr
            swap; · iexact HP
            ipureintro; exact View.read_writes_of_cover _ _ _ _ _ (coverMidP c _ _ _ _ _ _ _ _ _ _ _ _ _ _ _ _ _ _ _ _ _ _ _)
          · unfold owns; iexists _; isplitr
            swap; · iexact HT
            ipureintro; exact View.read_writes_of_cover _ _ _ _ _ (coverMidT c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the entry invariant back: the accumulators' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HP, HT⟩, Hg⟩
  isplitl [HP HT]
  · isplitl [HP]
    · iexists _; iexact HP
    · iexists _; iexact HT
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.KBLaunch.lean ====
/-
  The launch: @main as three segments — the five host operations, the region, the four host operations that take
  the mean — and what every final state holds.

  The converted stack is read by two windows. Its buffer, whole at the region's entry, is dealt to them by halves of
  the full share (both windows only read it), and the halves are joined again at the region's exit, so that the
  host operations after the region run over every unscoped buffer held whole, as those before it do. The output
  array leaves the region at what the write-backs made of it (`Dat.arrAt`); every other buffer as it entered.
-/
import proofs.«124993_j78073915507043_1_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- Core `c`'s buffers at launch, as a valuation. -/
abbrev Vlaunch (c : Dev nD) : Valuation τ sig (Elt F) := fun b => m (c, b)

/-- What rides beside the buffers: the core owes nothing, and its generator register is at some state. -/
abbrev Rg (c : Dev nD) : sProp 𝕄 :=
  iprop((∃ W, owes (c : Thread nD τ) (0 : CellTallies nD τ sig Unit) W) ∗ (∃ r, prngReg c r))

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The buffers when the region is left: the output array at what the write-backs made of it, every other buffer
    as the region found it. -/
def Vexit (c : Dev nD) : Valuation τ sig (Elt F) :=
  Function.update (V0 m c) (Proc.devRef .tc main_v5) ((dats m 0 c).arrAt 4 cfg0.N)

theorem Vexit_v5 (c : Dev nD) : Vexit m c (Proc.devRef .tc main_v5) = (dats m 0 c).arrAt 4 cfg0.N := by
  unfold Vexit; exact Function.update_self _ _ _
theorem Vexit_of_ne (c : Dev nD) (b : Ref sig .tc) (hb : b ≠ main_v5) : Vexit m c (Proc.devRef .tc b) = V m c b := by
  unfold Vexit; exact Function.update_of_ne (fun e => hb (Proc.devRef_injective _ e)) _ _

/-! ## The arrays, window by window, and the buffers behind them -/

theorem arrays_list (c : Dev nD) (G : (w : Fin cfg0.W) → Buf (Elt F) ((cfg0.win w).arr.view.loc (c.tc : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v3) ↦{fullShare} G 2) ∗ (((c : Thread nD τ).loc main_v4) ↦{fullShare} G 3)
          ∗ (((c : Thread nD τ).loc main_v5) ↦{fullShare} G 4)) := by
  have h : ((dats m 0 c).arrays G : sProp 𝕄)
      = bigSep Finset.univ fun w => (((c.tc : Thread nD τ).loc (Pipeline.arrRef spec0 w)) ↦{(dats m 0 c).share w} G w : sProp 𝕄) := by
    unfold Dat.arrays
    exact bigSep_congr fun w _ => by rw [(arr_whole0 w).set_eq_univ]
  rw [h, bigSep_W0]
  rfl

theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v3) ↦{fullShare} W main_v3)
          ∗ (((c : Thread nD τ).loc main_v4) ↦{fullShare} W main_v4) ∗ (((c : Thread nD τ).loc main_v5) ↦{fullShare} W main_v5)) :=
  bigSep_eq_bigSepL_of_eq [main_v1, main_v3, main_v4, main_v5] (by decide) (by decide) _

/-- An input array is never written: it leaves the region as it entered. -/
theorem arrAt_in0 (c : Dev nD) (n : ℕ) : (dats m 0 c).arrAt 0 n = V m c main_v1 := ((dats m 0 c).arrAt_in 0 rfl n).trans (A_eq m c 0)
theorem arrAt_in1 (c : Dev nD) (n : ℕ) : (dats m 0 c).arrAt 1 n = V m c main_v1 := ((dats m 0 c).arrAt_in 1 rfl n).trans (A_eq m c 1)
theorem arrAt_in2 (c : Dev nD) (n : ℕ) : (dats m 0 c).arrAt 2 n = V m c main_v3 := ((dats m 0 c).arrAt_in 2 rfl n).trans (A_eq m c 2)
theorem arrAt_in3 (c : Dev nD) (n : ℕ) : (dats m 0 c).arrAt 3 n = V m c main_v4 := ((dats m 0 c).arrAt_in 3 rfl n).trans (A_eq m c 3)
theorem arrAt_out0 (c : Dev nD) : (dats m 0 c).arrAt 4 0 = V m c main_v5 := A_eq m c 4

/-- ENTRY: the buffers behind the arrays, whole, are the windows' arrays at their shares. -/
theorem arrays_in (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_list, arrays_list, arrAt_in0, arrAt_in1, arrAt_in2, arrAt_in3, arrAt_out0]
  iintro ⟨H1, H3, H4, H5⟩
  ihave Hs := (pointsTo_share (PosShare.mem_left_op_right fullShare)).1 $$ H1
  icases Hs with ⟨Ha, Hb⟩
  isplitl [Ha]; · iexact Ha
  isplitl [Hb]; · iexact Hb
  isplitl [H3]; · iexact H3
  isplitl [H4]; · iexact H4
  iexact H5

/-- EXIT: the windows' arrays at their final contents are the buffers behind them, whole, at the exit contents. -/
theorem arrays_out (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => Vexit m c (Proc.devRef .tc b)) := by
  rw [arrBufs_list, arrays_list, arrAt_in0, arrAt_in1, arrAt_in2, arrAt_in3,
    Vexit_v5, Vexit_of_ne m c main_v1 (by decide), Vexit_of_ne m c main_v3 (by decide), Vexit_of_ne m c main_v4 (by decide)]
  iintro ⟨Ha, Hb, H3, H4, H5⟩
  isplitl [Ha Hb]
  · iapply (pointsTo_share (PosShare.mem_left_op_right fullShare)).2
    isplitl [Ha]; · iexact Ha
    iexact Hb
  isplitl [H3]; · iexact H3
  isplitl [H4]; · iexact H4
  iexact H5

/-- The buffers no window stages keep their contents through the region. -/
theorem rest_exit (c : Dev nD) :
    (Pipeline.unscopedRest (Ix := Unit) (Name := ℕ) (U := UR sig nD τ) (Lvl := ℕ) spec0 c (fun b => Vexit m c (Proc.devRef .tc b)) : sProp 𝕄)
      = Pipeline.unscopedRest spec0 c (V m c) := by
  unfold Pipeline.unscopedRest
  exact bigSep_congr fun b hb => by
    have hne : b ≠ main_v5 := fun e => (Finset.mem_sdiff.mp hb).2 (Finset.mem_image.mpr ⟨4, Finset.mem_univ _, e ▸ rfl⟩)
    beta_reduce
    rw [Vexit_of_ne m c b hne]

/-- A core's unscoped buffers are the buffers behind the arrays and the rest. -/
theorem bufs_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs spec0 c W ∗ Pipeline.unscopedRest spec0 c W) :=
  Pipeline.unscopedBufs_split₀ cfgs 0 winFacts₀0.arr_unscoped c W

/-! ## The segments -/

/-- The five host operations before the region, over the unscoped buffers held whole. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vlaunch m) Rg

/-- The four host operations after it, likewise, from the exit contents. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (Vexit m) Rg

/-- What the last segment leaves: every unscoped buffer whole, at the contents after the mean. -/
abbrev Tend (c : Dev nD) : sProp 𝕄 :=
  StableHlo.held (c : Thread nD τ) (Pipeline.ucRefs τ sig) (StableHlo.after hostOps1 (Vexit m c))

set_option backward.isDefEq.respectTransparency.types false in
/-- The region: entered from what the first segment left — the buffers behind the arrays dealt to the windows, the
    generator register into the invariant, every other buffer bypassing —, left with every unscoped buffer whole
    again at the exit contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vlaunch m c)) ∗ Rg c)
  post c := iprop(StableHlo.held (c : Thread nD τ) (Pipeline.ucRefs τ sig) (Vexit m c) ∗ Rg c)
  X c := iprop(∃ r, prngReg c r)
  Y c := iprop(∃ r, prngReg c r)
  Z c := Pipeline.unscopedRest spec0 c (V m c)
  hentry c := by
    rw [show StableHlo.held (c : Thread nD τ) (Pipeline.ucRefs τ sig) (StableHlo.after hostOps0 (Vlaunch m c)) = unscopedBufs c (V m c) from (Pipeline.unscopedBufs_held c _).symm,
      bufs_split]
    iintro ⟨⟨⟨Hab, Hrest⟩, ⟨HO, Hg⟩⟩, -, -⟩
    ihave Ha := (arrays_in m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    refine BIBase.Entails.trans ?_ (hin m c)
    unfold Pipeline.ΦA
    iintro ⟨Hg, -, Hr⟩
    isplitl [Hr]; · iexact Hr
    iexact Hg
  hout c := by
    refine (hout m c).trans ?_
    rw [Pipeline.ownSems0_none]; unfold Pipeline.ΦA
    iintro ⟨Hr, Hg⟩
    isplitl [Hg]; · iexact Hg
    isplitr; · iempintro
    iexact Hr
  hexit c := by
    rw [show StableHlo.held (c : Thread nD τ) (Pipeline.ucRefs τ sig) (Vexit m c) = unscopedBufs c (fun b => Vexit m c (Proc.devRef .tc b)) from (Pipeline.unscopedBufs_held c _).symm,
      bufs_split, rest_exit]
    iintro ⟨Ha, HO, HY, HZ⟩
    imodintro
    isplitr [HO HY]
    · isplitl [Ha]
      · iapply (arrays_out m c); iexact Ha
      iexact HZ
    · isplitl [HO]
      · unfold Pipeline.Dat.owesAt Pipeline.owesWithin
        icases HO with ⟨%W, -, HO⟩; iexists W; iexact HO
      iexact HY

/-- @main as the list of the three. -/
abbrev segs : List (Pipeline.Seg (pcfgs (F := F)) adm (dats m) () defs₀ 𝒱₀ L lv) := [.host (seg0 m), .region (reg0 m), .host (seg1 m)]

/-- What every final state holds: each unscoped buffer at the contents after the mean. -/
def QC : PUnit × MemSt nD τ sig (Elt F) → Prop := fun r =>
  ∀ c : Dev nD, ∀ b ∈ Pipeline.ucRefs τ sig, r.2.mem ((c : Thread nD τ).1, b) = StableHlo.after hostOps1 (Vexit m c) b

set_option backward.isDefEq.respectTransparency.types false in
/-- At the compiled mesh, for any float values, from any memory with zero counters: every weakly fair execution of
    @main on the TensorCores terminates, and every final state has each unscoped buffer at the contents the three
    segments compute. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vlaunch m c) ∗ Rg c)) (Tₙ := Tend m)
    (hch := ⟨fun _ => .rfl, fun _ => .rfl, fun _ => .rfl, fun c =>
      (show iprop(StableHlo.held (c : Thread nD τ) (Pipeline.ucRefs τ sig) (StableHlo.after hostOps1 (Vexit m c)) ∗ Rg c)
          ⊢ iprop(Tend m c ∗ ∃ W, owes (c : Thread nD τ) (0 : CellTallies nD τ sig Unit) W) from by
        iintro ⟨Hh, ⟨HO, -⟩⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (Vlaunch m c) from Pipeline.unscopedBufs_held c (Vlaunch m c)]
      iintro ⟨⟨Hh, -, HO, -, Hg, -⟩, -⟩
      imodintro
      isplitl [Hh]; · iexact Hh
      isplitl [HO]; · iexists ∅; iexact HO
      iexists _; iexact Hg)
    (QY := fun c s => ∀ b ∈ Pipeline.ucRefs τ sig, s.mem ((c : Thread nD τ).1, b) = StableHlo.after hostOps1 (Vexit m c) b)
    (hfin := fun c s' => by
      show iprop(StableHlo.held (c : Thread nD τ) (Pipeline.ucRefs τ sig) (StableHlo.after hostOps1 (Vexit m c)) ∗ SI s') ⊢ _
      unfold StableHlo.held
      iintro ⟨Hh, HSI⟩
      ihave Hr := (pointsTo_read_all (Pipeline.ucRefs τ sig) (fun b => ((c : Thread nD τ).1, b)) (fun b => StableHlo.after hostOps1 (Vexit m c) b) s') $$ [Hh HSI]
      · isplitl [Hh] <;> iassumption
      icases Hr with ⟨%ha, HSI⟩
      imodintro
      isplitr; · ipureintro; exact ha
      iexact HSI)
    (hQ := fun _ h => h)

end Cert.Kernel.Hand

end
-- ==== Proof.KBClaims.lean ====
/-
  What the run's post says of the buffers the claims name: the three argument arrays are written by no host
  operation and by no write-back, so they end as launched; the result is the mean — the sum from zero of the output
  array as the region left it, divided by 8192.
-/
import proofs.«124993_j78073915507043_1_alg».proof.Proof.KBLaunch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem not_written0 (b : Ref sig .tc) (hb : b ≠ main_v0 ∧ b ≠ main_v1 ∧ b ≠ main_v2 ∧ b ≠ main_v3 ∧ b ≠ main_v4) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

theorem not_written1 (b : Ref sig .tc) (hb : b ≠ main_cst ∧ b ≠ main_v6 ∧ b ≠ main_cst_0 ∧ b ≠ main_v7) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

/-- A buffer that no host operation writes and that is not the output array ends as launched. -/
theorem end_kept (c : Dev nD) (b : Ref sig .tc) (h0 : b ≠ main_v0 ∧ b ≠ main_v1 ∧ b ≠ main_v2 ∧ b ≠ main_v3 ∧ b ≠ main_v4)
    (h1 : b ≠ main_cst ∧ b ≠ main_v6 ∧ b ≠ main_cst_0 ∧ b ≠ main_v7) (h5 : b ≠ main_v5) :
    StableHlo.after hostOps1 (Vexit m c) (Proc.devRef .tc b) = m ((c : Thread nD τ).loc b) :=
  (StableHlo.after_of_forall_not_mem (b := Proc.devRef .tc b) hostOps1 (Vexit m c) (not_written1 b h1)).trans
    ((Vexit_of_ne m c b h5).trans (StableHlo.after_of_forall_not_mem (b := Proc.devRef .tc b) hostOps0 (Vlaunch m c) (not_written0 b h0)))

theorem mem_uc (b : Ref sig .tc) (hb : b.isScoped = false) : Proc.devRef .tc b ∈ Pipeline.ucRefs τ sig := by
  unfold Pipeline.ucRefs StableHlo.tcRefs
  simp only [Finset.mem_filter, Finset.mem_map, Finset.mem_univ, true_and, Function.Embedding.coeFn_mk]
  exact ⟨⟨b, rfl⟩, by simp [hb]⟩

/-- THE FRAME: every weakly fair execution terminates, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 rfl)).trans (end_kept m c main_arg0 (by decide) (by decide) (by decide)),
     (h c _ (mem_uc main_arg1 rfl)).trans (end_kept m c main_arg1 (by decide) (by decide) (by decide)),
     (h c _ (mem_uc main_arg2 rfl)).trans (end_kept m c main_arg2 (by decide) (by decide) (by decide))⟩) (run_main m ρ)

/-- The result buffer: the mean of the output array as the region left it. -/
theorem end_v7 (c : Dev nD) :
    StableHlo.after hostOps1 (Vexit m c) (Proc.devRef .tc main_v7)
      = Host.divf (Host.reduceAdd (Vexit m c (Proc.devRef .tc main_v5)) (constant S_ .f32 0x00000000#32) reducesTo_S8192x1_S_d0_1 h_S_) (constant S_ .f32 0x46000000#32) := by
  show StableHlo.after hostOps1 (Vexit m c) (Proc.devRef .tc main_v7) = _
  after_results

end Cert.Kernel.Hand

end
-- ==== Proof.KIBase.lean ====
/-
  What the kernel's run is stated over, at any float instance.

  The region is entered after five host operations (the two views stacked, their conversion, the labels
  repeated and reshaped to a column and to a row): `V` names the buffers' contents at that moment. Window
  `w`'s block at grid point `t` is `blockAt w t`. The grid has 8 x 16 points, the column tile the fast axis:
  the body resets its two accumulators where the column tile is the first (`t % 16 = 0`) and stores the row
  losses where it is the last (`t % 16 = 15`); at every other point the output window is idle and its block is
  not written back. Windows 0 and 1 read the SAME array (the converted stack), at row tiles of 1024 and of 512.
-/
import proofs.«124993_j78073915507043_1_alg».proof.Proof.Gen.KernelIdeal.Launch
import proofs.«124993_j78073915507043_1_alg».proof.Proof.Gen.KernelIdeal.Skeleton
import proofs.«124993_j78073915507043_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the five host operations that precede the region. -/
abbrev V0 (c : Dev nD) : Valuation τ sig (Elt F) := StableHlo.after hostOps0 (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, decided over the grid -/

/-- The first column tile: the accumulators are reset here. -/
abbrev atFirst (i : grid0.Coords) : Prop :=
  (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The last column tile: the row losses are stored here. -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile the output window is idle and not written back; -/
theorem idle4 : ∀ t : Fin cfg0.N, ¬atLast (grid0.coords t) → cfg0.idle 4 (grid0.coords t) = true := by decide +kernel
theorem noFlush4 : ∀ t : Fin cfg0.N, ¬atLast (grid0.coords t) → (cfg0.win 4).flush t = false := by decide +kernel
/-- at the last column tile it is live. -/
theorem live4 : ∀ t : Fin cfg0.N, atLast (grid0.coords t) → cfg0.idle 4 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The two accumulators: the positives' and the plain one. -/
abbrev accP : Memref sig .tc .vmem S1024x1 .f32 := Memref.whole cc0_scratch0
abbrev accT : Memref sig .tc .vmem S1024x1 .f32 := Memref.whole cc0_scratch1
/-- The views through which the output block's and the accumulators' contents are stated. -/
abbrev viewO : View sig .tc .vmem S1024x1 .f32 := (Memref.whole cc0_stg4_0 : Memref sig .tc .vmem S1024x1 .f32).view
abbrev viewP : View sig .tc .vmem S1024x1 .f32 := accP.view
abbrev viewT : View sig .tc .vmem S1024x1 .f32 := accT.view

/-- The region's invariant at entry: both accumulators at anything, the generator register at some state. -/
theorem PhiA_eq (c : Dev nD) :
    (Pipeline.ΦA spec0 c : sProp 𝕄)
      = iprop(iprop((∃ d, owns (c : Thread nD τ) accP fullShare d) ∗ (∃ d, owns (c : Thread nD τ) accT fullShare d)) ∗ (∃ r, prngReg c r)) := by
  unfold Pipeline.ΦA; rw [scopedRest0_eq]; simp only [accP, accT, owns_whole]; try rfl

/-! ## An input's staging buffer holds its block at every point -/

theorem before0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

end Cert.KernelIdeal.Hand

end
-- ==== Proof.KIRunFirst.lean ====
/-
  The body at a FIRST column tile (the accumulators are reset, nothing is stored to the output block): on whole
  memrefs, the four inputs at their blocks, the output block at anything (handed back untouched), both accumulators at
  anything, the body runs and leaves each accumulator with the pieces it stored, last first.
-/
import proofs.«124993_j78073915507043_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the two accumulators at a first column tile, with the run that finds them. -/
noncomputable def runFirst (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : atFirst i) (hc1 : ¬atLast i)
    (x0 : Vec F S1024x128 .bf16) (x1 : Vec F S512x128 .bf16) (x2 : Vec F S1024x1 .i32) (x3 : Vec F S1x512 .i32) :
    Σ' (LP : List (View.Piece (Elt F) S1024x1 .f32)), { LT : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
                ∗ (∃ f, arg7.view.loc (c : Thread nD τ) ↦[arg7.view.set]{fullShare} arg7.view.writes (Elt F) f LP) ∗ (∃ f, arg8.view.loc (c : Thread nD τ) ↦[arg8.view.set]{fullShare} arg8.view.writes (Elt F) f LT)) -∗ K ⟨⟩))
          ⊢ wp frame (wpE (defs₀ (F := F)) Variants.none c none) E (cc0__supcon_kernel i arg2 harg2 arg3 harg3 arg4 harg4 arg5 harg5 arg6 harg6 arg7 harg7 arg8 harg8) K } := by
  refine ⟨?_, ?_, fun xo E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%fo, %hfo, HO⟩, ⟨%dp, %fp, -, HP⟩, ⟨%dt, %ft, -, HT⟩, Hk⟩
    obtain rfl := harg2.eq_unread hf0; obtain rfl := harg3.eq_unread hf1; obtain rfl := harg4.eq_unread hf2; obtain rfl := harg5.eq_unread hf3
    obtain rfl := harg6.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    isplitl [HP]; · iexists _; iexact HP
    iexists _; iexact HT

end Cert.KernelIdeal.Hand

end
-- ==== Proof.KIRunMid.lean ====
/-
  The body at a MIDDLE column tile (no reset, no store to the output block): the accumulators are found at what the
  tile before left and are each stored once.
-/
import proofs.«124993_j78073915507043_1_alg».proof.Proof.KIRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the two accumulators at a middle column tile, with the run that finds them. -/
noncomputable def runMid (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬atFirst i) (hc1 : ¬atLast i)
    (x0 : Vec F S1024x128 .bf16) (x1 : Vec F S512x128 .bf16) (x2 : Vec F S1024x1 .i32) (x3 : Vec F S1x512 .i32) (xsP xsT : Vec F S1024x1 .f32) :
    Σ' (LP : List (View.Piece (Elt F) S1024x1 .f32)), { LT : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare xsP ∗ owns (c : Thread nD τ) arg8 fullShare xsT
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
                ∗ (∃ f, arg7.view.loc (c : Thread nD τ) ↦[arg7.view.set]{fullShare} arg7.view.writes (Elt F) f LP) ∗ (∃ f, arg8.view.loc (c : Thread nD τ) ↦[arg8.view.set]{fullShare} arg8.view.writes (Elt F) f LT)) -∗ K ⟨⟩))
          ⊢ wp frame (wpE (defs₀ (F := F)) Variants.none c none) E (cc0__supcon_kernel i arg2 harg2 arg3 harg3 arg4 harg4 arg5 harg5 arg6 harg6 arg7 harg7 arg8 harg8) K } := by
  refine ⟨?_, ?_, fun xo E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%fo, %hfo, HO⟩, ⟨%fp, %hfp, HP⟩, ⟨%ft, %hft, HT⟩, Hk⟩
    obtain rfl := harg2.eq_unread hf0; obtain rfl := harg3.eq_unread hf1; obtain rfl := harg4.eq_unread hf2; obtain rfl := harg5.eq_unread hf3
    obtain rfl := harg6.eq_unread hfo; obtain rfl := harg7.eq_unread hfp; obtain rfl := harg8.eq_unread hft
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    isplitl [HP]; · iexists _; iexact HP
    iexists _; iexact HT

end Cert.KernelIdeal.Hand

end
-- ==== Proof.KIRunLast.lean ====
/-
  The body at a LAST column tile: the accumulators are found at what the tile before left, each is stored once, and
  the row losses computed from them are stored over the whole output block.
-/
import proofs.«124993_j78073915507043_1_alg».proof.Proof.KIRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the output block and in the two accumulators at a last column tile, with the run
    that finds them. -/
noncomputable def runLast (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬atFirst i) (hc1 : atLast i)
    (x0 : Vec F S1024x128 .bf16) (x1 : Vec F S512x128 .bf16) (x2 : Vec F S1024x1 .i32) (x3 : Vec F S1x512 .i32) (xsP xsT : Vec F S1024x1 .f32) :
    Σ' (LO : List (View.Piece (Elt F) S1024x1 .f32)) (LP : List (View.Piece (Elt F) S1024x1 .f32)), { LT : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xsP ∗ owns (c : Thread nD τ) arg8 fullShare xsT
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LP) ∗ (∃ f, arg8.view.loc (c : Thread nD τ) ↦[arg8.view.set]{fullShare} arg8.view.writes (Elt F) f LT)) -∗ K ⟨⟩))
          ⊢ wp frame (wpE (defs₀ (F := F)) Variants.none c none) E (cc0__supcon_kernel i arg2 harg2 arg3 harg3 arg4 harg4 arg5 harg5 arg6 harg6 arg7 harg7 arg8 harg8) K } := by
  refine ⟨?_, ?_, ?_, fun E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%dO, %fo, -, HO⟩, ⟨%fp, %hfp, HP⟩, ⟨%ft, %hft, HT⟩, Hk⟩
    obtain rfl := harg2.eq_unread hf0; obtain rfl := harg3.eq_unread hf1; obtain rfl := harg4.eq_unread hf2; obtain rfl := harg5.eq_unread hf3
    obtain rfl := harg7.eq_unread hfp; obtain rfl := harg8.eq_unread hft
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    isplitl [HP]; · iexists _; iexact HP
    iexists _; iexact HT

end Cert.KernelIdeal.Hand

end
-- ==== Proof.KIFrame.lean ====
/-
  The kernel's run, point by point.

  What the two accumulators and the output block hold after the body at each grid point, by recursion on the point
  (`accAt`): at a first column tile the accumulators hold what the reset-then-accumulate body stores, at every
  other tile what the body stores over the contents the tile before left; at a last column tile the output block
  holds the row losses computed from them. Then the proof data of the pipeline (the arrays as the region finds
  them; each input's buffer at its block; the output's at `accAt`; the invariant carrying the accumulators), and the
  body's obligation at every point.
-/
import proofs.«124993_j78073915507043_1_alg».proof.Proof.KIRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section Pieces
variable (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (x0 : Vec F S1024x128 .bf16) (x1 : Vec F S512x128 .bf16) (x2 : Vec F S1024x1 .i32) (x3 : Vec F S1x512 .i32)

theorem coverFirstP (hc0 : atFirst i) (hc1 : ¬atLast i) (y : S1024x1.Idx) :
    ∃ pc ∈ (runFirst c i arg2 harg2 arg3 harg3 arg4 harg4 arg5 harg5 arg6 harg6 arg7 harg7 arg8 harg8 hc0 hc1 x0 x1 x2 x3).1, y ∈ pc.1.set :=
  View.cover_of_tiledL (runFirst c i arg2 harg2 arg3 harg3 arg4 harg4 arg5 harg5 arg6 harg6 arg7 harg7 arg8 harg8 hc0 hc1 x0 x1 x2 x3).1 S1024x1.size (by sl_kernel_rfl) y
theorem coverFirstT (hc0 : atFirst i) (hc1 : ¬atLast i) (y : S1024x1.Idx) :
    ∃ pc ∈ (runFirst c i arg2 harg2 arg3 harg3 arg4 harg4 arg5 harg5 arg6 harg6 arg7 harg7 arg8 harg8 hc0 hc1 x0 x1 x2 x3).2.1, y ∈ pc.1.set :=
  View.cover_of_tiledL (runFirst c i arg2 harg2 arg3 harg3 arg4 harg4 arg5 harg5 arg6 harg6 arg7 harg7 arg8 harg8 hc0 hc1 x0 x1 x2 x3).2.1 S1024x1.size (by sl_kernel_rfl) y
/-- What a first column tile leaves in the positives' accumulator, and in the plain one. -/
def firstP (hc0 : atFirst i) (hc1 : ¬atLast i) : Vec F S1024x1 .f32 :=
  viewP.read (Elt F) (viewP.writes (Elt F) viewP.junk (runFirst c i arg2 harg2 arg3 harg3 arg4 harg4 arg5 harg5 arg6 harg6 arg7 harg7 arg8 harg8 hc0 hc1 x0 x1 x2 x3).1)
def firstT (hc0 : atFirst i) (hc1 : ¬atLast i) : Vec F S1024x1 .f32 :=
  viewT.read (Elt F) (viewT.writes (Elt F) viewT.junk (runFirst c i arg2 harg2 arg3 harg3 arg4 harg4 arg5 harg5 arg6 harg6 arg7 harg7 arg8 harg8 hc0 hc1 x0 x1 x2 x3).2.1)

variable (xsP xsT : Vec F S1024x1 .f32)

theorem coverMidP (hc0 : ¬atFirst i) (hc1 : ¬atLast i) (y : S1024x1.Idx) :
    ∃ pc ∈ (runMid c i arg2 harg2 arg3 harg3 arg4 harg4 arg5 harg5 arg6 harg6 arg7 harg7 arg8 harg8 hc0 hc1 x0 x1 x2 x3 xsP xsT).1, y ∈ pc.1.set :=
  View.cover_of_tiledL (runMid c i arg2 harg2 arg3 harg3 arg4 harg4 arg5 harg5 arg6 harg6 arg7 harg7 arg8 harg8 hc0 hc1 x0 x1 x2 x3 xsP xsT).1 S1024x1.size (by sl_kernel_rfl) y
theorem coverMidT (hc0 : ¬atFirst i) (hc1 : ¬atLast i) (y : S1024x1.Idx) :
    ∃ pc ∈ (runMid c i arg2 harg2 arg3 harg3 arg4 harg4 arg5 harg5 arg6 harg6 arg7 harg7 arg8 harg8 hc0 hc1 x0 x1 x2 x3 xsP xsT).2.1, y ∈ pc.1.set :=
  View.cover_of_tiledL (runMid c i arg2 harg2 arg3 harg3 arg4 harg4 arg5 harg5 arg6 harg6 arg7 harg7 arg8 harg8 hc0 hc1 x0 x1 x2 x3 xsP xsT).2.1 S1024x1.size (by sl_kernel_rfl) y
/-- What a middle column tile leaves in the two accumulators, over what the tile before left. -/
def midP (hc0 : ¬atFirst i) (hc1 : ¬atLast i) : Vec F S1024x1 .f32 :=
  viewP.read (Elt F) (viewP.writes (Elt F) viewP.junk (runMid c i arg2 harg2 arg3 harg3 arg4 harg4 arg5 harg5 arg6 harg6 arg7 harg7 arg8 harg8 hc0 hc1 x0 x1 x2 x3 xsP xsT).1)
def midT (hc0 : ¬atFirst i) (hc1 : ¬atLast i) : Vec F S1024x1 .f32 :=
  viewT.read (Elt F) (viewT.writes (Elt F) viewT.junk (runMid c i arg2 harg2 arg3 harg3 arg4 harg4 arg5 harg5 arg6 harg6 arg7 harg7 arg8 harg8 hc0 hc1 x0 x1 x2 x3 xsP xsT).2.1)

theorem coverLastO (hc0 : ¬atFirst i) (hc1 : atLast i) (y : S1024x1.Idx) :
    ∃ pc ∈ (runLast c i arg2 harg2 arg3 harg3 arg4 harg4 arg5 harg5 arg6 harg6 arg7 harg7 arg8 harg8 hc0 hc1 x0 x1 x2 x3 xsP xsT).1, y ∈ pc.1.set :=
  View.cover_of_tiledL (runLast c i arg2 harg2 arg3 harg3 arg4 harg4 arg5 harg5 arg6 harg6 arg7 harg7 arg8 harg8 hc0 hc1 x0 x1 x2 x3 xsP xsT).1 S1024x1.size (by sl_kernel_rfl) y
theorem coverLastP (hc0 : ¬atFirst i) (hc1 : atLast i) (y : S1024x1.Idx) :
    ∃ pc ∈ (runLast c i arg2 harg2 arg3 harg3 arg4 harg4 arg5 harg5 arg6 harg6 arg7 harg7 arg8 harg8 hc0 hc1 x0 x1 x2 x3 xsP xsT).2.1, y ∈ pc.1.set :=
  View.cover_of_tiledL (runLast c i arg2 harg2 arg3 harg3 arg4 harg4 arg5 harg5 arg6 harg6 arg7 harg7 arg8 harg8 hc0 hc1 x0 x1 x2 x3 xsP xsT).2.1 S1024x1.size (by sl_kernel_rfl) y
theorem coverLastT (hc0 : ¬atFirst i) (hc1 : atLast i) (y : S1024x1.Idx) :
    ∃ pc ∈ (runLast c i arg2 harg2 arg3 harg3 arg4 harg4 arg5 harg5 arg6 harg6 arg7 harg7 arg8 harg8 hc0 hc1 x0 x1 x2 x3 xsP xsT).2.2.1, y ∈ pc.1.set :=
  View.cover_of_tiledL (runLast c i arg2 harg2 arg3 harg3 arg4 harg4 arg5 harg5 arg6 harg6 arg7 harg7 arg8 harg8 hc0 hc1 x0 x1 x2 x3 xsP xsT).2.2.1 S1024x1.size (by sl_kernel_rfl) y
/-- What a last column tile leaves in the output block and in the two accumulators. -/
def lastO (hc0 : ¬atFirst i) (hc1 : atLast i) : Vec F S1024x1 .f32 :=
  viewO.read (Elt F) (viewO.writes (Elt F) viewO.junk (runLast c i arg2 harg2 arg3 harg3 arg4 harg4 arg5 harg5 arg6 harg6 arg7 harg7 arg8 harg8 hc0 hc1 x0 x1 x2 x3 xsP xsT).1)
def lastP (hc0 : ¬atFirst i) (hc1 : atLast i) : Vec F S1024x1 .f32 :=
  viewP.read (Elt F) (viewP.writes (Elt F) viewP.junk (runLast c i arg2 harg2 arg3 harg3 arg4 harg4 arg5 harg5 arg6 harg6 arg7 harg7 arg8 harg8 hc0 hc1 x0 x1 x2 x3 xsP xsT).2.1)
def lastT (hc0 : ¬atFirst i) (hc1 : atLast i) : Vec F S1024x1 .f32 :=
  viewT.read (Elt F) (viewT.writes (Elt F) viewT.junk (runLast c i arg2 harg2 arg3 harg3 arg4 harg4 arg5 harg5 arg6 harg6 arg7 harg7 arg8 harg8 hc0 hc1 x0 x1 x2 x3 xsP xsT).2.2.1)

end Pieces

/-- The output block where nothing is stored into it: a placeholder nothing consults (the window is idle there and
    its block is not written back). -/
def noOut : Vec F S1024x1 .f32 := viewO.read (Elt F) (viewO.writes (Elt F) viewO.junk [])

/-! ## The accumulation, point by point -/

/-- After the body at position `n`: the output block, the positives' accumulator, the plain accumulator. -/
def accAt (c : Dev nD) : (n : ℕ) → n < cfg0.N → Vec F S1024x1 .f32 × Vec F S1024x1 .f32 × Vec F S1024x1 .f32
  | 0, hn =>
    (noOut, firstP c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accP (Memref.isWhole_whole _) accT (Memref.isWhole_whole _) (blockAt m c 0 ⟨0, hn⟩) (blockAt m c 1 ⟨0, hn⟩) (blockAt m c 2 ⟨0, hn⟩) (blockAt m c 3 ⟨0, hn⟩) ((atFirst_iff ⟨0, hn⟩).mpr (Nat.zero_mod _)) (fun h => (by decide : ¬ (0 % 16 = 15)) ((atLast_iff ⟨0, hn⟩).mp h)),
      firstT c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accP (Memref.isWhole_whole _) accT (Memref.isWhole_whole _) (blockAt m c 0 ⟨0, hn⟩) (blockAt m c 1 ⟨0, hn⟩) (blockAt m c 2 ⟨0, hn⟩) (blockAt m c 3 ⟨0, hn⟩) ((atFirst_iff ⟨0, hn⟩).mpr (Nat.zero_mod _)) (fun h => (by decide : ¬ (0 % 16 = 15)) ((atLast_iff ⟨0, hn⟩).mp h)))
  | n + 1, hn =>
    if h0 : (n + 1) % 16 = 0 then
      if h1 : (n + 1) % 16 = 15 then False.elim (by omega)
      else
        (noOut, firstP c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) ((atFirst_iff ⟨n + 1, hn⟩).mpr h0) (fun h => h1 ((atLast_iff ⟨n + 1, hn⟩).mp h)),
          firstT c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) ((atFirst_iff ⟨n + 1, hn⟩).mpr h0) (fun h => h1 ((atLast_iff ⟨n + 1, hn⟩).mp h)))
    else
      if h1 : (n + 1) % 16 = 15 then
        (lastO c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) ((atLast_iff ⟨n + 1, hn⟩).mpr h1),
          lastP c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) ((atLast_iff ⟨n + 1, hn⟩).mpr h1),
          lastT c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) ((atLast_iff ⟨n + 1, hn⟩).mpr h1))
      else
        (noOut, midP c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) (fun h => h1 ((atLast_iff ⟨n + 1, hn⟩).mp h)),
          midT c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accP (Memref.isWhole_whole _) accT (Memref.isWhole_whole _) (blockAt m c 0 ⟨n + 1, hn⟩) (blockAt m c 1 ⟨n + 1, hn⟩) (blockAt m c 2 ⟨n + 1, hn⟩) (blockAt m c 3 ⟨n + 1, hn⟩) (accAt c n (Nat.lt_of_succ_lt hn)).2.1 (accAt c n (Nat.lt_of_succ_lt hn)).2.2 (fun h => h0 ((atFirst_iff ⟨n + 1, hn⟩).mp h)) (fun h => h1 ((atLast_iff ⟨n + 1, hn⟩).mp h)))

/-- The contents the point before `t` left. -/
abbrev prevAt (c : Dev nD) (t : Fin cfg0.N) := accAt m c (t.val - 1) (Nat.lt_of_le_of_lt (Nat.sub_le _ _) t.isLt)

theorem accAt_first (c : Dev nD) (t : Fin cfg0.N) (h0 : t.val % 16 = 0) (h1 : ¬t.val % 16 = 15) :
    accAt m c t.val t.isLt = (noOut, firstP c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) ((atFirst_iff t).mpr h0) (fun h => h1 ((atLast_iff t).mp h)),
      firstT c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) ((atFirst_iff t).mpr h0) (fun h => h1 ((atLast_iff t).mp h))) := by
  obtain ⟨n, hn⟩ := t
  cases n with
  | zero => exact rfl
  | succ n => exact (dif_pos h0).trans ((dif_neg h1).trans rfl)

theorem accAt_mid (c : Dev nD) (t : Fin cfg0.N) (h0 : ¬t.val % 16 = 0) (h1 : ¬t.val % 16 = 15) :
    accAt m c t.val t.isLt = (noOut, midP c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) (fun h => h1 ((atLast_iff t).mp h)),
      midT c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) (fun h => h1 ((atLast_iff t).mp h))) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 16 = 0) (h1 : t.val % 16 = 15) :
    accAt m c t.val t.isLt = (lastO c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) ((atLast_iff t).mpr h1),
      lastP c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) ((atLast_iff t).mpr h1),
      lastT c (grid0.coords t) (ms0 t) (hs0 t) (ms1 t) (hs1 t) (ms2 t) (hs2 t) (ms3 t) (hs3 t) (ms4 t) (hs4 t) accP (Memref.isWhole_whole _) accT (Memref.isWhole_whole _) (blockAt m c 0 t) (blockAt m c 1 t) (blockAt m c 2 t) (blockAt m c 3 t) (prevAt m c t).2.1 (prevAt m c t).2.2 (fun h => h0 ((atFirst_iff t).mp h)) ((atLast_iff t).mpr h1)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at entry both accumulators at anything; afterwards each at what the point before left. -/
def PhiS (c : Dev nD) : (n : ℕ) → n ≤ cfg0.N → sProp 𝕄
  | 0, _ => Pipeline.ΦA spec0 c
  | n + 1, hn => iprop(iprop(owns (c : Thread nD τ) accP fullShare ((accAt m c n hn).2.1) ∗ owns (c : Thread nD τ) accT fullShare ((accAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accP fullShare ((accAt m c n hn).2.1) ∗ owns (c : Thread nD τ) accT fullShare ((accAt m c n hn).2.2)) ∗ (∃ r, prngReg c r)) := rfl
theorem PhiS_pos (c : Dev nD) (n : ℕ) (h : n ≤ cfg0.N) (hz : n ≠ 0) :
    PhiS m c n h = iprop(iprop(owns (c : Thread nD τ) accP fullShare ((accAt m c (n - 1) (by omega)).2.1) ∗ owns (c : Thread nD τ) accT fullShare ((accAt m c (n - 1) (by omega)).2.2)) ∗ (∃ r, prngReg c r)) := by
  cases n with
  | zero => exact absurd rfl hz
  | succ n => rfl

/-! ## The pipeline's proof data -/

/-- On core `c`: the arrays as the region finds them; after the body each input's buffer at its block and the
    output's at `accAt`; the invariant above; nothing owed. The two windows on the converted stack hold one half of
    it each; every other array is held whole. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => (accAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = (accAt m c t.val t.isLt).1 := by dsimp only [dats]
theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d
theorem before3 (c : Dev nD) (t : Fin cfg0.N) (d) : (dats m 0 c).before 3 t d = blockAt m c 3 t :=
  before3_of m (dats m 0 c) (A_eq m c 3) (after3 m c) t d

end Cert.KernelIdeal.Hand

end
-- ==== Proof.KIBody.lean ====
/-
  The body's obligation at every grid point: from the invariant and every window's buffer at what it then holds,
  the body runs to the invariant at the next point and every buffer at what the proof data says it leaves. The
  point's case (first, middle or last column tile) is read off `t % 16`; the inputs' buffers hold their blocks; the
  output's buffer is handed back untouched except at a last column tile.
-/
import proofs.«124993_j78073915507043_1_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · have h1 : ¬t.val % 16 = 15 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [Dat.leavesExact_idle (dats m 0 c) 4 t (idle4 t (fun h => h1 ((atLast_iff t).mp h))) (noFlush4 t (fun h => h1 ((atLast_iff t).mp h)))]
    rw [accAt_first m c t h0 h1]
    unfold firstP firstT; (try dsimp only)
    by_cases hz : t.val = 0
    · rw [PhiS_castSucc m c t, PhiS_zero m c _ _ hz, PhiA_eq]
      iintro ⟨⟨⟨HP, HT⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (blockAt m c 0 t) (blockAt m c 1 t) (blockAt m c 2 t) (blockAt m c 3 t)).2.2 _ Set.univ _)
      isplitl [H0]; · iexact H0
      isplitl [H1]; · iexact H1
      isplitl [H2]; · iexact H2
      isplitl [H3]; · iexact H3
      isplitl [H4]; · iexact H4
      isplitl [HP]; · iexact HP
      isplitl [HT]; · iexact HT
      iintro ⟨H0, H1, H2, H3, H4, ⟨%ep, HP⟩, ⟨%et, HT⟩⟩
      isplitl [HP HT Hg]
      · isplitl [HP HT]
        · isplitl [HP]
          · unfold owns; iexists _; isplitr
            swap; · iexact HP
            ipureintro; exact View.read_writes_of_cover _ _ _ _ _ (coverFirstP c _ _ _ _ _ _ _ _ _ _ _ _ _ _ _ _ _ _ _ _ _)
          · unfold owns; iexists _; isplitr
            swap; · iexact HT
            ipureintro; exact View.read_writes_of_cover _ _ _ _ _ (coverFirstT c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HP, HT⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (blockAt m c 0 t) (blockAt m c 1 t) (blockAt m c 2 t) (blockAt m c 3 t)).2.2 _ Set.univ _)
      isplitl [H0]; · iexact H0
      isplitl [H1]; · iexact H1
      isplitl [H2]; · iexact H2
      isplitl [H3]; · iexact H3
      isplitl [H4]; · iexact H4
      isplitl [HP]; · iexists _; iexact HP
      isplitl [HT]; · iexists _; iexact HT
      iintro ⟨H0, H1, H2, H3, H4, ⟨%ep, HP⟩, ⟨%et, HT⟩⟩
      isplitl [HP HT Hg]
      · isplitl [HP HT]
        · isplitl [HP]
          · unfold owns; iexists _; isplitr
            swap; · iexact HP
            ipureintro; exact View.read_writes_of_cover _ _ _ _ _ (coverFirstP c _ _ _ _ _ _ _ _ _ _ _ _ _ _ _ _ _ _ _ _ _)
          · unfold owns; iexists _; isplitr
            swap; · iexact HT
            ipureintro; exact View.read_writes_of_cover _ _ _ _ _ (coverFirstT c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 16 = 15
    · skip
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t ((atLast_iff t).mpr h1)], after4]
      rw [accAt_last m c t h0 h1]
      unfold lastO lastP lastT; (try dsimp only)
      rw [PhiS_castSucc m c t, PhiS_pos m c _ _ hz]
      iintro ⟨⟨⟨HP, HT⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((atFirst_iff t).mp h)) ((atLast_iff t).mpr h1) (blockAt m c 0 t) (blockAt m c 1 t) (blockAt m c 2 t) (blockAt m c 3 t) _ _).2.2.2 Set.univ _)
      isplitl [H0]; · iexact H0
      isplitl [H1]; · iexact H1
      isplitl [H2]; · iexact H2
      isplitl [H3]; · iexact H3
      isplitl [H4]; · iexists _; iexact H4
      isplitl [HP]; · iexact HP
      isplitl [HT]; · iexact HT
      iintro ⟨H0, H1, H2, H3, ⟨%eo, H4⟩, ⟨%ep, HP⟩, ⟨%et, HT⟩⟩
      isplitl [HP HT Hg]
      · isplitl [HP HT]
        · isplitl [HP]
          · unfold owns; iexists _; isplitr
            swap; · iexact HP
            ipureintro; exact View.read_writes_of_cover _ _ _ _ _ (coverLastP c _ _ _ _ _ _ _ _ _ _ _ _ _ _ _ _ _ _ _ _ _ _ _)
          · unfold owns; iexists _; isplitr
            swap; · iexact HT
            ipureintro; exact View.read_writes_of_cover _ _ _ _ _ (coverLastT c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO c _ _ _ _ _ _ _ _ _ _ _ _ _ _ _ _ _ _ _ _ _ _ _)
    · skip
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((atLast_iff t).mp h))) (noFlush4 t (fun h => h1 ((atLast_iff t).mp h)))]
      rw [accAt_mid m c t h0 h1]
      unfold midP midT; (try dsimp only)
      rw [PhiS_castSucc m c t, PhiS_pos m c _ _ hz]
      iintro ⟨⟨⟨HP, HT⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((atFirst_iff t).mp h)) (fun h => h1 ((atLast_iff t).mp h)) (blockAt m c 0 t) (blockAt m c 1 t) (blockAt m c 2 t) (blockAt m c 3 t) _ _).2.2 _ Set.univ _)
      isplitl [H0]; · iexact H0
      isplitl [H1]; · iexact H1
      isplitl [H2]; · iexact H2
      isplitl [H3]; · iexact H3
      isplitl [H4]; · iexact H4
      isplitl [HP]; · iexact HP
      isplitl [HT]; · iexact HT
      iintro ⟨H0, H1, H2, H3, H4, ⟨%ep, HP⟩, ⟨%et, HT⟩⟩
      isplitl [HP HT Hg]
      · isplitl [HP HT]
        · isplitl [HP]
          · unfold owns; iexists _; isplitr
            swap; · iexact HP
            ipureintro; exact View.read_writes_of_cover _ _ _ _ _ (coverMidP c _ _ _ _ _ _ _ _ _ _ _ _ _ _ _ _ _ _ _ _ _ _ _)
          · unfold owns; iexists _; isplitr
            swap; · iexact HT
            ipureintro; exact View.read_writes_of_cover _ _ _ _ _ (coverMidT c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the entry invariant back: the accumulators' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HP, HT⟩, Hg⟩
  isplitl [HP HT]
  · isplitl [HP]
    · iexists _; iexact HP
    · iexists _; iexact HT
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KILaunch.lean ====
/-
  The launch: @main as three segments — the five host operations, the region, the four host operations that take
  the mean — and what every final state holds.

  The converted stack is read by two windows. Its buffer, whole at the region's entry, is dealt to them by halves of
  the full share (both windows only read it), and the halves are joined again at the region's exit, so that the
  host operations after the region run over every unscoped buffer held whole, as those before it do. The output
  array leaves the region at what the write-backs made of it (`Dat.arrAt`); every other buffer as it entered.
-/
import proofs.«124993_j78073915507043_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- Core `c`'s buffers at launch, as a valuation. -/
abbrev Vlaunch (c : Dev nD) : Valuation τ sig (Elt F) := fun b => m (c, b)

/-- What rides beside the buffers: the core owes nothing, and its generator register is at some state. -/
abbrev Rg (c : Dev nD) : sProp 𝕄 :=
  iprop((∃ W, owes (c : Thread nD τ) (0 : CellTallies nD τ sig Unit) W) ∗ (∃ r, prngReg c r))

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The buffers when the region is left: the output array at what the write-backs made of it, every other buffer
    as the region found it. -/
def Vexit (c : Dev nD) : Valuation τ sig (Elt F) :=
  Function.update (V0 m c) (Proc.devRef .tc main_v5) ((dats m 0 c).arrAt 4 cfg0.N)

theorem Vexit_v5 (c : Dev nD) : Vexit m c (Proc.devRef .tc main_v5) = (dats m 0 c).arrAt 4 cfg0.N := by
  unfold Vexit; exact Function.update_self _ _ _
theorem Vexit_of_ne (c : Dev nD) (b : Ref sig .tc) (hb : b ≠ main_v5) : Vexit m c (Proc.devRef .tc b) = V m c b := by
  unfold Vexit; exact Function.update_of_ne (fun e => hb (Proc.devRef_injective _ e)) _ _

/-! ## The arrays, window by window, and the buffers behind them -/

theorem arrays_list (c : Dev nD) (G : (w : Fin cfg0.W) → Buf (Elt F) ((cfg0.win w).arr.view.loc (c.tc : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v3) ↦{fullShare} G 2) ∗ (((c : Thread nD τ).loc main_v4) ↦{fullShare} G 3)
          ∗ (((c : Thread nD τ).loc main_v5) ↦{fullShare} G 4)) := by
  have h : ((dats m 0 c).arrays G : sProp 𝕄)
      = bigSep Finset.univ fun w => (((c.tc : Thread nD τ).loc (Pipeline.arrRef spec0 w)) ↦{(dats m 0 c).share w} G w : sProp 𝕄) := by
    unfold Dat.arrays
    exact bigSep_congr fun w _ => by rw [(arr_whole0 w).set_eq_univ]
  rw [h, bigSep_W0]
  rfl

theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v3) ↦{fullShare} W main_v3)
          ∗ (((c : Thread nD τ).loc main_v4) ↦{fullShare} W main_v4) ∗ (((c : Thread nD τ).loc main_v5) ↦{fullShare} W main_v5)) :=
  bigSep_eq_bigSepL_of_eq [main_v1, main_v3, main_v4, main_v5] (by decide) (by decide) _

/-- An input array is never written: it leaves the region as it entered. -/
theorem arrAt_in0 (c : Dev nD) (n : ℕ) : (dats m 0 c).arrAt 0 n = V m c main_v1 := ((dats m 0 c).arrAt_in 0 rfl n).trans (A_eq m c 0)
theorem arrAt_in1 (c : Dev nD) (n : ℕ) : (dats m 0 c).arrAt 1 n = V m c main_v1 := ((dats m 0 c).arrAt_in 1 rfl n).trans (A_eq m c 1)
theorem arrAt_in2 (c : Dev nD) (n : ℕ) : (dats m 0 c).arrAt 2 n = V m c main_v3 := ((dats m 0 c).arrAt_in 2 rfl n).trans (A_eq m c 2)
theorem arrAt_in3 (c : Dev nD) (n : ℕ) : (dats m 0 c).arrAt 3 n = V m c main_v4 := ((dats m 0 c).arrAt_in 3 rfl n).trans (A_eq m c 3)
theorem arrAt_out0 (c : Dev nD) : (dats m 0 c).arrAt 4 0 = V m c main_v5 := A_eq m c 4

/-- ENTRY: the buffers behind the arrays, whole, are the windows' arrays at their shares. -/
theorem arrays_in (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_list, arrays_list, arrAt_in0, arrAt_in1, arrAt_in2, arrAt_in3, arrAt_out0]
  iintro ⟨H1, H3, H4, H5⟩
  ihave Hs := (pointsTo_share (PosShare.mem_left_op_right fullShare)).1 $$ H1
  icases Hs with ⟨Ha, Hb⟩
  isplitl [Ha]; · iexact Ha
  isplitl [Hb]; · iexact Hb
  isplitl [H3]; · iexact H3
  isplitl [H4]; · iexact H4
  iexact H5

/-- EXIT: the windows' arrays at their final contents are the buffers behind them, whole, at the exit contents. -/
theorem arrays_out (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => Vexit m c (Proc.devRef .tc b)) := by
  rw [arrBufs_list, arrays_list, arrAt_in0, arrAt_in1, arrAt_in2, arrAt_in3,
    Vexit_v5, Vexit_of_ne m c main_v1 (by decide), Vexit_of_ne m c main_v3 (by decide), Vexit_of_ne m c main_v4 (by decide)]
  iintro ⟨Ha, Hb, H3, H4, H5⟩
  isplitl [Ha Hb]
  · iapply (pointsTo_share (PosShare.mem_left_op_right fullShare)).2
    isplitl [Ha]; · iexact Ha
    iexact Hb
  isplitl [H3]; · iexact H3
  isplitl [H4]; · iexact H4
  iexact H5

/-- The buffers no window stages keep their contents through the region. -/
theorem rest_exit (c : Dev nD) :
    (Pipeline.unscopedRest (Ix := Unit) (Name := ℕ) (U := UR sig nD τ) (Lvl := ℕ) spec0 c (fun b => Vexit m c (Proc.devRef .tc b)) : sProp 𝕄)
      = Pipeline.unscopedRest spec0 c (V m c) := by
  unfold Pipeline.unscopedRest
  exact bigSep_congr fun b hb => by
    have hne : b ≠ main_v5 := fun e => (Finset.mem_sdiff.mp hb).2 (Finset.mem_image.mpr ⟨4, Finset.mem_univ _, e ▸ rfl⟩)
    beta_reduce
    rw [Vexit_of_ne m c b hne]

/-- A core's unscoped buffers are the buffers behind the arrays and the rest. -/
theorem bufs_split (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs spec0 c W ∗ Pipeline.unscopedRest spec0 c W) :=
  Pipeline.unscopedBufs_split₀ cfgs 0 winFacts₀0.arr_unscoped c W

/-! ## The segments -/

/-- The five host operations before the region, over the unscoped buffers held whole. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vlaunch m) Rg

/-- The four host operations after it, likewise, from the exit contents. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (Vexit m) Rg

/-- What the last segment leaves: every unscoped buffer whole, at the contents after the mean. -/
abbrev Tend (c : Dev nD) : sProp 𝕄 :=
  StableHlo.held (c : Thread nD τ) (Pipeline.ucRefs τ sig) (StableHlo.after hostOps1 (Vexit m c))

set_option backward.isDefEq.respectTransparency.types false in
/-- The region: entered from what the first segment left — the buffers behind the arrays dealt to the windows, the
    generator register into the invariant, every other buffer bypassing —, left with every unscoped buffer whole
    again at the exit contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vlaunch m c)) ∗ Rg c)
  post c := iprop(StableHlo.held (c : Thread nD τ) (Pipeline.ucRefs τ sig) (Vexit m c) ∗ Rg c)
  X c := iprop(∃ r, prngReg c r)
  Y c := iprop(∃ r, prngReg c r)
  Z c := Pipeline.unscopedRest spec0 c (V m c)
  hentry c := by
    rw [show StableHlo.held (c : Thread nD τ) (Pipeline.ucRefs τ sig) (StableHlo.after hostOps0 (Vlaunch m c)) = unscopedBufs c (V m c) from (Pipeline.unscopedBufs_held c _).symm,
      bufs_split]
    iintro ⟨⟨⟨Hab, Hrest⟩, ⟨HO, Hg⟩⟩, -, -⟩
    ihave Ha := (arrays_in m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    refine BIBase.Entails.trans ?_ (hin m c)
    unfold Pipeline.ΦA
    iintro ⟨Hg, -, Hr⟩
    isplitl [Hr]; · iexact Hr
    iexact Hg
  hout c := by
    refine (hout m c).trans ?_
    rw [Pipeline.ownSems0_none]; unfold Pipeline.ΦA
    iintro ⟨Hr, Hg⟩
    isplitl [Hg]; · iexact Hg
    isplitr; · iempintro
    iexact Hr
  hexit c := by
    rw [show StableHlo.held (c : Thread nD τ) (Pipeline.ucRefs τ sig) (Vexit m c) = unscopedBufs c (fun b => Vexit m c (Proc.devRef .tc b)) from (Pipeline.unscopedBufs_held c _).symm,
      bufs_split, rest_exit]
    iintro ⟨Ha, HO, HY, HZ⟩
    imodintro
    isplitr [HO HY]
    · isplitl [Ha]
      · iapply (arrays_out m c); iexact Ha
      iexact HZ
    · isplitl [HO]
      · unfold Pipeline.Dat.owesAt Pipeline.owesWithin
        icases HO with ⟨%W, -, HO⟩; iexists W; iexact HO
      iexact HY

/-- @main as the list of the three. -/
abbrev segs : List (Pipeline.Seg (pcfgs (F := F)) adm (dats m) () defs₀ 𝒱₀ L lv) := [.host (seg0 m), .region (reg0 m), .host (seg1 m)]

/-- What every final state holds: each unscoped buffer at the contents after the mean. -/
def QC : PUnit × MemSt nD τ sig (Elt F) → Prop := fun r =>
  ∀ c : Dev nD, ∀ b ∈ Pipeline.ucRefs τ sig, r.2.mem ((c : Thread nD τ).1, b) = StableHlo.after hostOps1 (Vexit m c) b

set_option backward.isDefEq.respectTransparency.types false in
/-- At the compiled mesh, for any float values, from any memory with zero counters: every weakly fair execution of
    @main on the TensorCores terminates, and every final state has each unscoped buffer at the contents the three
    segments compute. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vlaunch m c) ∗ Rg c)) (Tₙ := Tend m)
    (hch := ⟨fun _ => .rfl, fun _ => .rfl, fun _ => .rfl, fun c =>
      (show iprop(StableHlo.held (c : Thread nD τ) (Pipeline.ucRefs τ sig) (StableHlo.after hostOps1 (Vexit m c)) ∗ Rg c)
          ⊢ iprop(Tend m c ∗ ∃ W, owes (c : Thread nD τ) (0 : CellTallies nD τ sig Unit) W) from by
        iintro ⟨Hh, ⟨HO, -⟩⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (Vlaunch m c) from Pipeline.unscopedBufs_held c (Vlaunch m c)]
      iintro ⟨⟨Hh, -, HO, -, Hg, -⟩, -⟩
      imodintro
      isplitl [Hh]; · iexact Hh
      isplitl [HO]; · iexists ∅; iexact HO
      iexists _; iexact Hg)
    (QY := fun c s => ∀ b ∈ Pipeline.ucRefs τ sig, s.mem ((c : Thread nD τ).1, b) = StableHlo.after hostOps1 (Vexit m c) b)
    (hfin := fun c s' => by
      show iprop(StableHlo.held (c : Thread nD τ) (Pipeline.ucRefs τ sig) (StableHlo.after hostOps1 (Vexit m c)) ∗ SI s') ⊢ _
      unfold StableHlo.held
      iintro ⟨Hh, HSI⟩
      ihave Hr := (pointsTo_read_all (Pipeline.ucRefs τ sig) (fun b => ((c : Thread nD τ).1, b)) (fun b => StableHlo.after hostOps1 (Vexit m c) b) s') $$ [Hh HSI]
      · isplitl [Hh] <;> iassumption
      icases Hr with ⟨%ha, HSI⟩
      imodintro
      isplitr; · ipureintro; exact ha
      iexact HSI)
    (hQ := fun _ h => h)

end Cert.KernelIdeal.Hand

end
-- ==== Proof.KIClaims.lean ====
/-
  What the run's post says of the buffers the claims name: the three argument arrays are written by no host
  operation and by no write-back, so they end as launched; the result is the mean — the sum from zero of the output
  array as the region left it, divided by 8192.
-/
import proofs.«124993_j78073915507043_1_alg».proof.Proof.KILaunch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem not_written0 (b : Ref sig .tc) (hb : b ≠ main_v0 ∧ b ≠ main_v1 ∧ b ≠ main_v2 ∧ b ≠ main_v3 ∧ b ≠ main_v4) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

theorem not_written1 (b : Ref sig .tc) (hb : b ≠ main_cst ∧ b ≠ main_v6 ∧ b ≠ main_cst_0 ∧ b ≠ main_v7) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

/-- A buffer that no host operation writes and that is not the output array ends as launched. -/
theorem end_kept (c : Dev nD) (b : Ref sig .tc) (h0 : b ≠ main_v0 ∧ b ≠ main_v1 ∧ b ≠ main_v2 ∧ b ≠ main_v3 ∧ b ≠ main_v4)
    (h1 : b ≠ main_cst ∧ b ≠ main_v6 ∧ b ≠ main_cst_0 ∧ b ≠ main_v7) (h5 : b ≠ main_v5) :
    StableHlo.after hostOps1 (Vexit m c) (Proc.devRef .tc b) = m ((c : Thread nD τ).loc b) :=
  (StableHlo.after_of_forall_not_mem (b := Proc.devRef .tc b) hostOps1 (Vexit m c) (not_written1 b h1)).trans
    ((Vexit_of_ne m c b h5).trans (StableHlo.after_of_forall_not_mem (b := Proc.devRef .tc b) hostOps0 (Vlaunch m c) (not_written0 b h0)))

theorem mem_uc (b : Ref sig .tc) (hb : b.isScoped = false) : Proc.devRef .tc b ∈ Pipeline.ucRefs τ sig := by
  unfold Pipeline.ucRefs StableHlo.tcRefs
  simp only [Finset.mem_filter, Finset.mem_map, Finset.mem_univ, true_and, Function.Embedding.coeFn_mk]
  exact ⟨⟨b, rfl⟩, by simp [hb]⟩

/-- THE FRAME: every weakly fair execution terminates, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 rfl)).trans (end_kept m c main_arg0 (by decide) (by decide) (by decide)),
     (h c _ (mem_uc main_arg1 rfl)).trans (end_kept m c main_arg1 (by decide) (by decide) (by decide)),
     (h c _ (mem_uc main_arg2 rfl)).trans (end_kept m c main_arg2 (by decide) (by decide) (by decide))⟩) (run_main m ρ)

/-- The result buffer: the mean of the output array as the region left it. -/
theorem end_v7 (c : Dev nD) :
    StableHlo.after hostOps1 (Vexit m c) (Proc.devRef .tc main_v7)
      = Host.divf (Host.reduceAdd (Vexit m c (Proc.devRef .tc main_v5)) (constant S_ .f32 0x00000000#32) reducesTo_S8192x1_S_d0_1 h_S_) (constant S_ .f32 0x46000000#32) := by
  show StableHlo.after hostOps1 (Vexit m c) (Proc.devRef .tc main_v7) = _
  after_results

end Cert.KernelIdeal.Hand

end
-- ==== Proof.Tiles.lean ====
/-
  One row tile of the kernel, as pure terms over the body's payloads.

  Row tile `i` (1024 rows) meets the sixteen column tiles `j = 0, …, 15` (512 columns each) in order. Two
  1024 x 1 accumulators are carried from one column tile to the next: the masked sum of similarities (the
  positives) and the plain sum. Both start from the zero column stored at `j = 0`; after the sixteenth tile the
  row losses are computed from the two accumulators. These are the terms the kernel's run leaves in its
  scratch buffers and in the output block, stated here with no reference to memory: `zi`, `lr` are row tile
  `i`'s blocks of the matrix and of the label column, `zj j`, `lc j` column tile `j`'s blocks of the matrix
  and of the label row.
-/
import proofs.«124993_j78073915507043_1_alg».proof.Proof.Gen.KernelIdeal.Skeleton

noncomputable section

namespace Cert.KernelIdeal.Tiles

open Idealize.ShloMosaic Idealize.SL.Sem
open Cert.KernelIdeal Cert.KernelIdeal.Gen

variable {F : FTy → Type} [FloatOps F]

/-- The grid point of row tile `i` and column tile `j`: the rows are the slow axis. -/
def point (i : Fin 8) (j : Fin 16) : Fin grid0.N := ⟨16 * i.val + j.val, by have := i.isLt; have := j.isLt; show _ < 128; omega⟩

/-- Its coordinates are `(i, j)`. -/
theorem coords_point0 : ∀ (i : Fin 8) (j : Fin 16), ((grid0.coords (point i j)) 0).val = i.val := by decide +kernel
theorem coords_point1 : ∀ (i : Fin 8) (j : Fin 16), ((grid0.coords (point i j)) 1).val = j.val := by decide +kernel

/-- Column tile `n mod 16`. -/
def col (n : ℕ) : Fin 16 := ⟨n % 16, Nat.mod_lt _ (by decide)⟩

variable (i : Fin 8) (zi : Vec F S1024x128 .bf16) (zj : Fin 16 → Vec F S512x128 .bf16)
  (lr : Vec F S1024x1 .i32) (lc : Fin 16 → Vec F S1x512 .i32)

/-- The positives' accumulator after the first `n` column tiles. -/
def posAcc : ℕ → FVec F S1024x1 .f32
  | 0 => k0_pay4
  | n + 1 => k0_pay1 (k0_pay7 (grid0.coords (point i (col n))) zi (zj (col n)) lr (lc (col n)) (posAcc n))

/-- The plain accumulator after the first `n` column tiles. -/
def totAcc : ℕ → FVec F S1024x1 .f32
  | 0 => k0_pay5
  | n + 1 => k0_pay2 (k0_pay6 zi (zj (col n))) (totAcc n)

/-- The row losses of the tile: the last store's payload over the two accumulators after all sixteen tiles. -/
def lossTile : FVec F S1024x1 .f32 :=
  k0_pay3 (totAcc zi zj 16) (posAcc i zi zj lr lc 16) (posAcc i zi zj lr lc 16)

end Cert.KernelIdeal.Tiles

end
-- ==== Proof.KIFinal.lean ====
/-
  From the output blocks to the output array.

  The output column of 8192 rows is written back in eight blocks of 1024 rows, one per row tile, each at the
  tile's last column tile: grid point 16 · i + 15 writes rows 1024 · i … 1024 · i + 1023. So after the run row
  `r` of the column holds row `r mod 1024` of the output block that point 16 · (r / 1024) + 15 leaves.
-/
import proofs.«124993_j78073915507043_1_alg».proof.Proof.KIFrame
import proofs.«124993_j78073915507043_1_alg».proof.Proof.Tiles
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulation at two names of one position. -/
theorem accAt_congr (c : Dev nD) {n n' : ℕ} (h : n = n') (hn : n < cfg0.N) (hn' : n' < cfg0.N) :
    accAt m c n hn = accAt m c n' hn' := by
  subst h; rfl

/-- The whole output column: row `r` is row `r mod 1024` of what the last column tile of row tile `r / 1024` leaves. -/
def lossCol (c : Dev nD) : S8192x1.Idx → Elt F .f32 := fun y =>
  (accAt m c (Tiles.point ⟨(y 0).val / 1024, by have h : (y 0).val < 8192 := (y 0).isLt; show _ < 8; omega⟩ 15).val
      (Tiles.point ⟨(y 0).val / 1024, by have h : (y 0).val < 8192 := (y 0).isLt; show _ < 8; omega⟩ 15).isLt).1
    (ix2 ⟨(y 0).val % 1024, Nat.mod_lt _ (by decide)⟩ 0)

/-- The output window's block index, decided over the grid: row block `t / 16`, column block 0. -/
theorem index4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- At a last column tile `t`, the column read at row `(t / 16) · 1024 + x` is row `x` of what `t` leaves. -/
theorem lossCol_at (c : Dev nD) (t : Fin cfg0.N) (ht : t.val % 16 = 15) (y : S8192x1.Idx) (x : S1024x1.Idx)
    (hy : (y 0).val = t.val / 16 * 1024 + (x 0).val) : lossCol m c y = (accAt m c t.val t.isLt).1 x := by
  have hx0 : (x 0).val < 1024 := (x 0).isLt
  have hx1 : (x 1).val < 1 := (x 1).isLt
  have hN : t.val < 128 := t.isLt
  unfold lossCol
  have hp : (Tiles.point ⟨(y 0).val / 1024, by have h : (y 0).val < 8192 := (y 0).isLt; show _ < 8; omega⟩ 15).val = t.val := by
    show 16 * ((y 0).val / 1024) + 15 = t.val
    omega
  rw [accAt_congr m c hp _ t.isLt]
  refine congrArg _ (funext fun a => Fin.ext ?_)
  match a with
  | ⟨0, _⟩ => show (y 0).val % 1024 = (x 0).val; omega
  | ⟨1, _⟩ => show 0 = (x 1).val; omega

/-- What a last column tile writes back is its block of the column. -/
theorem flushed4_eq (c : Dev nD) (t : Fin cfg0.N) (hf : (cfg0.win 4).flush t = true) :
    (dats m 0 c).flushed 4 t = ((cfg0.win 4).blk t).view.read (Elt F) (lossCol m c) := by
  have ht : t.val % 16 = 15 := (flush0_4 t).mp hf
  show (cfg0.win 4).cut (grid0.coords t) ((dats m 0 c).after 4 t) = _
  rw [after4]
  funext j
  rw [View.read_apply]
  refine (lossCol_at m c t ht _ _ ?_).symm
  show win0_4.index t (0 : Fin 2) * 1024 + 1 * (j 0).val = t.val / 16 * 1024 + (j 0).val
  rw [(index4 t).1]
  omega

/-- An index of the column is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v5).slice (win0_4.rect t)).set ↔ _
  rw [View.set_slice_whole, Rect.mem_set_unit]
  exact Iff.rfl

/-- Every row of the column is in the block of the last column tile of its row tile. -/
theorem covered4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hq : (i 0).val / 1024 < 8 := by omega
  have hv : (Tiles.point ⟨(i 0).val / 1024, hq⟩ 15).val = 16 * ((i 0).val / 1024) + 15 := rfl
  refine ⟨Tiles.point ⟨(i 0).val / 1024, hq⟩ 15, (flush0_4 _).mpr (by rw [hv]; omega), ?_⟩
  rw [mem_blk4]
  obtain ⟨e0, e1⟩ := index4 (Tiles.point ⟨(i 0).val / 1024, hq⟩ 15)
  intro a
  match a with
  | ⟨0, _⟩ =>
    show win0_4.index (Tiles.point ⟨(i 0).val / 1024, hq⟩ 15) (0 : Fin 2) * 1024 ≤ (i 0).val ∧ (i 0).val < win0_4.index (Tiles.point ⟨(i 0).val / 1024, hq⟩ 15) (0 : Fin 2) * 1024 + 1024
    rw [e0, hv]; omega
  | ⟨1, _⟩ =>
    show win0_4.index (Tiles.point ⟨(i 0).val / 1024, hq⟩ 15) (1 : Fin 2) * 1 ≤ (i 1).val ∧ (i 1).val < win0_4.index (Tiles.point ⟨(i 0).val / 1024, hq⟩ 15) (1 : Fin 2) * 1 + 1
    rw [e1]; omega

/-- The output array after the run is the column. -/
theorem final4 (c : Dev nD) : (dats m 0 c).arrAt 4 cfg0.N = lossCol m c :=
  (dats m 0 c).arrAt_eq_of_cover 4 (lossCol m c) (fun t hf => flushed4_eq m c t hf) covered4

/-- Row `r` of the output array after the run. -/
theorem final4_apply (c : Dev nD) (r : Fin 8192) :
    ((dats m 0 c).arrAt 4 cfg0.N : S8192x1.Idx → Elt F .f32) (ix2 r 0)
      = (accAt m c (Tiles.point ⟨r.val / 1024, by have h : r.val < 8192 := r.isLt; show _ < 8; omega⟩ 15).val
          (Tiles.point ⟨r.val / 1024, by have h : r.val < 8192 := r.isLt; show _ < 8; omega⟩ 15).isLt).1 (ix2 ⟨r.val % 1024, Nat.mod_lt _ (by decide)⟩ 0) := by
  rw [final4]
  rfl

end Cert.KernelIdeal.Hand

end
-- ==== Proof.KIPieces.lean ====
/-
  What each case leaves, as the body's payloads.

  The pieces a run finds are the stored values in program order, last first; a whole-block store, last, leaves its
  payload whatever came before, and a whole-block load after a whole-block store reads that store's payload. So the
  positives' accumulator is left at the masked-sum payload over what it held (the zero column at a first column tile),
  the plain accumulator at the plain-sum payload likewise, and the output block at the row-loss payload of the two
  values just stored.
-/
import proofs.«124993_j78073915507043_1_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl

section
variable (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (x0 : Vec F S1024x128 .bf16) (x1 : Vec F S512x128 .bf16) (x2 : Vec F S1024x1 .i32) (x3 : Vec F S1x512 .i32)

theorem firstP_eq (hc0 : atFirst i) (hc1 : ¬atLast i) :
    firstP c i arg2 harg2 arg3 harg3 arg4 harg4 arg5 harg5 arg6 harg6 arg7 harg7 arg8 harg8 x0 x1 x2 x3 hc0 hc1 = k0_pay1 (k0_pay7 i x0 x1 x2 x3 (k0_pay4 (F := F))) := by
  unfold firstP
  rw [View.read_writes_eq_canon _ _ _ (coverFirstP c i arg2 harg2 arg3 harg3 arg4 harg4 arg5 harg5 arg6 harg6 arg7 harg7 arg8 harg8 x0 x1 x2 x3 hc0 hc1)]
  unfold runFirst
  dsimp only
  sl_unfold_words
  simp only [View.canon_cons_unit_zero (S := S1024x1) hz2, View.canon_unit_zero (S := S1024x1) hz2, View.readCov_unit_zero (S := S1024x1) _ hz2, View.readAt_eq_ld,
    harg2.read_unread, harg3.read_unread, harg4.read_unread, harg5.read_unread, harg6.read_unread, harg7.read_unread, harg8.read_unread,
    View.ld_unit_zero (S := S1024x128) hz2, View.ld_unit_zero (S := S512x128) hz2, View.ld_unit_zero (S := S1024x1) hz2, View.ld_unit_zero (S := S1x512) hz2]
  try rfl

theorem firstT_eq (hc0 : atFirst i) (hc1 : ¬atLast i) :
    firstT c i arg2 harg2 arg3 harg3 arg4 harg4 arg5 harg5 arg6 harg6 arg7 harg7 arg8 harg8 x0 x1 x2 x3 hc0 hc1 = k0_pay2 (k0_pay6 x0 x1) (k0_pay5 (F := F)) := by
  unfold firstT
  rw [View.read_writes_eq_canon _ _ _ (coverFirstT c i arg2 harg2 arg3 harg3 arg4 harg4 arg5 harg5 arg6 harg6 arg7 harg7 arg8 harg8 x0 x1 x2 x3 hc0 hc1)]
  unfold runFirst
  dsimp only
  sl_unfold_words
  simp only [View.canon_cons_unit_zero (S := S1024x1) hz2, View.canon_unit_zero (S := S1024x1) hz2, View.readCov_unit_zero (S := S1024x1) _ hz2, View.readAt_eq_ld,
    harg2.read_unread, harg3.read_unread, harg4.read_unread, harg5.read_unread, harg6.read_unread, harg7.read_unread, harg8.read_unread,
    View.ld_unit_zero (S := S1024x128) hz2, View.ld_unit_zero (S := S512x128) hz2, View.ld_unit_zero (S := S1024x1) hz2, View.ld_unit_zero (S := S1x512) hz2]
  try rfl

variable (xsP xsT : Vec F S1024x1 .f32)

theorem midP_eq (hc0 : ¬atFirst i) (hc1 : ¬atLast i) :
    midP c i arg2 harg2 arg3 harg3 arg4 harg4 arg5 harg5 arg6 harg6 arg7 harg7 arg8 harg8 x0 x1 x2 x3 xsP xsT hc0 hc1 = k0_pay1 (k0_pay7 i x0 x1 x2 x3 xsP) := by
  unfold midP
  rw [View.read_writes_eq_canon _ _ _ (coverMidP c i arg2 harg2 arg3 harg3 arg4 harg4 arg5 harg5 arg6 harg6 arg7 harg7 arg8 harg8 x0 x1 x2 x3 xsP xsT hc0 hc1)]
  unfold runMid
  dsimp only
  sl_unfold_words
  simp only [View.canon_cons_unit_zero (S := S1024x1) hz2, View.canon_unit_zero (S := S1024x1) hz2, View.readCov_unit_zero (S := S1024x1) _ hz2, View.readAt_eq_ld,
    harg2.read_unread, harg3.read_unread, harg4.read_unread, harg5.read_unread, harg6.read_unread, harg7.read_unread, harg8.read_unread,
    View.ld_unit_zero (S := S1024x128) hz2, View.ld_unit_zero (S := S512x128) hz2, View.ld_unit_zero (S := S1024x1) hz2, View.ld_unit_zero (S := S1x512) hz2]
  try rfl

theorem midT_eq (hc0 : ¬atFirst i) (hc1 : ¬atLast i) :
    midT c i arg2 harg2 arg3 harg3 arg4 harg4 arg5 harg5 arg6 harg6 arg7 harg7 arg8 harg8 x0 x1 x2 x3 xsP xsT hc0 hc1 = k0_pay2 (k0_pay6 x0 x1) xsT := by
  unfold midT
  rw [View.read_writes_eq_canon _ _ _ (coverMidT c i arg2 harg2 arg3 harg3 arg4 harg4 arg5 harg5 arg6 harg6 arg7 harg7 arg8 harg8 x0 x1 x2 x3 xsP xsT hc0 hc1)]
  unfold runMid
  dsimp only
  sl_unfold_words
  simp only [View.canon_cons_unit_zero (S := S1024x1) hz2, View.canon_unit_zero (S := S1024x1) hz2, View.readCov_unit_zero (S := S1024x1) _ hz2, View.readAt_eq_ld,
    harg2.read_unread, harg3.read_unread, harg4.read_unread, harg5.read_unread, harg6.read_unread, harg7.read_unread, harg8.read_unread,
    View.ld_unit_zero (S := S1024x128) hz2, View.ld_unit_zero (S := S512x128) hz2, View.ld_unit_zero (S := S1024x1) hz2, View.ld_unit_zero (S := S1x512) hz2]
  try rfl

theorem lastP_eq (hc0 : ¬atFirst i) (hc1 : atLast i) :
    lastP c i arg2 harg2 arg3 harg3 arg4 harg4 arg5 harg5 arg6 harg6 arg7 harg7 arg8 harg8 x0 x1 x2 x3 xsP xsT hc0 hc1 = k0_pay1 (k0_pay7 i x0 x1 x2 x3 xsP) := by
  unfold lastP
  rw [View.read_writes_eq_canon _ _ _ (coverLastP c i arg2 harg2 arg3 harg3 arg4 harg4 arg5 harg5 arg6 harg6 arg7 harg7 arg8 harg8 x0 x1 x2 x3 xsP xsT hc0 hc1)]
  unfold runLast
  dsimp only
  sl_unfold_words
  simp only [View.canon_cons_unit_zero (S := S1024x1) hz2, View.canon_unit_zero (S := S1024x1) hz2, View.readCov_unit_zero (S := S1024x1) _ hz2, View.readAt_eq_ld,
    harg2.read_unread, harg3.read_unread, harg4.read_unread, harg5.read_unread, harg6.read_unread, harg7.read_unread, harg8.read_unread,
    View.ld_unit_zero (S := S1024x128) hz2, View.ld_unit_zero (S := S512x128) hz2, View.ld_unit_zero (S := S1024x1) hz2, View.ld_unit_zero (S := S1x512) hz2]
  try rfl

theorem lastT_eq (hc0 : ¬atFirst i) (hc1 : atLast i) :
    lastT c i arg2 harg2 arg3 harg3 arg4 harg4 arg5 harg5 arg6 harg6 arg7 harg7 arg8 harg8 x0 x1 x2 x3 xsP xsT hc0 hc1 = k0_pay2 (k0_pay6 x0 x1) xsT := by
  unfold lastT
  rw [View.read_writes_eq_canon _ _ _ (coverLastT c i arg2 harg2 arg3 harg3 arg4 harg4 arg5 harg5 arg6 harg6 arg7 harg7 arg8 harg8 x0 x1 x2 x3 xsP xsT hc0 hc1)]
  unfold runLast
  dsimp only
  sl_unfold_words
  simp only [View.canon_cons_unit_zero (S := S1024x1) hz2, View.canon_unit_zero (S := S1024x1) hz2, View.readCov_unit_zero (S := S1024x1) _ hz2, View.readAt_eq_ld,
    harg2.read_unread, harg3.read_unread, harg4.read_unread, harg5.read_unread, harg6.read_unread, harg7.read_unread, harg8.read_unread,
    View.ld_unit_zero (S := S1024x128) hz2, View.ld_unit_zero (S := S512x128) hz2, View.ld_unit_zero (S := S1024x1) hz2, View.ld_unit_zero (S := S1x512) hz2]
  try rfl

theorem lastO_eq (hc0 : ¬atFirst i) (hc1 : atLast i) :
    lastO c i arg2 harg2 arg3 harg3 arg4 harg4 arg5 harg5 arg6 harg6 arg7 harg7 arg8 harg8 x0 x1 x2 x3 xsP xsT hc0 hc1 = k0_pay3 (k0_pay2 (k0_pay6 x0 x1) xsT) (k0_pay1 (k0_pay7 i x0 x1 x2 x3 xsP)) (k0_pay1 (k0_pay7 i x0 x1 x2 x3 xsP)) := by
  unfold lastO
  rw [View.read_writes_eq_canon _ _ _ (coverLastO c i arg2 harg2 arg3 harg3 arg4 harg4 arg5 harg5 arg6 harg6 arg7 harg7 arg8 harg8 x0 x1 x2 x3 xsP xsT hc0 hc1)]
  unfold runLast
  dsimp only
  sl_unfold_words
  simp only [View.canon_cons_unit_zero (S := S1024x1) hz2, View.canon_unit_zero (S := S1024x1) hz2, View.readCov_unit_zero (S := S1024x1) _ hz2, View.readAt_eq_ld,
    harg2.read_unread, harg3.read_unread, harg4.read_unread, harg5.read_unread, harg6.read_unread, harg7.read_unread, harg8.read_unread,
    View.ld_unit_zero (S := S1024x128) hz2, View.ld_unit_zero (S := S512x128) hz2, View.ld_unit_zero (S := S1024x1) hz2, View.ld_unit_zero (S := S1x512) hz2]
  try rfl

end

end Cert.KernelIdeal.Hand

end
-- ==== Proof.KIBlocks.lean ====
/-
  The windows' blocks as parts of their arrays.

  At grid point (i, j) — point 16 i + j — window 0's block is rows 1024 i … 1024 i + 1023 of the matrix,
  window 1's rows 512 j … 512 j + 511 of the same matrix, window 2's rows 1024 i … 1024 i + 1023 of the
  label column, window 3's columns 512 j … 512 j + 511 of the label row: entry `y` of a block is the array's
  entry at (block index) x (block size) + `y` on each axis, and the block indices are decided over the grid.
-/
import proofs.«124993_j78073915507043_1_alg».proof.Proof.KIBase
import proofs.«124993_j78073915507043_1_alg».proof.Proof.Tiles
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (m : (ℓ : Loc nD τ sig) → Buf (Elt F) ℓ) (c : Dev nD)

/-- The windows' block indices at point `t`: the row tile `t / 16` for windows 0 and 2, the column tile
    `t % 16` for windows 1 and 3, zero on the other axis. -/
theorem index_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

theorem point_val (i : Fin 8) (j : Fin 16) : (Tiles.point i j).val = 16 * i.val + j.val := rfl

/-- Window 0's block at (i, j): rows 1024 i + p of the matrix. -/
theorem block0_read (i : Fin 8) (j : Fin 16) (p : Fin 1024) (k : Fin 128) :
    blockAt m c 0 (Tiles.point i j) (ix2 p k)
      = V m c main_v1 (ix2 (⟨1024 * i.val + p.val, by have := i.isLt; have := p.isLt; omega⟩ : Fin 8192) k) := by
  obtain ⟨e0, e1, -⟩ := index_facts (Tiles.point i j)
  show V m c main_v1 (((cfg0.win 0).blk (Tiles.point i j)).view.emb (ix2 p k)) = V m c main_v1 _
  refine congrArg (V m c main_v1) (funext fun a => Fin.ext ?_)
  have hi := i.isLt; have hj := j.isLt
  match a with
  | ⟨0, _⟩ =>
    show win0_0.index (Tiles.point i j) (0 : Fin 2) * 1024 + 1 * p.val = 1024 * i.val + p.val
    rw [e0, point_val]; omega
  | ⟨1, _⟩ =>
    show win0_0.index (Tiles.point i j) (1 : Fin 2) * 128 + 1 * k.val = k.val
    rw [e1]; omega

/-- Window 1's block at (i, j): rows 512 j + q of the matrix. -/
theorem block1_read (i : Fin 8) (j : Fin 16) (q : Fin 512) (k : Fin 128) :
    blockAt m c 1 (Tiles.point i j) (ix2 q k)
      = V m c main_v1 (ix2 (⟨512 * j.val + q.val, by have := j.isLt; have := q.isLt; omega⟩ : Fin 8192) k) := by
  obtain ⟨-, -, e0, e1, -⟩ := index_facts (Tiles.point i j)
  show V m c main_v1 (((cfg0.win 1).blk (Tiles.point i j)).view.emb (ix2 q k)) = V m c main_v1 _
  refine congrArg (V m c main_v1) (funext fun a => Fin.ext ?_)
  have hi := i.isLt; have hj := j.isLt
  match a with
  | ⟨0, _⟩ =>
    show win0_1.index (Tiles.point i j) (0 : Fin 2) * 512 + 1 * q.val = 512 * j.val + q.val
    rw [e0, point_val]; omega
  | ⟨1, _⟩ =>
    show win0_1.index (Tiles.point i j) (1 : Fin 2) * 128 + 1 * k.val = k.val
    rw [e1]; omega

/-- Window 2's block at (i, j): rows 1024 i + p of the label column. -/
theorem block2_read (i : Fin 8) (j : Fin 16) (p : Fin 1024) (u : Fin 1) :
    blockAt m c 2 (Tiles.point i j) (ix2 p u)
      = V m c main_v3 (ix2 (⟨1024 * i.val + p.val, by have := i.isLt; have := p.isLt; omega⟩ : Fin 8192) u) := by
  obtain ⟨-, -, -, -, e0, e1, -⟩ := index_facts (Tiles.point i j)
  show V m c main_v3 (((cfg0.win 2).blk (Tiles.point i j)).view.emb (ix2 p u)) = V m c main_v3 _
  refine congrArg (V m c main_v3) (funext fun a => Fin.ext ?_)
  have hi := i.isLt; have hj := j.isLt
  match a with
  | ⟨0, _⟩ =>
    show win0_2.index (Tiles.point i j) (0 : Fin 2) * 1024 + 1 * p.val = 1024 * i.val + p.val
    rw [e0, point_val]; omega
  | ⟨1, _⟩ =>
    show win0_2.index (Tiles.point i j) (1 : Fin 2) * 1 + 1 * u.val = u.val
    rw [e1]; omega

/-- Window 3's block at (i, j): columns 512 j + q of the label row. -/
theorem block3_read (i : Fin 8) (j : Fin 16) (u : Fin 1) (q : Fin 512) :
    blockAt m c 3 (Tiles.point i j) (ix2 u q)
      = V m c main_v4 (ix2 u (⟨512 * j.val + q.val, by have := j.isLt; have := q.isLt; omega⟩ : Fin 8192)) := by
  obtain ⟨-, -, -, -, -, -, e0, e1⟩ := index_facts (Tiles.point i j)
  show V m c main_v4 (((cfg0.win 3).blk (Tiles.point i j)).view.emb (ix2 u q)) = V m c main_v4 _
  refine congrArg (V m c main_v4) (funext fun a => Fin.ext ?_)
  have hi := i.isLt; have hj := j.isLt
  match a with
  | ⟨0, _⟩ =>
    show win0_3.index (Tiles.point i j) (0 : Fin 2) * 1 + 1 * u.val = u.val
    rw [e0]; omega
  | ⟨1, _⟩ =>
    show win0_3.index (Tiles.point i j) (1 : Fin 2) * 512 + 1 * q.val = 512 * j.val + q.val
    rw [e1, point_val]; omega

/-! ## Which coordinate of the point a block depends on -/

/-- Window 0's block is the row tile's: the same at every column tile. -/
theorem block0_indep (i : Fin 8) (j j' : Fin 16) :
    (blockAt m c 0 (Tiles.point i j) : S1024x128.Idx → Elt F .bf16) = blockAt m c 0 (Tiles.point i j') := by
  funext y
  obtain ⟨e0, e1, -⟩ := index_facts (Tiles.point i j)
  obtain ⟨f0, f1, -⟩ := index_facts (Tiles.point i j')
  show V m c main_v1 (((cfg0.win 0).blk (Tiles.point i j)).view.emb y) = V m c main_v1 (((cfg0.win 0).blk (Tiles.point i j')).view.emb y)
  refine congrArg (V m c main_v1) (funext fun a => Fin.ext ?_)
  have hi := i.isLt; have hj := j.isLt; have hj' := j'.isLt
  match a with
  | ⟨0, _⟩ =>
    show win0_0.index (Tiles.point i j) (0 : Fin 2) * 1024 + 1 * (y 0).val = win0_0.index (Tiles.point i j') (0 : Fin 2) * 1024 + 1 * (y 0).val
    rw [e0, f0, point_val, point_val]; omega
  | ⟨1, _⟩ =>
    show win0_0.index (Tiles.point i j) (1 : Fin 2) * 128 + 1 * (y 1).val = win0_0.index (Tiles.point i j') (1 : Fin 2) * 128 + 1 * (y 1).val
    rw [e1, f1]

/-- Window 2's block is the row tile's: the same at every column tile. -/
theorem block2_indep (i : Fin 8) (j j' : Fin 16) :
    (blockAt m c 2 (Tiles.point i j) : S1024x1.Idx → Elt F .i32) = blockAt m c 2 (Tiles.point i j') := by
  funext y
  obtain ⟨-, -, -, -, e0, e1, -⟩ := index_facts (Tiles.point i j)
  obtain ⟨-, -, -, -, f0, f1, -⟩ := index_facts (Tiles.point i j')
  show V m c main_v3 (((cfg0.win 2).blk (Tiles.point i j)).view.emb y) = V m c main_v3 (((cfg0.win 2).blk (Tiles.point i j')).view.emb y)
  refine congrArg (V m c main_v3) (funext fun a => Fin.ext ?_)
  have hi := i.isLt; have hj := j.isLt; have hj' := j'.isLt
  match a with
  | ⟨0, _⟩ =>
    show win0_2.index (Tiles.point i j) (0 : Fin 2) * 1024 + 1 * (y 0).val = win0_2.index (Tiles.point i j') (0 : Fin 2) * 1024 + 1 * (y 0).val
    rw [e0, f0, point_val, point_val]; omega
  | ⟨1, _⟩ =>
    show win0_2.index (Tiles.point i j) (1 : Fin 2) * 1 + 1 * (y 1).val = win0_2.index (Tiles.point i j') (1 : Fin 2) * 1 + 1 * (y 1).val
    rw [e1, f1]

/-- Window 1's block is the column tile's: the same at every row tile. -/
theorem block1_indep (i i' : Fin 8) (j : Fin 16) :
    (blockAt m c 1 (Tiles.point i j) : S512x128.Idx → Elt F .bf16) = blockAt m c 1 (Tiles.point i' j) := by
  funext y
  obtain ⟨-, -, e0, e1, -⟩ := index_facts (Tiles.point i j)
  obtain ⟨-, -, f0, f1, -⟩ := index_facts (Tiles.point i' j)
  show V m c main_v1 (((cfg0.win 1).blk (Tiles.point i j)).view.emb y) = V m c main_v1 (((cfg0.win 1).blk (Tiles.point i' j)).view.emb y)
  refine congrArg (V m c main_v1) (funext fun a => Fin.ext ?_)
  have hi := i.isLt; have hi' := i'.isLt; have hj := j.isLt
  match a with
  | ⟨0, _⟩ =>
    show win0_1.index (Tiles.point i j) (0 : Fin 2) * 512 + 1 * (y 0).val = win0_1.index (Tiles.point i' j) (0 : Fin 2) * 512 + 1 * (y 0).val
    rw [e0, f0, point_val, point_val]; omega
  | ⟨1, _⟩ =>
    show win0_1.index (Tiles.point i j) (1 : Fin 2) * 128 + 1 * (y 1).val = win0_1.index (Tiles.point i' j) (1 : Fin 2) * 128 + 1 * (y 1).val
    rw [e1, f1]

/-- Window 3's block is the column tile's: the same at every row tile. -/
theorem block3_indep (i i' : Fin 8) (j : Fin 16) :
    (blockAt m c 3 (Tiles.point i j) : S1x512.Idx → Elt F .i32) = blockAt m c 3 (Tiles.point i' j) := by
  funext y
  obtain ⟨-, -, -, -, -, -, e0, e1⟩ := index_facts (Tiles.point i j)
  obtain ⟨-, -, -, -, -, -, f0, f1⟩ := index_facts (Tiles.point i' j)
  show V m c main_v4 (((cfg0.win 3).blk (Tiles.point i j)).view.emb y) = V m c main_v4 (((cfg0.win 3).blk (Tiles.point i' j)).view.emb y)
  refine congrArg (V m c main_v4) (funext fun a => Fin.ext ?_)
  have hi := i.isLt; have hi' := i'.isLt; have hj := j.isLt
  match a with
  | ⟨0, _⟩ =>
    show win0_3.index (Tiles.point i j) (0 : Fin 2) * 1 + 1 * (y 0).val = win0_3.index (Tiles.point i' j) (0 : Fin 2) * 1 + 1 * (y 0).val
    rw [e0, f0]
  | ⟨1, _⟩ =>
    show win0_3.index (Tiles.point i j) (1 : Fin 2) * 512 + 1 * (y 1).val = win0_3.index (Tiles.point i' j) (1 : Fin 2) * 512 + 1 * (y 1).val
    rw [e1, f1, point_val, point_val]; omega

end Cert.KernelIdeal.Hand

end
-- ==== Proof.KIAcc.lean ====
/-
  The run's accumulators are the tile's.

  Row tile `i` occupies grid points 16 · i, …, 16 · i + 15, one per column tile. Its matrix block and its label
  column do not move along the column tiles (their block index is the point's quotient by 16), so at every one
  of these points the body reads row tile `i`'s blocks beside column tile `j`'s. By induction on `j`, what the
  point of column tile `j` leaves in the two accumulators is the tile's accumulation after `j + 1` column tiles,
  and what the last one leaves in the output block is the tile's row losses.
-/
import proofs.«124993_j78073915507043_1_alg».proof.Proof.KIPieces
import proofs.«124993_j78073915507043_1_alg».proof.Proof.KIBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Tiles

attribute [local irreducible] accAt

/-- The accumulation at two names of one position. -/
theorem accAt_eq_of_eq (c : Dev nD) {n n' : ℕ} (h : n = n') (hn : n < cfg0.N) (hn' : n' < cfg0.N) :
    accAt m c n hn = accAt m c n' hn' := by
  subst h; rfl

/-! ## The blocks of row tile `i` -/

/-- Row tile `i`'s matrix block, column tile `j`'s matrix blocks, row tile `i`'s labels, column tile `j`'s labels. -/
abbrev tileZi (c : Dev nD) (i : Fin 8) : Vec F S1024x128 .bf16 := blockAt m c 0 (point i 0)
abbrev tileZj (c : Dev nD) (i : Fin 8) : Fin 16 → Vec F S512x128 .bf16 := fun j => blockAt m c 1 (point i j)
abbrev tileLr (c : Dev nD) (i : Fin 8) : Vec F S1024x1 .i32 := blockAt m c 2 (point i 0)
abbrev tileLc (c : Dev nD) (i : Fin 8) : Fin 16 → Vec F S1x512 .i32 := fun j => blockAt m c 3 (point i j)

theorem block0_point (c : Dev nD) (i : Fin 8) (j : Fin 16) :
    (blockAt m c 0 (point i j) : Vec F S1024x128 .bf16) = tileZi m c i :=
  block0_indep m c i j 0
theorem block2_point (c : Dev nD) (i : Fin 8) (j : Fin 16) :
    (blockAt m c 2 (point i j) : Vec F S1024x1 .i32) = tileLr m c i :=
  block2_indep m c i j 0

/-! ## One step of the tile's accumulation, at column tile `⟨n, hn⟩` -/

section Steps
variable (i : Fin 8) (zi : Vec F S1024x128 .bf16) (zj : Fin 16 → Vec F S512x128 .bf16)
  (lr : Vec F S1024x1 .i32) (lc : Fin 16 → Vec F S1x512 .i32)

theorem col_of_lt (n : ℕ) (hn : n < 16) : col n = ⟨n, hn⟩ := Fin.ext (Nat.mod_eq_of_lt hn)

theorem posAcc_step (n : ℕ) (hn : n < 16) :
    k0_pay1 (k0_pay7 (grid0.coords (point i ⟨n, hn⟩)) zi (zj ⟨n, hn⟩) lr (lc ⟨n, hn⟩) (posAcc i zi zj lr lc n))
      = posAcc i zi zj lr lc (n + 1) := by
  show _ = k0_pay1 (k0_pay7 (grid0.coords (point i (col n))) zi (zj (col n)) lr (lc (col n)) (posAcc i zi zj lr lc n))
  rw [col_of_lt n hn]

theorem totAcc_step (n : ℕ) (hn : n < 16) :
    k0_pay2 (k0_pay6 zi (zj ⟨n, hn⟩)) (totAcc zi zj n) = totAcc zi zj (n + 1) := by
  show _ = k0_pay2 (k0_pay6 zi (zj (col n))) (totAcc zi zj n)
  rw [col_of_lt n hn]

end Steps

/-! ## The induction along the column tiles -/

theorem fst_of_eq {α β γ : Type} {p : α × β × γ} {a : α} {b : β} {c : γ} (h : p = (a, b, c)) : p.1 = a := by subst h; rfl
theorem snd_fst_of_eq {α β γ : Type} {p : α × β × γ} {a : α} {b : β} {c : γ} (h : p = (a, b, c)) : p.2.1 = b := by subst h; rfl
theorem snd_snd_of_eq {α β γ : Type} {p : α × β × γ} {a : α} {b : β} {c : γ} (h : p = (a, b, c)) : p.2.2 = c := by subst h; rfl

/-- After the point of column tile `n` of row tile `i`: the tile's accumulators after `n + 1` column tiles. -/
def AccOK (c : Dev nD) (i : Fin 8) (n : ℕ) : Prop := ∀ hn : n < 16,
    (accAt m c (point i ⟨n, hn⟩).val (point i ⟨n, hn⟩).isLt).2.1
        = posAcc i (tileZi m c i) (tileZj m c i) (tileLr m c i) (tileLc m c i) (n + 1)
      ∧ (accAt m c (point i ⟨n, hn⟩).val (point i ⟨n, hn⟩).isLt).2.2
        = totAcc (tileZi m c i) (tileZj m c i) (n + 1)

theorem accOK_zero (c : Dev nD) (i : Fin 8) : AccOK m c i 0 := by
  intro hn
  have h0 : (point i ⟨0, hn⟩).val % 16 = 0 := by rw [point_val]; show (16 * i.val + 0) % 16 = 0; omega
  have h1 : ¬(point i ⟨0, hn⟩).val % 16 = 15 := by omega
  have e := accAt_first m c (point i ⟨0, hn⟩) h0 h1
  have eP := snd_fst_of_eq e
  have eT := snd_snd_of_eq e
  rw [firstP_eq, block0_point, block2_point] at eP
  rw [firstT_eq, block0_point] at eT
  exact ⟨eP.trans (posAcc_step i (tileZi m c i) (tileZj m c i) (tileLr m c i) (tileLc m c i) 0 hn), eT.trans (totAcc_step (tileZi m c i) (tileZj m c i) 0 hn)⟩

theorem accOK_succ (c : Dev nD) (i : Fin 8) (n : ℕ) (ih : AccOK m c i n) : AccOK m c i (n + 1) := by
  intro hn
  obtain ⟨ihP, ihT⟩ := ih (by omega)
  have hv : (point i ⟨n + 1, hn⟩).val = 16 * i.val + (n + 1) := rfl
  have h0 : ¬(point i ⟨n + 1, hn⟩).val % 16 = 0 := by rw [hv]; omega
  have hprev : prevAt m c (point i ⟨n + 1, hn⟩)
      = accAt m c (point i ⟨n, by omega⟩).val (point i ⟨n, by omega⟩).isLt :=
    accAt_eq_of_eq m c (by rw [hv]; show 16 * i.val + (n + 1) - 1 = 16 * i.val + n; omega) _ _
  by_cases h1 : (point i ⟨n + 1, hn⟩).val % 16 = 15
  · have e := accAt_last m c (point i ⟨n + 1, hn⟩) h0 h1
    have eP := snd_fst_of_eq e
    have eT := snd_snd_of_eq e
    rw [lastP_eq, hprev, ihP, block0_point, block2_point] at eP
    rw [lastT_eq, hprev, ihT, block0_point] at eT
    exact ⟨eP.trans (posAcc_step i (tileZi m c i) (tileZj m c i) (tileLr m c i) (tileLc m c i) (n + 1) hn), eT.trans (totAcc_step (tileZi m c i) (tileZj m c i) (n + 1) hn)⟩
  · have e := accAt_mid m c (point i ⟨n + 1, hn⟩) h0 h1
    have eP := snd_fst_of_eq e
    have eT := snd_snd_of_eq e
    rw [midP_eq, hprev, ihP, block0_point, block2_point] at eP
    rw [midT_eq, hprev, ihT, block0_point] at eT
    exact ⟨eP.trans (posAcc_step i (tileZi m c i) (tileZj m c i) (tileLr m c i) (tileLc m c i) (n + 1) hn), eT.trans (totAcc_step (tileZi m c i) (tileZj m c i) (n + 1) hn)⟩

theorem acc_point_aux (c : Dev nD) (i : Fin 8) (n : ℕ) : AccOK m c i n := by
  induction n with
  | zero => exact accOK_zero m c i
  | succ n ih => exact accOK_succ m c i n ih

/-- What the point of column tile `j` of row tile `i` leaves in the two accumulators. -/
theorem acc_point (c : Dev nD) (i : Fin 8) (j : Fin 16) :
    (accAt m c (point i j).val (point i j).isLt).2.1
        = posAcc i (tileZi m c i) (tileZj m c i) (tileLr m c i) (tileLc m c i) (j.val + 1)
      ∧ (accAt m c (point i j).val (point i j).isLt).2.2
        = totAcc (tileZi m c i) (tileZj m c i) (j.val + 1) :=
  acc_point_aux m c i j.val j.isLt

/-- The row losses from the two accumulators after all sixteen column tiles. -/
theorem lossTile_of (i : Fin 8) (zi : Vec F S1024x128 .bf16) (zj : Fin 16 → Vec F S512x128 .bf16)
    (lr : Vec F S1024x1 .i32) (lc : Fin 16 → Vec F S1x512 .i32) (P T : Vec F S1024x1 .f32)
    (hP : P = posAcc i zi zj lr lc 16) (hT : T = totAcc zi zj 16) :
    k0_pay3 T P P = lossTile i zi zj lr lc := by
  subst hP hT; rfl

/-- What the last column tile of row tile `i` leaves in the output block: the tile's row losses. -/
theorem out_point (c : Dev nD) (i : Fin 8) :
    (accAt m c (point i 15).val (point i 15).isLt).1
      = lossTile i (tileZi m c i) (tileZj m c i) (tileLr m c i) (tileLc m c i) := by
  obtain ⟨ihP, ihT⟩ := acc_point_aux m c i 14 (by decide)
  have hv : (point i 15).val = 16 * i.val + 15 := rfl
  have h0 : ¬(point i 15).val % 16 = 0 := by rw [hv]; omega
  have h1 : (point i 15).val % 16 = 15 := by rw [hv]; omega
  have hprev : prevAt m c (point i 15)
      = accAt m c (point i ⟨14, by decide⟩).val (point i ⟨14, by decide⟩).isLt :=
    accAt_eq_of_eq m c (by rw [hv]; show 16 * i.val + 15 - 1 = 16 * i.val + 14; omega) _ _
  have eO := fst_of_eq (accAt_last m c (point i 15) h0 h1)
  rw [lastO_eq, hprev, ihP, ihT, block0_point, block2_point] at eO
  refine eO.trans (lossTile_of i (tileZi m c i) (tileZj m c i) (tileLr m c i) (tileLc m c i) _ _ ?_ ?_)
  · exact posAcc_step i (tileZi m c i) (tileZj m c i) (tileLr m c i) (tileLc m c i) 15 (by decide)
  · exact totAcc_step (tileZi m c i) (tileZj m c i) 15 (by decide)

end Cert.KernelIdeal.Hand

end
-- ==== Proof.Spec.lean ====
/-
  The supervised-contrastive row loss as ONE function of the stacked arrays, on the extended reals.

  `Z r k` is row `r` of the 8192 x 128 matrix of the two views stacked, `L r` the label of row `r`
  (the 4096 labels repeated). With `s r c = exp (⟨Z r, Z c⟩ / 0.5)` and the off-diagonal same-label
  indicator `mask r c = [L c = L r] - [r = c]`, the loss of row `r` is

      - log ( (Σ_c s r c · mask r c) / ((Σ_c s r c · (1 - mask r c)) + ε) + ε )

  and the result is the mean of the row losses. Every sum is over all 8192 columns; the literals are kept
  as the binary words both programs print.
-/
import Idealize.ShloMosaic.PureOps.Ideal
import Idealize.ShloMosaic.Lib.ValueIdx

noncomputable section

namespace Cert.Proof.SupCon

open Idealize.ShloMosaic Idealize.ShloMosaic.ValueIdx
open scoped BigOperators

/-- The two views stacked: rows 0..4095 are the first view's, rows 4096..8191 the second's. -/
def stack (z1 z2 : (⟨2, ![4096, 128]⟩ : Shape).Idx → EReal) (r : Fin 8192) (k : Fin 128) : EReal :=
  if h : r.val < 4096 then z1 (ix2 ⟨r.val, h⟩ k) else z2 (ix2 ⟨r.val - 4096, by omega⟩ k)

/-- The labels repeated once. -/
def stackLab (lab : (⟨1, ![4096]⟩ : Shape).Idx → BitVec 32) (r : Fin 8192) : BitVec 32 :=
  if h : r.val < 4096 then lab (ix1 ⟨r.val, h⟩) else lab (ix1 ⟨r.val - 4096, by omega⟩)

variable (Z : Fin 8192 → Fin 128 → EReal) (L : Fin 8192 → BitVec 32)

/-- The inner product of rows `r` and `c`. -/
def dot (r c : Fin 8192) : EReal := ∑ k : Fin 128, Z r k * Z c k

/-- The temperature-scaled similarity, exponentiated: `exp (⟨Z r, Z c⟩ / 0.5)`. -/
def sim (r c : Fin 8192) : EReal := Ideal.exp (Ideal.div (dot Z r c) (Ideal.ofBits .f32 0x3F000000#32))

/-- Same label, as 0 or 1. -/
def same (r c : Fin 8192) : EReal := if L c = L r then 1 else 0

/-- The diagonal, as 0 or 1. -/
def eye (r c : Fin 8192) : EReal := if r = c then 1 else 0

/-- The off-diagonal same-label indicator. -/
def mask (r c : Fin 8192) : EReal := same L r c - eye r c

/-- The small constant both programs add, as its binary word. -/
def eps : EReal := Ideal.ofBits .f32 0x33D6BF95#32

/-- The sum over the positives of row `r`. -/
def pos (r : Fin 8192) : EReal := ∑ c : Fin 8192, sim Z r c * mask L r c

/-- The sum over everything but the positives of row `r`, plus ε. -/
def denom (r : Fin 8192) : EReal := (∑ c : Fin 8192, sim Z r c * (1 - mask L r c)) + eps

/-- The loss of row `r`. -/
def lossRow (r : Fin 8192) : EReal := -(Ideal.log (Ideal.div (pos Z L r) (denom Z L r) + eps))

/-- The mean of the row losses: their sum divided by 8192. -/
def loss : EReal := Ideal.div (∑ r : Fin 8192, lossRow Z L r) (Ideal.ofBits .f32 0x46000000#32)

end Cert.Proof.SupCon

end
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.KIArrays.lean ====
/-
  The kernel's arrays as the region finds them, and its windows' blocks, read at an index.

  Before the region the host stacks the two views (and converts the stack, which changes nothing on the
  extended reals), repeats the labels, and views the repeated labels as a column and as a row. So the matrix
  the windows 0 and 1 cut is `stack`, and the column and the row the windows 2 and 3 cut are `stackLab`.
  At grid point (i, j) window 0's block is rows 1024 i … 1024 i + 1023 of the matrix, window 1's rows
  512 j … 512 j + 511, window 2's the same rows as window 0's of the label column, window 3's columns
  512 j … 512 j + 511 of the label row.
-/
import proofs.«124993_j78073915507043_1_alg».proof.Proof.KIBase
import proofs.«124993_j78073915507043_1_alg».proof.Proof.Spec
import proofs.«124993_j78073915507043_1_alg».proof.Proof.Tiles
import proofs.«124993_j78073915507043_1_alg».proof.Proof.LibReadAt
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open Cert.Proof.SupCon

/-! ## The two joins read at an index -/

/-- Two 4096 x 128 matrices joined along the rows, at row `r`, column `k`. -/
theorem stack_read {α : Type} (x0 x1 : (⟨2, ![4096, 128]⟩ : Shape).Idx → α)
    (h : Shape.Concatenates [(⟨2, ![4096, 128]⟩ : Shape), ⟨2, ![4096, 128]⟩] ⟨2, ![8192, 128]⟩ 0) (r : Fin 8192) (k : Fin 128) :
    concatenate (⟨2, ![8192, 128]⟩ : Shape) 0 [⟨⟨2, ![4096, 128]⟩, x0⟩, ⟨⟨2, ![4096, 128]⟩, x1⟩] h (ix2 r k)
      = if hr : r.val < 4096 then x0 (ix2 ⟨r.val, hr⟩ k) else x1 (ix2 ⟨r.val - 4096, by omega⟩ k) := by
  by_cases hr : r.val < 4096
  · rw [dif_pos hr]
    exact concatenate_pair_apply_left (0 : Fin (⟨2, ![8192, 128]⟩ : Shape).rank) x0 x1 h
      (ix2 r k) rfl (ix2 ⟨r.val, hr⟩ k) (fun b => match b with | ⟨0, _⟩ => rfl | ⟨1, _⟩ => rfl)
  · rw [dif_neg hr]
    exact concatenate_pair_apply_right (0 : Fin (⟨2, ![8192, 128]⟩ : Shape).rank) x0 x1 h
      (ix2 r k) rfl rfl (ix2 ⟨r.val - 4096, by omega⟩ k)
      (fun b hb => match b, hb with | ⟨0, _⟩, hb => absurd rfl hb | ⟨1, _⟩, _ => rfl)
      (by show r.val - 4096 + 4096 = r.val; omega)

/-- A vector of 4096 joined with itself, at entry `r`. -/
theorem stackLab_read {α : Type} (x2 : (⟨1, ![4096]⟩ : Shape).Idx → α)
    (h : Shape.Concatenates [(⟨1, ![4096]⟩ : Shape), ⟨1, ![4096]⟩] ⟨1, ![8192]⟩ 0) (r : Fin 8192) :
    concatenate (⟨1, ![8192]⟩ : Shape) 0 [⟨⟨1, ![4096]⟩, x2⟩, ⟨⟨1, ![4096]⟩, x2⟩] h (ix1 r)
      = if hr : r.val < 4096 then x2 (ix1 ⟨r.val, hr⟩) else x2 (ix1 ⟨r.val - 4096, by omega⟩) := by
  by_cases hr : r.val < 4096
  · rw [dif_pos hr]
    exact concatenate_pair_apply_left (0 : Fin (⟨1, ![8192]⟩ : Shape).rank) x2 x2 h
      (ix1 r) rfl (ix1 ⟨r.val, hr⟩) (fun b => match b with | ⟨0, _⟩ => rfl)
  · rw [dif_neg hr]
    exact concatenate_pair_apply_right (0 : Fin (⟨1, ![8192]⟩ : Shape).rank) x2 x2 h
      (ix1 r) rfl rfl (ix1 ⟨r.val - 4096, by omega⟩)
      (fun b hb => match b, hb with | ⟨0, _⟩, hb => absurd rfl hb)
      (by show r.val - 4096 + 4096 = r.val; omega)

/-! ## The arguments are as launched -/

section Args

variable {F : FTy → Type} [FloatOps F]
variable (m : (ℓ : Loc nD τ sig) → Buf (Elt F) ℓ) (c : Dev nD)

theorem V_arg0 : V m c main_arg0 = m ((c : Thread nD τ).loc main_arg0) := by
  show StableHlo.after hostOps0 (fun b => m (c, b)) (Proc.devRef .tc main_arg0) = _
  after_results
  try rfl
theorem V_arg1 : V m c main_arg1 = m ((c : Thread nD τ).loc main_arg1) := by
  show StableHlo.after hostOps0 (fun b => m (c, b)) (Proc.devRef .tc main_arg1) = _
  after_results
  try rfl
theorem V_arg2 : V m c main_arg2 = m ((c : Thread nD τ).loc main_arg2) := by
  show StableHlo.after hostOps0 (fun b => m (c, b)) (Proc.devRef .tc main_arg2) = _
  after_results
  try rfl

end Args

/-! ## The host's arrays on the extended reals -/

section Arrays

variable (m : (ℓ : Loc nD τ sig) → Buf (Elt Ideal) ℓ) (c : Dev nD)

theorem V_v1_eq :
    (V (F := Ideal) m c main_v1 : S8192x128.Idx → EReal)
      = truncf (F := Ideal) .bf16 (concatenate S8192x128 0 [⟨S4096x128, m ((c : Thread nD τ).loc main_arg0)⟩, ⟨S4096x128, m ((c : Thread nD τ).loc main_arg1)⟩]
          concatenates_S4096x128_S4096x128_S8192x128_d0) bitsLt_bf16_f32 := by
  show StableHlo.after hostOps0 (fun b => m (c, b)) (Proc.devRef .tc main_v1) = _
  after_results
  try rfl

theorem V_v3_eq :
    (V (F := Ideal) m c main_v3 : S8192x1.Idx → BitVec 32)
      = shapeCast S8192x1 (concatenate S8192 0 [⟨S4096, m ((c : Thread nD τ).loc main_arg2)⟩, ⟨S4096, m ((c : Thread nD τ).loc main_arg2)⟩]
          concatenates_S4096_S4096_S8192_d0) shapeCasts_S8192_S8192x1 := by
  show StableHlo.after hostOps0 (fun b => m (c, b)) (Proc.devRef .tc main_v3) = _
  after_results
  try rfl

theorem V_v4_eq :
    (V (F := Ideal) m c main_v4 : S1x8192.Idx → BitVec 32)
      = shapeCast S1x8192 (concatenate S8192 0 [⟨S4096, m ((c : Thread nD τ).loc main_arg2)⟩, ⟨S4096, m ((c : Thread nD τ).loc main_arg2)⟩]
          concatenates_S4096_S4096_S8192_d0) shapeCasts_S8192_S1x8192 := by
  show StableHlo.after hostOps0 (fun b => m (c, b)) (Proc.devRef .tc main_v4) = _
  after_results
  try rfl

/-- The matrix the windows 0 and 1 cut is the two views stacked. -/
theorem V_v1_read (r : Fin 8192) (k : Fin 128) :
    V (F := Ideal) m c main_v1 (ix2 r k)
      = stack (m ((c : Thread nD τ).loc main_arg0)) (m ((c : Thread nD τ).loc main_arg1)) r k := by
  have e := congrFun (V_v1_eq m c) (ix2 r k)
  exact e.trans (stack_read (m ((c : Thread nD τ).loc main_arg0)) (m ((c : Thread nD τ).loc main_arg1))
    concatenates_S4096x128_S4096x128_S8192x128_d0 r k)

/-- The column window 2 cuts is the labels repeated. -/
theorem V_v3_read (r : Fin 8192) (u : Fin 1) :
    V (F := Ideal) m c main_v3 (ix2 r u) = stackLab (m ((c : Thread nD τ).loc main_arg2)) r := by
  have e := congrFun (V_v3_eq m c) (ix2 r u)
  exact e.trans ((Cert.ReadAt.shapeCast_a_a1_apply
    (concatenate S8192 0 [⟨S4096, m ((c : Thread nD τ).loc main_arg2)⟩, ⟨S4096, m ((c : Thread nD τ).loc main_arg2)⟩]
      concatenates_S4096_S4096_S8192_d0) shapeCasts_S8192_S8192x1 r u).trans
    (stackLab_read (m ((c : Thread nD τ).loc main_arg2)) concatenates_S4096_S4096_S8192_d0 r))

/-- The row window 3 cuts is the labels repeated. -/
theorem V_v4_read (u : Fin 1) (r : Fin 8192) :
    V (F := Ideal) m c main_v4 (ix2 u r) = stackLab (m ((c : Thread nD τ).loc main_arg2)) r := by
  have e := congrFun (V_v4_eq m c) (ix2 u r)
  exact e.trans ((shapeCast_a_1a_apply
    (concatenate S8192 0 [⟨S4096, m ((c : Thread nD τ).loc main_arg2)⟩, ⟨S4096, m ((c : Thread nD τ).loc main_arg2)⟩]
      concatenates_S4096_S4096_S8192_d0) shapeCasts_S8192_S1x8192 u r).trans
    (stackLab_read (m ((c : Thread nD τ).loc main_arg2)) concatenates_S4096_S4096_S8192_d0 r))

end Arrays

end Cert.KernelIdeal.Hand

end
-- ==== Proof.PayRead6.lean ====
/-
  The similarity tile read at an index.

  For a 1024 x 128 block `zi` and a 512 x 128 block `zj`, the kernel's similarity payload is, at row `p` and
  column `q`,  exp ((Σ_k zi(p,k) · zj(q,k)) · 2): the shape casts are identities, the transpose swaps the two
  coordinates of `zj`, the matrix product starts from a zero accumulator, and the scale is the binary word of 2.
-/
import proofs.«124993_j78073915507043_1_alg».proof.Proof.Tiles
import proofs.«124993_j78073915507043_1_alg».proof.Proof.LibReadAt
import Idealize.ShloMosaic.Lib.ValueLayout

noncomputable section

namespace Cert.KernelIdeal.PayRead

open Idealize.ShloMosaic Idealize.ShloMosaic.ValueIdx
open Cert.KernelIdeal Cert.KernelIdeal.Gen
open scoped BigOperators

/-- The inner product of row `p` of `zi` and row `q` of `zj`. -/
def dotT (zi : Vec Ideal S1024x128 .bf16) (zj : Vec Ideal S512x128 .bf16) (p : Fin 1024) (q : Fin 512) : EReal :=
  ∑ k : Fin 128, zi (ix2 p k) * zj (ix2 q k)

/-- The similarity of row `p` of `zi` and row `q` of `zj`: the exponential of twice their inner product. -/
def simT (zi : Vec Ideal S1024x128 .bf16) (zj : Vec Ideal S512x128 .bf16) (p : Fin 1024) (q : Fin 512) : EReal :=
  Ideal.exp (dotT zi zj p q * Ideal.ofBits .f32 0x40000000#32)

theorem dot_eq_plain : dot_S1024x128_S128x512_S1024x512_1_0_0_1_n_n = DotDims.plain 1024 128 512 := rfl

/-- The similarity payload at `(p, q)`. -/
theorem pay6_apply (zi : Vec Ideal S1024x128 .bf16) (zj : Vec Ideal S512x128 .bf16) (p : Fin 1024) (q : Fin 512) :
    k0_pay6 (F := Ideal) zi zj (ix2 p q) = simT zi zj p q := by
  unfold k0_pay6 simT dotT
  show Ideal.exp (matmul (F := Ideal) dot_S1024x128_S128x512_S1024x512_1_0_0_1_n_n none
      (shapeCast S1024x128 zi shapeCasts_S1024x128_S1024x128)
      (transpose S128x512 [1, 0] (shapeCast S512x128 zj shapeCasts_S512x128_S512x128) transposes_S512x128_p1_0_S128x512)
      (constant S1024x512 .f32 0x00000000#32) (ix2 p q) * Ideal.ofBits .f32 0x40000000#32) = _
  rw [dot_eq_plain, Cert.ReadAt.matmul_plain_zero_apply, shapeCast_self, shapeCast_self]
  refine congrArg (fun x => Ideal.exp (x * _)) (Finset.sum_congr rfl fun k _ => ?_)
  rw [transpose_ix2_apply]

end Cert.KernelIdeal.PayRead

end
-- ==== Proof.Words.lean ====
/-
  Binary words and one-bit comparisons as extended reals.

  The 32-bit float words of 0, 2, 1/2 and the small constant; the 0-or-1 value of an integer equality test,
  widened and converted; and sums of tile offsets and in-tile coordinates that stay far below 2^32.
-/
import Idealize.ShloMosaic.PureOps.Ideal
import Idealize.ShloMosaic.Lib.ValueIdx

noncomputable section

namespace Cert.KernelIdeal.Words

open Idealize.ShloMosaic

/-- The word `0x00000000` is 0. -/
theorem ofBits_zero : Ideal.ofBits .f32 0x00000000#32 = (0 : EReal) := by
  simp [Ideal.ofBits, Ideal.ieee]

/-- The word `0x40000000` (exponent 128 = 127 + 1, fraction 0) is 2. -/
theorem ofBits_two : Ideal.ofBits .f32 0x40000000#32 = ((2 : ℝ) : EReal) := by
  simp [Ideal.ofBits, Ideal.ieee, -EReal.coe_mul]; norm_num

/-- The word `0x3F000000` (exponent 126 = 127 − 1, fraction 0) is 1/2. -/
theorem ofBits_half : Ideal.ofBits .f32 0x3F000000#32 = ((1 / 2 : ℝ) : EReal) := by
  simp [Ideal.ofBits, Ideal.ieee, -EReal.coe_mul]; norm_num

/-- Dividing by the word of 1/2 is multiplying by the word of 2, on every extended real. -/
theorem div_half (x : EReal) :
    Ideal.div x (Ideal.ofBits .f32 0x3F000000#32) = x * Ideal.ofBits .f32 0x40000000#32 := by
  rw [ofBits_half, ofBits_two, Ideal.div_coe (by norm_num) x]
  norm_num

/-- An integer equality test, widened to 32 bits and converted, is 1 where the words agree and 0 elsewhere. -/
theorem ind_eq (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · have hb : (a == b) = true := by simpa using h
    rw [if_pos h, hb]
    show (((1 : ℤ) : ℝ) : EReal) = 1
    norm_num
  · have hb : (a == b) = false := by simpa using h
    rw [if_neg h, hb]
    show (((0 : ℤ) : ℝ) : EReal) = 0
    norm_num

/-- A tile offset plus an in-tile coordinate, as 32-bit words: no wrap below 2^32. -/
theorem word_add_mul (p a c : ℕ) (h : p + a * c < 2 ^ 32) (ha : a < 2 ^ 32) (hc : c < 2 ^ 32) :
    IntOp.addi (BitVec.ofNat 32 p) (Scalar.muli (BitVec.ofNat 32 a) (BitVec.ofNat 32 c)) = BitVec.ofNat 32 (p + a * c) := by
  show BitVec.ofNat 32 p + BitVec.ofNat 32 a * BitVec.ofNat 32 c = _
  apply BitVec.eq_of_toNat_eq
  simp only [BitVec.toNat_add, BitVec.toNat_mul, BitVec.toNat_ofNat]
  have hp : p < 2 ^ 32 := by omega
  have hac : a * c < 2 ^ 32 := by omega
  rw [Nat.mod_eq_of_lt hp, Nat.mod_eq_of_lt ha, Nat.mod_eq_of_lt hc, Nat.mod_eq_of_lt hac]

/-- Two naturals below 2^32 are equal exactly when their 32-bit words are. -/
theorem ofNat_eq_iff (m n : ℕ) (hm : m < 2 ^ 32) (hn : n < 2 ^ 32) : BitVec.ofNat 32 m = BitVec.ofNat 32 n ↔ m = n := by
  constructor
  · intro h
    have := congrArg BitVec.toNat h
    simp only [BitVec.toNat_ofNat] at this
    omega
  · intro h; rw [h]

end Cert.KernelIdeal.Words

end
-- ==== Proof.LibColumnBroadcast.lean ====
/-
  A column broadcast along the lanes, read at an index.

  A `[a, 1]` array broadcast to `[a, b]` holds, in every lane of row `p`, the column's entry of row `p`. Shape-generic
  in `a` and `b` and in the element type; the companion of the library's one-row form (`[1, b]` to `[a, b]`).
-/
import Idealize.ShloMosaic.Lib.Pipeline.Value
import Idealize.ShloMosaic.Lib.ValueIdx

namespace Cert.LibColumnBroadcast

open Idealize.ShloMosaic Idealize.ShloMosaic.ValueIdx

/-- A column `[a, 1]` broadcast along the lanes to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.PayRead7.lean ====
/-
  The accumulator payloads read at an index.

  At row `p` of a 1024 x 1 column:
  * the positives' step adds to the carried entry the sum over the tile's 512 columns `q` of
    similarity(p, q) · ([label of row p = label of column q] − [global row = global column]),
    the global row being 1024 · (row tile) + p and the global column 512 · (column tile) + q;
  * the plain step adds to the carried entry the sum over the 512 columns of a 1024 x 512 tile;
  * the two initial columns are zero, the copy payload is the identity;
  * the last payload is  0 − log (pos / ((tot − pos) + ε) + ε).
-/
import proofs.«124993_j78073915507043_1_alg».proof.Proof.PayRead6
import proofs.«124993_j78073915507043_1_alg».proof.Proof.Words
import proofs.«124993_j78073915507043_1_alg».proof.Proof.LibColumnBroadcast

noncomputable section

namespace Cert.KernelIdeal.PayRead

open Idealize.ShloMosaic Idealize.ShloMosaic.ValueIdx
open Cert.KernelIdeal Cert.KernelIdeal.Gen
open scoped BigOperators

/-- The off-diagonal same-label weight of row `p` and column `q` of the tile at row tile `g0`, column tile `g1`. -/
def maskT (g0 g1 : ℕ) (lr : IVec S1024x1 32) (lc : IVec S1x512 32) (p : Fin 1024) (q : Fin 512) : EReal :=
  (if lr (ix2 p 0) = lc (ix2 0 q) then (1 : EReal) else 0)
    - (if 1024 * g0 + p.val = 512 * g1 + q.val then (1 : EReal) else 0)

/-- The same-label bit, widened and converted, at `(p, q)`. -/
theorem same_apply (lr : IVec S1024x1 32) (lc : IVec S1x512 32) (p : Fin 1024) (q : Fin 512) :
    (sitofp (F := Ideal) .f32 (extui 32 (cmpi .eq
        (broadcastTo S1024x512 (shapeCast S1024x1 lr shapeCasts_S1024x1_S1024x1) broadcasts_S1024x1_S1024x512)
        (broadcastTo S1024x512 (shapeCast S1x512 lc shapeCasts_S1x512_S1x512) broadcasts_S1x512_S1024x512)) natLt_1_32)
      : FVec Ideal S1024x512 .f32) (ix2 p q)
      = if lr (ix2 p 0) = lc (ix2 0 q) then (1 : EReal) else 0 := by
  refine (Words.ind_eq _ _).trans ?_
  rw [Cert.LibColumnBroadcast.broadcastTo_column_apply, broadcastTo_1b_ab_apply, shapeCast_self, shapeCast_self]

/-- The diagonal bit, widened and converted, at `(p, q)` of the tile at `(g0, g1)`. -/
theorem diag_apply (g0 g1 : ℕ) (h0 : g0 < 8) (h1 : g1 < 16) (p : Fin 1024) (q : Fin 512) :
    (sitofp (F := Ideal) .f32 (extui 32 (cmpi .eq
        (addi (iota .tc S1024x512 32 [0] iota_S1024x512_d0_w32)
          (broadcast S1024x512 (Scalar.muli (BitVec.ofNat 32 g0) 1024#32)))
        (addi (iota .tc S1024x512 32 [1] iota_S1024x512_d1_w32)
          (broadcast S1024x512 (Scalar.muli (BitVec.ofNat 32 g1) 512#32)))) natLt_1_32)
      : FVec Ideal S1024x512 .f32) (ix2 p q)
      = if 1024 * g0 + p.val = 512 * g1 + q.val then (1 : EReal) else 0 := by
  refine (Words.ind_eq _ _).trans ?_
  have hp := p.isLt
  have hq := q.isLt
  have e0 : addi (iota .tc S1024x512 32 [0] iota_S1024x512_d0_w32)
      (broadcast S1024x512 (Scalar.muli (BitVec.ofNat 32 g0) 1024#32)) (ix2 p q) = BitVec.ofNat 32 (p.val + g0 * 1024) := by
    show IntOp.addi (iota .tc S1024x512 32 [0] iota_S1024x512_d0_w32 (ix2 p q)) (Scalar.muli (BitVec.ofNat 32 g0) (BitVec.ofNat 32 1024)) = _
    rw [iota_single_apply]
    exact Words.word_add_mul p.val g0 1024 (by omega) (by omega) (by omega)
  have e1 : addi (iota .tc S1024x512 32 [1] iota_S1024x512_d1_w32)
      (broadcast S1024x512 (Scalar.muli (BitVec.ofNat 32 g1) 512#32)) (ix2 p q) = BitVec.ofNat 32 (q.val + g1 * 512) := by
    show IntOp.addi (iota .tc S1024x512 32 [1] iota_S1024x512_d1_w32 (ix2 p q)) (Scalar.muli (BitVec.ofNat 32 g1) (BitVec.ofNat 32 512)) = _
    rw [iota_single_apply]
    exact Words.word_add_mul q.val g1 512 (by omega) (by omega) (by omega)
  rw [e0, e1]
  refine if_congr ?_ rfl rfl
  rw [Words.ofNat_eq_iff _ _ (by omega) (by omega)]
  omega

/-- The positives' step at row `p`. -/
theorem pay7_apply (g : grid0.Coords) (h0 : (g 0).val < 8) (h1 : (g 1).val < 16)
    (zi : Vec Ideal S1024x128 .bf16) (zj : Vec Ideal S512x128 .bf16) (lr : IVec S1024x1 32) (lc : IVec S1x512 32)
    (acc : Vec Ideal S1024x1 .f32) (p : Fin 1024) :
    k0_pay7 (F := Ideal) g zi zj lr lc acc (ix2 p 0)
      = acc (ix2 p 0) + ∑ q : Fin 512, simT zi zj p q * maskT (g 0).val (g 1).val lr lc p q := by
  unfold k0_pay7
  refine (addf_apply _ _ _).trans ?_
  refine congrArg (acc (ix2 p 0) + ·) ?_
  refine (Cert.ReadAt.shapeCast_a_a1_apply _ _ p 0).trans ?_
  refine (Cert.ReadAt.laneSum_apply _ _ _ _ _ p).trans ?_
  refine Finset.sum_congr rfl fun q _ => ?_
  refine (mulf_apply _ _ _).trans ?_
  rw [pay6_apply]
  refine congrArg (simT zi zj p q * ·) ?_
  refine (subf_apply _ _ _).trans ?_
  unfold maskT
  rw [same_apply lr lc p q, diag_apply (g 0).val (g 1).val h0 h1 p q]

/-- The plain step at row `p`. -/
theorem pay2_apply (t : FVec Ideal S1024x512 .f32) (acc : Vec Ideal S1024x1 .f32) (p : Fin 1024) :
    k0_pay2 (F := Ideal) t acc (ix2 p 0) = acc (ix2 p 0) + ∑ q : Fin 512, t (ix2 p q) := by
  unfold k0_pay2
  refine (congrFun (shapeCast_self _ _) _).trans ?_
  refine (addf_apply _ _ _).trans ?_
  refine congrArg (acc (ix2 p 0) + ·) ?_
  refine (Cert.ReadAt.shapeCast_a_a1_apply _ _ p 0).trans ?_
  exact Cert.ReadAt.laneSum_apply _ _ _ _ _ p

/-- The copy payload is the identity. -/
theorem pay1_eq (v : FVec Ideal S1024x1 .f32) : k0_pay1 (F := Ideal) v = v := by
  unfold k0_pay1
  exact shapeCast_self _ _

/-- The two initial columns are zero. -/
theorem pay4_apply (j : S1024x1.Idx) : k0_pay4 (F := Ideal) j = 0 := by
  unfold k0_pay4
  refine (congrFun (shapeCast_self _ _) _).trans ?_
  exact Words.ofBits_zero

theorem pay5_apply (j : S1024x1.Idx) : k0_pay5 (F := Ideal) j = 0 := by
  unfold k0_pay5
  refine (congrFun (shapeCast_self _ _) _).trans ?_
  exact Words.ofBits_zero

/-- The last payload at an index. -/
theorem pay3_apply (tot pos pos' : Vec Ideal S1024x1 .f32) (j : S1024x1.Idx) :
    k0_pay3 (F := Ideal) tot pos pos' j
      = -(Ideal.log (Ideal.div (pos' j) ((tot j - pos j) + Ideal.ofBits .f32 0x33D6BF95#32) + Ideal.ofBits .f32 0x33D6BF95#32)) := by
  unfold k0_pay3
  show Ideal.ofBits .f32 0x00000000#32 - Ideal.log (Ideal.div (pos' j) ((tot j - pos j) + Ideal.ofBits .f32 0x33D6BF95#32) + Ideal.ofBits .f32 0x33D6BF95#32) = _
  rw [Words.ofBits_zero, sub_eq_add_neg, zero_add]

end Cert.KernelIdeal.PayRead

end
-- ==== Proof.TileSum.lean ====
/-
  The two accumulators after any number of column tiles, at row `p`.

  The positives' accumulator after the first `n` column tiles is the sum, over those tiles and over each tile's
  512 columns, of similarity · (same-label − diagonal); the plain accumulator is the same sum of the similarities
  alone. Both start from the zero column and each step adds one tile's lane sum to the carried entry.
-/
import proofs.«124993_j78073915507043_1_alg».proof.Proof.PayRead7

noncomputable section

namespace Cert.KernelIdeal.TileSum

open Idealize.ShloMosaic Idealize.ShloMosaic.ValueIdx
open Cert.KernelIdeal Cert.KernelIdeal.Gen Cert.KernelIdeal.Tiles Cert.KernelIdeal.PayRead
open scoped BigOperators

variable (i : Fin 8) (zi : Vec Ideal S1024x128 .bf16) (zj : Fin 16 → Vec Ideal S512x128 .bf16)
  (lr : IVec S1024x1 32) (lc : Fin 16 → IVec S1x512 32)

/-- The positives' accumulator after `n` column tiles, at row `p`. -/
theorem posAcc_apply (n : ℕ) (p : Fin 1024) :
    posAcc (F := Ideal) i zi zj lr lc n (ix2 p 0)
      = ∑ m ∈ Finset.range n, ∑ q : Fin 512,
          simT zi (zj (col m)) p q * maskT i.val (col m).val lr (lc (col m)) p q := by
  induction n with
  | zero =>
    show k0_pay4 (F := Ideal) (ix2 p 0) = _
    rw [pay4_apply, Finset.sum_range_zero]
  | succ n ih =>
    show k0_pay1 (F := Ideal) (k0_pay7 (grid0.coords (point i (col n))) zi (zj (col n)) lr (lc (col n))
      (posAcc (F := Ideal) i zi zj lr lc n)) (ix2 p 0) = _
    have h0 : ((grid0.coords (point i (col n))) 0).val < 8 := by rw [coords_point0]; exact i.isLt
    have h1 : ((grid0.coords (point i (col n))) 1).val < 16 := by rw [coords_point1]; exact (col n).isLt
    rw [pay1_eq, pay7_apply _ h0 h1, ih, Finset.sum_range_succ, coords_point0, coords_point1]

/-- The plain accumulator after `n` column tiles, at row `p`. -/
theorem totAcc_apply (n : ℕ) (p : Fin 1024) :
    totAcc (F := Ideal) zi zj n (ix2 p 0)
      = ∑ m ∈ Finset.range n, ∑ q : Fin 512, simT zi (zj (col m)) p q := by
  induction n with
  | zero =>
    show k0_pay5 (F := Ideal) (ix2 p 0) = _
    rw [pay5_apply, Finset.sum_range_zero]
  | succ n ih =>
    show k0_pay2 (F := Ideal) (k0_pay6 zi (zj (col n))) (totAcc (F := Ideal) zi zj n) (ix2 p 0) = _
    rw [pay2_apply, ih, Finset.sum_range_succ]
    exact congrArg _ (Finset.sum_congr rfl fun q _ => pay6_apply zi (zj (col n)) p q)

theorem col_val (t : Fin 16) : col t.val = t := Fin.ext (Nat.mod_eq_of_lt t.isLt)

/-- After all sixteen tiles: the sums over the tiles `t : Fin 16`. -/
theorem posAcc_16 (p : Fin 1024) :
    posAcc (F := Ideal) i zi zj lr lc 16 (ix2 p 0)
      = ∑ t : Fin 16, ∑ q : Fin 512, simT zi (zj t) p q * maskT i.val t.val lr (lc t) p q := by
  rw [posAcc_apply, ← Fin.sum_univ_eq_sum_range (fun m => ∑ q : Fin 512,
    simT zi (zj (col m)) p q * maskT i.val (col m).val lr (lc (col m)) p q) 16]
  exact Finset.sum_congr rfl fun t _ => by rw [col_val]

theorem totAcc_16 (p : Fin 1024) :
    totAcc (F := Ideal) zi zj 16 (ix2 p 0) = ∑ t : Fin 16, ∑ q : Fin 512, simT zi (zj t) p q := by
  rw [totAcc_apply, ← Fin.sum_univ_eq_sum_range (fun m => ∑ q : Fin 512, simT zi (zj (col m)) p q) 16]
  exact Finset.sum_congr rfl fun t _ => by rw [col_val]

end Cert.KernelIdeal.TileSum

end
-- ==== Proof.LibSoftmaxLaw.lean ====
/-
  Laws of the extended reals behind a softmax-weighted average.

  * `IsReal x` says that the extended real `x` is an ordinary real number; sums, differences, products,
    finite sums and the largest of finitely many (at least one) real numbers are again real.
  * Three binary words of the 32-bit float format and the extended reals they denote: -∞, 1/16 and 256.
  * Dividing by √256 = 16 is multiplying by 1/16, at every extended real (the infinities included).
  * `exp (x − m)` of two reals is a positive real.
  * The softmax law: when every score and the shift `m` are real, the total weight
    `L = Σ_u exp (score u − m)` is a positive real, so dividing by it is multiplying by the nonnegative finite
    constant `1/L`, and such a multiplication distributes over a finite sum of ARBITRARY extended reals:
      Σ_t (exp (score t − m) / L) · v t  =  (Σ_t exp (score t − m) · v t) / L.
-/
import Idealize.ShloMosaic.PureOps.Ideal

noncomputable section

namespace Cert.AttnLaw

open Idealize.ShloMosaic
open scoped BigOperators

/-! ### Being a real number -/

/-- The extended real `x` is (the image of) a real number: neither `⊤` nor `⊥`. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add (ih fun i hi => h i (Finset.mem_insert_of_mem hi))

/-- The fold of `max` from `⊥` over a nonempty finite family is one of the family's members. -/
theorem fold_max_mem {ι : Type*} (s : Finset ι) (hs : s.Nonempty) (f : ι → EReal) :
    ∃ i ∈ s, s.fold max ⊥ f = f i := by
  classical
  revert hs
  refine Finset.induction_on s ?_ ?_
  · intro hs
    exact absurd hs Finset.not_nonempty_empty
  · intro a s ha ih _
    rw [Finset.fold_insert ha]
    rcases s.eq_empty_or_nonempty with rfl | hne
    · refine ⟨a, Finset.mem_insert_self _ _, ?_⟩
      rw [Finset.fold_empty]
      exact max_eq_left bot_le
    · obtain ⟨i, hi, e⟩ := ih hne
      rw [e]
      rcases max_choice (f a) (f i) with h | h
      · exact ⟨a, Finset.mem_insert_self _ _, h⟩
      · exact ⟨i, Finset.mem_insert_of_mem hi, h⟩

/-- The largest of finitely many (at least one) real numbers, folded from `⊥`, is a real number. -/
theorem isReal_fold_max {ι : Type*} (s : Finset ι) (hs : s.Nonempty) (f : ι → EReal) (h : ∀ i ∈ s, IsReal (f i)) :
    IsReal (s.fold max ⊥ f) := by
  obtain ⟨i, hi, e⟩ := fold_max_mem s hs f
  rw [e]
  exact h i hi

/-! ### Three binary words -/

/-- The word `0xFF800000` (sign 1, exponent all ones, fraction 0) is -∞. -/
theorem ofBits_neg_inf : Ideal.ofBits .f32 0xFF800000#32 = (⊥ : EReal) := by
  simp [Ideal.ofBits, Ideal.ieee]

/-- The word `0x3D800000` (exponent 123 = 127 − 4, fraction 0) is 2⁻⁴ = 1/16. -/
theorem ofBits_sixteenth : Ideal.ofBits .f32 0x3D800000#32 = ((1 / 16 : ℝ) : EReal) := by
  simp [Ideal.ofBits, Ideal.ieee, -EReal.coe_mul]; norm_num

/-- The word `0x43800000` (exponent 135 = 127 + 8, fraction 0) is 2⁸ = 256. -/
theorem ofBits_256 : Ideal.ofBits .f32 0x43800000#32 = ((256 : ℝ) : EReal) := by
  simp [Ideal.ofBits, Ideal.ieee, -EReal.coe_mul]; norm_num

theorem sqrt_256 : Real.sqrt 256 = 16 := by
  rw [show (256 : ℝ) = 16 ^ 2 by norm_num]
  exact Real.sqrt_sq (by norm_num)

/-- Dividing by √256 = 16 is multiplying by 1/16, on every extended real. -/
theorem div_sqrt_256 (x : EReal) :
    Ideal.div x (Ideal.sqrt (Ideal.ofBits .f32 0x43800000#32)) = x * Ideal.ofBits .f32 0x3D800000#32 := by
  rw [ofBits_256, ofBits_sixteenth, Ideal.sqrt_coe, if_neg (by norm_num), sqrt_256,
    Ideal.div_coe (by norm_num) x]

/-! ### The exponential of a difference of reals -/

theorem exp_sub_pos {x m : EReal} (hx : IsReal x) (hm : IsReal m) :
    ∃ r : ℝ, 0 < r ∧ Ideal.exp (x - m) = (r : EReal) := by
  obtain ⟨a, rfl⟩ := hx
  obtain ⟨b, rfl⟩ := hm
  exact ⟨Real.exp (a - b), Real.exp_pos _, by rw [← EReal.coe_sub, Ideal.exp_coe]⟩

/-! ### Sums -/

/-- The inclusion of the reals commutes with finite sums. -/
theorem coe_finset_sum {ι : Type*} (s : Finset ι) (g : ι → ℝ) :
    ((∑ i ∈ s, g i : ℝ) : EReal) = ∑ i ∈ s, (g i : EReal) := by
  classical
  refine Finset.induction_on s ?_ ?_
  · rw [Finset.sum_empty, Finset.sum_empty, EReal.coe_zero]
  · intro a s ha ih
    rw [Finset.sum_insert ha, Finset.sum_insert ha, EReal.coe_add, ih]

/-- Multiplication by a nonnegative constant other than `⊤` distributes over a finite sum of arbitrary
    extended reals. -/
theorem sum_mul_of_nonneg_of_ne_top {ι : Type*} (s : Finset ι) (f : ι → EReal) {c : EReal} (hc : 0 ≤ c)
    (hc' : c ≠ ⊤) : (∑ i ∈ s, f i) * c = ∑ i ∈ s, f i * c := by
  classical
  refine Finset.induction_on s ?_ ?_
  · rw [Finset.sum_empty, Finset.sum_empty, zero_mul]
  · intro a s ha ih
    rw [Finset.sum_insert ha, Finset.sum_insert ha, EReal.right_distrib_of_nonneg_of_ne_top hc hc', ih]

/-! ### The softmax law -/

/-- Normalising each weight before the weighted sum is the same as dividing the weighted sum once by the total
    weight: the total weight of real scores is a positive real `L`, and `· / L = · * (1/L)` with `0 ≤ 1/L < ⊤`
    distributes over the sum, whatever extended reals the values `v t` are. -/
theorem softmax_law {ι : Type*} [Fintype ι] [Nonempty ι] (sc : ι → EReal) (m : EReal) (hsc : ∀ t, IsReal (sc t))
    (hm : IsReal m) (v : ι → EReal) :
    ∑ t, Ideal.div (Ideal.exp (sc t - m)) (∑ u, Ideal.exp (sc u - m)) * v t
      = Ideal.div (∑ t, Ideal.exp (sc t - m) * v t) (∑ u, Ideal.exp (sc u - m)) := by
  choose a ha using hsc
  obtain ⟨b, rfl⟩ := hm
  -- every weight is the positive real exp (a t − b)
  have e : ∀ t, Ideal.exp (sc t - (b : EReal)) = ((Real.exp (a t - b) : ℝ) : EReal) := fun t => by
    rw [ha t, ← EReal.coe_sub, Ideal.exp_coe]
  -- the total weight is a positive real
  have hl : (0 : ℝ) < ∑ u, Real.exp (a u - b) :=
    Finset.sum_pos (fun u _ => Real.exp_pos _) Finset.univ_nonempty
  have hL : (∑ u, Ideal.exp (sc u - (b : EReal))) = ((∑ u, Real.exp (a u - b) : ℝ) : EReal) := by
    rw [coe_finset_sum]
    exact Finset.sum_congr rfl fun u _ => e u
  rw [hL]
  have hc : (0 : EReal) ≤ ((1 / ∑ u, Real.exp (a u - b) : ℝ) : EReal) :=
    EReal.coe_nonneg.mpr (one_div_pos.mpr hl).le
  rw [Ideal.div_coe hl.ne', sum_mul_of_nonneg_of_ne_top _ _ hc (EReal.coe_ne_top _)]
  refine Finset.sum_congr rfl fun t _ => ?_
  rw [Ideal.div_coe hl.ne', mul_right_comm]

end Cert.AttnLaw

end
-- ==== Proof.Law.lean ====
/-
  Sums of real numbers inside the extended reals, and the regrouping of a row of 8192 columns into 16 tiles of 512.

  * When every `s c` and every `m c` is a real number,  (Σ_c s c) − (Σ_c s c · m c) = Σ_c s c · (1 − m c):
    the three sums are the images of real sums, where the identity is the distributive law.
  * A sum over the 8192 columns is the sum, over the 16 column tiles `t`, of the sums over the tile's 512
    columns `512 · t + q`.
  * The exponential of twice a real number is a real number; an indicator (0 or 1) and a difference of two
    indicators are real numbers.
-/
import proofs.«124993_j78073915507043_1_alg».proof.Proof.LibSoftmaxLaw
import proofs.«124993_j78073915507043_1_alg».proof.Proof.Words
import Mathlib.Algebra.BigOperators.Fin
import Mathlib.Logic.Equiv.Fin.Basic

noncomputable section

namespace Cert.KernelIdeal.Law

open Idealize.ShloMosaic Cert.AttnLaw
open scoped BigOperators

/-- The complement law on real numbers: the plain sum less the weighted sum is the sum weighted by `1 − m`. -/
theorem sum_sub_sum_mul {ι : Type*} [Fintype ι] (s m : ι → EReal) (hs : ∀ c, IsReal (s c)) (hm : ∀ c, IsReal (m c)) :
    (∑ c, s c) - (∑ c, s c * m c) = ∑ c, s c * (1 - m c) := by
  choose a ha using hs
  choose b hb using hm
  have e1 : (∑ c, s c) = ((∑ c, a c : ℝ) : EReal) := by
    rw [coe_finset_sum]; exact Finset.sum_congr rfl fun c _ => ha c
  have e2 : (∑ c, s c * m c) = ((∑ c, a c * b c : ℝ) : EReal) := by
    rw [coe_finset_sum]; exact Finset.sum_congr rfl fun c _ => by rw [ha c, hb c, EReal.coe_mul]
  have e3 : (∑ c, s c * (1 - m c)) = ((∑ c, a c * (1 - b c) : ℝ) : EReal) := by
    rw [coe_finset_sum]
    exact Finset.sum_congr rfl fun c _ => by rw [ha c, hb c, EReal.coe_mul, EReal.coe_sub, EReal.coe_one]
  rw [e1, e2, e3, ← EReal.coe_sub]
  congr 1
  rw [← Finset.sum_sub_distrib]
  exact Finset.sum_congr rfl fun c _ => by ring

/-- A row of 8192 columns summed tile by tile: 16 tiles of 512 consecutive columns. -/
theorem sum_tiles {M : Type*} [AddCommMonoid M] (f : Fin 8192 → M) :
    ∑ c, f c = ∑ t : Fin 16, ∑ q : Fin 512,
      f ⟨512 * t.val + q.val, by have := t.isLt; have := q.isLt; omega⟩ := by
  let e : Fin 16 × Fin 512 ≃ Fin 8192 := finProdFinEquiv.trans (finCongr (by norm_num))
  rw [← Equiv.sum_comp e f, Fintype.sum_prod_type]
  refine Finset.sum_congr rfl fun t _ => Finset.sum_congr rfl fun q _ => congrArg f (Fin.ext ?_)
  show q.val + 512 * t.val = 512 * t.val + q.val
  omega

/-- The exponential of a real number times the word of 2 is a real number. -/
theorem isReal_exp_two {x : EReal} (hx : IsReal x) : IsReal (Ideal.exp (x * Ideal.ofBits .f32 0x40000000#32)) := by
  obtain ⟨a, rfl⟩ := hx
  rw [Words.ofBits_two, ← EReal.coe_mul, Ideal.exp_coe]
  exact ⟨_, rfl⟩

theorem isReal_one : IsReal (1 : EReal) := ⟨1, EReal.coe_one.symm⟩

/-- An indicator is a real number. -/
theorem isReal_ind (P : Prop) [Decidable P] : IsReal (if P then (1 : EReal) else 0) := by
  split
  · exact isReal_one
  · exact isReal_zero

end Cert.KernelIdeal.Law

end
-- ==== Proof.TileLaw.lean ====
/-
  One row tile of the kernel computes the reference's row losses.

  Let `Z` be the 8192 x 128 matrix of real numbers and `L` the 8192 labels. If the row tile's blocks hold rows
  1024·i + p of `Z` and of `L`, and column tile `t`'s blocks hold rows 512·t + q, then at row `p` the tile's value

      0 − log (pos / ((tot − pos) + ε) + ε),   pos = Σ_t Σ_q s·mask,  tot = Σ_t Σ_q s,

  is the row loss  −log (Σ_c s·mask / ((Σ_c s·(1 − mask)) + ε) + ε)  of row 1024·i + p: the tile-by-tile sums are
  the sums over all 8192 columns, exp (x · 2) = exp (x / 0.5), and, every similarity and every mask value being a
  real number, (Σ_c s) − (Σ_c s·mask) = Σ_c s·(1 − mask).
-/
import proofs.«124993_j78073915507043_1_alg».proof.Proof.TileSum
import proofs.«124993_j78073915507043_1_alg».proof.Proof.Law
import proofs.«124993_j78073915507043_1_alg».proof.Proof.Spec

noncomputable section

namespace Cert.KernelIdeal.TileValue

open Idealize.ShloMosaic Idealize.ShloMosaic.ValueIdx
open Cert.KernelIdeal Cert.KernelIdeal.Gen Cert.KernelIdeal.Tiles Cert.KernelIdeal.PayRead Cert.KernelIdeal.TileSum
open Cert.AttnLaw Cert.Proof
open scoped BigOperators

/-- Row `p` of row tile `i`, as a row of the whole matrix. -/
abbrev rowIx (i : Fin 8) (p : Fin 1024) : Fin 8192 := ⟨1024 * i.val + p.val, by have := i.isLt; have := p.isLt; omega⟩

/-- Row `q` of column tile `t`, as a row of the whole matrix. -/
abbrev colIx (t : Fin 16) (q : Fin 512) : Fin 8192 := ⟨512 * t.val + q.val, by have := t.isLt; have := q.isLt; omega⟩

variable (Z : Fin 8192 → Fin 128 → EReal) (L : Fin 8192 → BitVec 32)

/-- Every similarity of real rows is a real number. -/
theorem sim_isReal (hZ : ∀ r k, ∃ x : ℝ, Z r k = (x : EReal)) (r c : Fin 8192) : IsReal (SupCon.sim Z r c) := by
  unfold SupCon.sim SupCon.dot
  rw [Words.div_half]
  exact Law.isReal_exp_two (isReal_sum _ _ fun k _ => IsReal.mul (hZ r k) (hZ c k))

/-- Every mask value is a real number. -/
theorem mask_isReal (r c : Fin 8192) : IsReal (SupCon.mask L r c) := by
  unfold SupCon.mask SupCon.same SupCon.eye
  exact (Law.isReal_ind _).sub (Law.isReal_ind _)

/-- The tile's value at row `p` is the row loss of row `1024 · i + p`. -/
theorem lossTile_apply (hZ : ∀ r k, ∃ x : ℝ, Z r k = (x : EReal)) (i : Fin 8)
    (zi : Vec Ideal S1024x128 .bf16) (zj : Fin 16 → Vec Ideal S512x128 .bf16)
    (lr : Vec Ideal S1024x1 .i32) (lc : Fin 16 → Vec Ideal S1x512 .i32)
    (hzi : ∀ (p : Fin 1024) (k : Fin 128), zi (ix2 p k) = Z (rowIx i p) k)
    (hzj : ∀ (t : Fin 16) (q : Fin 512) (k : Fin 128), zj t (ix2 q k) = Z (colIx t q) k)
    (hlr : ∀ p : Fin 1024, lr (ix2 p 0) = L (rowIx i p))
    (hlc : ∀ (t : Fin 16) (q : Fin 512), lc t (ix2 0 q) = L (colIx t q))
    (p : Fin 1024) :
    lossTile (F := Ideal) i zi zj lr lc (ix2 p 0) = SupCon.lossRow Z L (rowIx i p) := by
  have hsim : ∀ (t : Fin 16) (q : Fin 512), simT zi (zj t) p q = SupCon.sim Z (rowIx i p) (colIx t q) := by
    intro t q
    unfold simT dotT SupCon.sim SupCon.dot
    rw [Words.div_half]
    refine congrArg (fun x => Ideal.exp (x * _)) (Finset.sum_congr rfl fun k _ => ?_)
    rw [hzi, hzj]
  have hmask : ∀ (t : Fin 16) (q : Fin 512),
      maskT i.val t.val lr (lc t) p q = SupCon.mask L (rowIx i p) (colIx t q) := by
    intro t q
    unfold maskT SupCon.mask SupCon.same SupCon.eye
    rw [hlr, hlc]
    congr 1
    · exact if_congr eq_comm rfl rfl
    · exact if_congr ⟨fun h => Fin.ext h, fun h => congrArg Fin.val h⟩ rfl rfl
  have hpos : (∑ t : Fin 16, ∑ q : Fin 512, simT zi (zj t) p q * maskT i.val t.val lr (lc t) p q)
      = SupCon.pos Z L (rowIx i p) := by
    unfold SupCon.pos
    rw [Law.sum_tiles]
    exact Finset.sum_congr rfl fun t _ => Finset.sum_congr rfl fun q _ => by rw [hsim, hmask]
  have htot : (∑ t : Fin 16, ∑ q : Fin 512, simT zi (zj t) p q) = ∑ c, SupCon.sim Z (rowIx i p) c := by
    rw [Law.sum_tiles]
    exact Finset.sum_congr rfl fun t _ => Finset.sum_congr rfl fun q _ => hsim t q
  unfold lossTile
  rw [pay3_apply, posAcc_16, totAcc_16, hpos, htot]
  unfold SupCon.lossRow SupCon.denom SupCon.eps
  rw [← Law.sum_sub_sum_mul _ _ (sim_isReal Z hZ _) (mask_isReal L _)]
  rfl

end Cert.KernelIdeal.TileValue

end
-- ==== Proof.MeanTail.lean ====
/-
  The mean of the row losses.

  Both programs end the same way: the 8192 x 1 column of row losses is summed from the zero word and the sum
  is divided by 8192. If the column holds `lossRow r` at row `r`, the result is `loss`. The only arithmetic
  is `0 + x = x`.
-/
import proofs.«124993_j78073915507043_1_alg».proof.Proof.Spec
import Idealize.ShloMosaic.Lib.ValueIdx
import Idealize.ShloMosaic.PureOps.Ideal.Laws

noncomputable section

namespace Cert.Proof.SupCon

open Idealize.ShloMosaic Idealize.ShloMosaic.ValueIdx
open scoped BigOperators

/-- A column of the row losses, summed over both axes from zero and divided by 8192, is the loss. -/
theorem mean_of_rows (Z : Fin 8192 → Fin 128 → EReal) (L : Fin 8192 → BitVec 32)
    (A : (⟨2, ![8192, 1]⟩ : Shape).Idx → EReal)
    (hA : ∀ (r : Fin 8192) (z : Fin 1), A (ix2 r z) = lossRow Z L r)
    (h1 : (⟨2, ![8192, 1]⟩ : Shape).ReducesTo [0, 1] ⟨0, ![]⟩) (h2 : 0 < (⟨0, ![]⟩ : Shape).numel) :
    Host.divf (F := Ideal) (Host.reduceAdd (F := Ideal) A (constant (F := Ideal) ⟨0, ![]⟩ .f32 0x00000000#32) h1 h2)
        (constant (F := Ideal) ⟨0, ![]⟩ .f32 0x46000000#32)
      = fun _ => loss Z L := by
  funext i
  have e : Host.reduceAdd (F := Ideal) A (constant (F := Ideal) ⟨0, ![]⟩ .f32 0x00000000#32) h1 h2 i
      = (constant (F := Ideal) ⟨0, ![]⟩ .f32 0x00000000#32) (Shape.Idx.first h2) + ∑ j, A j := by
    simp only [Host.reduceAdd, Ideal.hostReduceAdd_def]
    exact Ideal.hostReduceAdd_total h1 (fun b => b.elim0) A _ i
  show Ideal.div (Host.reduceAdd (F := Ideal) A (constant (F := Ideal) ⟨0, ![]⟩ .f32 0x00000000#32) h1 h2 i)
      (Ideal.ofBits .f32 0x46000000#32) = _
  rw [e]
  show Ideal.div (Ideal.ofBits .f32 0x00000000#32 + ∑ j, A j) (Ideal.ofBits .f32 0x46000000#32) = _
  rw [Ideal.ofBits_zero_f32, zero_add, sum_idx2]
  unfold loss
  refine congrArg (Ideal.div · _) (Finset.sum_congr rfl fun r _ => ?_)
  rw [Fin.sum_univ_one]
  exact hA r 0

end Cert.Proof.SupCon

end
-- ==== Proof.KIValue.lean ====
/-
  The kernel's result, at the ideal instance, as the mean of the row losses.

  Row `r` of the output array was written back by row tile `r / 1024` at its last column tile, and is entry
  `r % 1024` of that tile's row losses; a tile's blocks are the rows of the stacked views and of the repeated labels
  they cover; so the entry is the row loss of the whole stacked matrix (the tile algebra, which needs every entry
  real). The host's sum from zero and division by 8192 then give the mean.
-/
import proofs.«124993_j78073915507043_1_alg».proof.Proof.KIClaims
import proofs.«124993_j78073915507043_1_alg».proof.Proof.KIFinal
import proofs.«124993_j78073915507043_1_alg».proof.Proof.KIAcc
import proofs.«124993_j78073915507043_1_alg».proof.Proof.KIBlocks
import proofs.«124993_j78073915507043_1_alg».proof.Proof.KIArrays
import proofs.«124993_j78073915507043_1_alg».proof.Proof.TileLaw
import proofs.«124993_j78073915507043_1_alg».proof.Proof.MeanTail

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Proof.SupCon

variable (m : (ℓ : Loc nD τ sig) → Buf (Elt Ideal) ℓ) (ρ : Dev nD → PrngReg) (c : Dev nD)

/-- The two views stacked and the labels repeated, off the launch memory. -/
abbrev Zof : Fin 8192 → Fin 128 → EReal :=
  stack (m ((c : Thread nD τ).loc main_arg0)) (m ((c : Thread nD τ).loc main_arg1))
abbrev Lof : Fin 8192 → BitVec 32 := stackLab (m ((c : Thread nD τ).loc main_arg2))

/-- Every entry of the stack is real when every entry of the two views is. -/
theorem Zof_real (h0 : ∀ i, ∃ r : ℝ, m ((c : Thread nD τ).loc main_arg0) i = (r : EReal))
    (h1 : ∀ i, ∃ r : ℝ, m ((c : Thread nD τ).loc main_arg1) i = (r : EReal)) :
    ∀ r k, ∃ x : ℝ, Zof m c r k = (x : EReal) := by
  intro r k
  unfold Zof stack
  split
  · exact h0 _
  · exact h1 _

attribute [local irreducible] accAt

/-- Row `r` of the output array, as the region leaves it, is the row loss of the stacked matrix. -/
theorem out_row (hZ : ∀ r k, ∃ x : ℝ, Zof m c r k = (x : EReal)) (r : Fin 8192) (z : Fin 1) :
    ((dats m 0 c).arrAt 4 cfg0.N : S8192x1.Idx → EReal) (ix2 r z) = lossRow (Zof m c) (Lof m c) r := by
  obtain rfl : z = 0 := Subsingleton.elim _ _
  have hi : r.val / 1024 < 8 := by have := r.isLt; omega
  rw [final4_apply, out_point]
  rw [Cert.KernelIdeal.TileValue.lossTile_apply (Zof m c) (Lof m c) hZ ⟨r.val / 1024, hi⟩
    (tileZi m c ⟨r.val / 1024, hi⟩) (tileZj m c ⟨r.val / 1024, hi⟩) (tileLr m c ⟨r.val / 1024, hi⟩) (tileLc m c ⟨r.val / 1024, hi⟩)
    (fun p k => (block0_read m c _ 0 p k).trans (V_v1_read m c _ k))
    (fun t q k => (block1_read m c _ t q k).trans (V_v1_read m c _ k))
    (fun p => (block2_read m c _ 0 p 0).trans (V_v3_read m c _ 0))
    (fun t q => (block3_read m c _ t 0 q).trans (V_v4_read m c 0 _))]
  congr 1
  exact Fin.ext (by show 1024 * (r.val / 1024) + r.val % 1024 = r.val; omega)

/-- The result buffer after the host's mean. -/
theorem end_v7_loss (hZ : ∀ r k, ∃ x : ℝ, Zof m c r k = (x : EReal)) :
    StableHlo.after hostOps1 (Vexit m c) (Proc.devRef .tc main_v7) = fun _ => loss (Zof m c) (Lof m c) := by
  rw [end_v7, Vexit_v5]
  exact mean_of_rows (Zof m c) (Lof m c) _ (out_row m c hZ) reducesTo_S8192x1_S_d0_1 h_S_

/-- THE VALUE RUN: every weakly fair execution terminates, the result is the mean of the row losses of the stacked
    inputs, and the three argument arrays end as launched. -/
theorem run_value (hZ : ∀ c r k, ∃ x : ℝ, Zof m c r k = (x : EReal)) :
    θ_run defs (onTc (τ := τ) (main (F := Ideal))) ⟨m, fun _ => 0, ρ⟩ (fun r => ∀ c : Dev nD,
      r.2.mem ((c.tc : Thread nD τ).loc main_v7) = (fun _ => loss (Zof m c) (Lof m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v7 rfl)).trans (end_v7_loss m c (hZ c)),
     (h c _ (mem_uc main_arg0 rfl)).trans (end_kept m c main_arg0 (by decide) (by decide) (by decide)),
     (h c _ (mem_uc main_arg1 rfl)).trans (end_kept m c main_arg1 (by decide) (by decide) (by decide)),
     (h c _ (mem_uc main_arg2 rfl)).trans (end_kept m c main_arg2 (by decide) (by decide) (by decide))⟩) (run_main m ρ)

end Cert.KernelIdeal.Hand

end
-- ==== Proof.RefRun.lean ====
/-
  The reference's run, read back: the modules this directory's reference-side lemmas are stated over.
-/
import proofs.«124993_j78073915507043_1_alg».proof.Proof.RefRunPatched
import proofs.«124993_j78073915507043_1_alg».proof.Proof.RefReadPatched
-- ==== Proof.RefStages.lean ====
/-
  The reference's two joins, read at an index.

  The reference stacks the two views (4096 x 128 each) into one 8192 x 128 matrix and repeats the 4096
  labels once. Read at row `r`, the stacked matrix is the first view's row `r` when `r < 4096` and the
  second view's row `r - 4096` otherwise, and likewise the labels: these are `stack` and `stackLab`.
  Also here: the words for one, and a compare of two words followed by the conversion of its bit, on the
  extended reals.
-/
import proofs.«124993_j78073915507043_1_alg».proof.Proof.RefRun
import proofs.«124993_j78073915507043_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Proof.SupCon
open scoped BigOperators

/-- The stacked matrix at row `r`, column `k`. -/
theorem val_main_v0_read (x0 x1 : (⟨S4096x128, .f32⟩ : BufTy).Contents (Elt Ideal)) (r : Fin 8192) (k : Fin 128) :
    val_main_v0 (F := Ideal) x0 x1 (ix2 r k) = stack x0 x1 r k := by
  unfold val_main_v0 stack
  by_cases h : r.val < 4096
  · rw [dif_pos h]
    exact concatenate_pair_apply_left (0 : Fin S8192x128.rank) x0 x1 concatenates_S4096x128_S4096x128_S8192x128_d0
      (ix2 r k) rfl (ix2 ⟨r.val, h⟩ k) (fun b => match b with | ⟨0, _⟩ => rfl | ⟨1, _⟩ => rfl)
  · rw [dif_neg h]
    exact concatenate_pair_apply_right (0 : Fin S8192x128.rank) x0 x1 concatenates_S4096x128_S4096x128_S8192x128_d0
      (ix2 r k) rfl rfl (ix2 ⟨r.val - 4096, by omega⟩ k)
      (fun b hb => match b, hb with | ⟨0, _⟩, hb => absurd rfl hb | ⟨1, _⟩, _ => rfl)
      (by show r.val - 4096 + 4096 = r.val; omega)

/-- The repeated labels at row `r`. -/
theorem val_main_v6_read (x2 : (⟨S4096, .i32⟩ : BufTy).Contents (Elt Ideal)) (r : Fin 8192) :
    val_main_v6 (F := Ideal) x2 (ix1 r) = stackLab x2 r := by
  unfold val_main_v6 stackLab
  by_cases h : r.val < 4096
  · rw [dif_pos h]
    exact concatenate_pair_apply_left (0 : Fin S8192.rank) x2 x2 concatenates_S4096_S4096_S8192_d0
      (ix1 r) rfl (ix1 ⟨r.val, h⟩) (fun b => match b with | ⟨0, _⟩ => rfl)
  · rw [dif_neg h]
    exact concatenate_pair_apply_right (0 : Fin S8192.rank) x2 x2 concatenates_S4096_S4096_S8192_d0
      (ix1 r) rfl rfl (ix1 ⟨r.val - 4096, by omega⟩)
      (fun b hb => match b, hb with | ⟨0, _⟩, hb => absurd rfl hb)
      (by show r.val - 4096 + 4096 = r.val; omega)

/-- The word `0x3F800000` is one. -/
theorem ofBits_one_f32 : Ideal.ofBits .f32 0x3F800000#32 = 1 := by
  simp [Ideal.ofBits, Ideal.ieee]
  rw [← EReal.coe_mul]
  norm_num

/-- An equality compare of two words, its bit converted: one when they are equal, zero otherwise. -/
theorem uitofp_cmpi_eq {w : Nat} (a b : BitVec w) :
    FloatOps.uitofp (F := Ideal) .f32 (IntOp.cmpi .eq a b) = if a = b then (1 : EReal) else 0 := by
  show ((BitVec.toNat (IntOp.cmpi .eq a b) : ℝ) : EReal) = _
  by_cases h : a = b
  · simp [IntOp.cmpi, h]
  · simp [IntOp.cmpi, h]

/-- Two row numbers below 8192 are equal as 32-bit words exactly when they are equal. -/
theorem ofNat_add_zero_eq_iff (r c : Fin 8192) :
    IntOp.addi (BitVec.ofNat 32 r.val) 0#32 = BitVec.ofNat 32 c.val ↔ r = c := by
  show BitVec.ofNat 32 r.val + 0#32 = BitVec.ofNat 32 c.val ↔ r = c
  rw [BitVec.add_zero]
  constructor
  · intro h
    have := congrArg BitVec.toNat h
    simp only [BitVec.toNat_ofNat] at this
    apply Fin.ext
    have h1 := r.isLt; have h2 := c.isLt
    omega
  · intro h; rw [h]

end Cert.ReferenceIdeal.RefValue

end
-- ==== Proof.RefIsSpec.lean ====
/-
  The reference's result is the supervised-contrastive loss of the stacked arrays.

  Stage by stage, at explicit coordinates: the exponentiated similarity of rows `r` and `c` is `sim`; the
  same-label indicator less the diagonal is `mask`; the row sums are `pos` and `denom`; the row's loss is
  `lossRow`; and the mean over the 8192 rows is `loss`. Every step is the reference's own arrangement, so the
  equalities hold for all extended reals: the only arithmetic used is `0 + x = x` (a sum started from the
  zero word), that the word `0x3F800000` is one, and that a compare of two words converted to a float is
  one or zero.
-/
import proofs.«124993_j78073915507043_1_alg».proof.Proof.RefStages

noncomputable section

namespace Cert.ReferenceIdeal.RefValue

open Cert.ReferenceIdeal Cert.ReferenceIdeal.Gen Cert.ReferenceIdeal.Read Idealize.ShloMosaic Idealize.ShloMosaic.ValueIdx
open Cert.Proof.SupCon
open scoped BigOperators

variable (x0 x1 : (⟨S4096x128, .f32⟩ : BufTy).Contents (Elt Ideal)) (x2 : (⟨S4096, .i32⟩ : BufTy).Contents (Elt Ideal))

/-- `exp (⟨Z r, Z c⟩ / 0.5)` at row `r`, column `c`. -/
theorem sim_read (r c : Fin 8192) :
    val_main_v5 (F := Ideal) x0 x1 (ix2 r c) = sim (stack x0 x1) r c := by
  rw [val_main_v5_apply, val_main_v4_apply, val_main_v2_apply, val_main_v3_apply, val_main_cst_apply]
  simp only [Ideal.hostUnary_exp_def, Ideal.hostDivf_def, Ideal.ofBits_def]
  unfold sim dot
  refine congrArg (fun t => Ideal.exp (Ideal.div t _)) (Finset.sum_congr rfl fun k _ => ?_)
  rw [val_main_v1_apply]
  have e1 : lidx_main_v2 (ix2 r c) k = ix2 r k :=
    funext fun a => match a with | ⟨0, _⟩ => rfl | ⟨1, _⟩ => rfl
  have e2 : idx_main_v1 (ridx_main_v2 (ix2 r c) k) = ix2 c k :=
    funext fun a => match a with | ⟨0, _⟩ => rfl | ⟨1, _⟩ => rfl
  rw [e1, e2, val_main_v0_read, val_main_v0_read]

/-- The same-label indicator at row `r`, column `c`. -/
theorem same_read (r c : Fin 8192) :
    val_main_v12 (F := Ideal) x2 (ix2 r c) = same (stackLab x2) r c := by
  rw [val_main_v12_apply, val_main_v11_apply, val_main_v9_apply, val_main_v7_apply, val_main_v10_apply,
    val_main_v8_apply, uitofp_cmpi_eq]
  have e1 : idx_main_v7 (idx_main_v9 (ix2 r c)) = ix1 c := funext fun a => match a with | ⟨0, _⟩ => rfl
  have e2 : idx_main_v8 (idx_main_v10 (ix2 r c)) = ix1 r := funext fun a => match a with | ⟨0, _⟩ => rfl
  rw [e1, e2, val_main_v6_read, val_main_v6_read]
  rfl

/-- The diagonal indicator at row `r`, column `c`. -/
theorem eye_read (r c : Fin 8192) : val_main_v18 (F := Ideal) (ix2 r c) = eye r c := by
  rw [val_main_v18_apply, val_main_v17_apply, val_main_v16_apply, val_main_v13_apply, val_main_v15_apply,
    val_main_c_apply, val_main_v14_apply, uitofp_cmpi_eq]
  exact if_congr (ofNat_add_zero_eq_iff r c) rfl rfl

/-- The off-diagonal same-label indicator at row `r`, column `c`. -/
theorem mask_read (r c : Fin 8192) :
    val_main_v19 (F := Ideal) x2 (ix2 r c) = mask (stackLab x2) r c := by
  rw [val_main_v19_apply, same_read, eye_read]
  rfl

/-- The sum over the positives of row `r`. -/
theorem pos_read (r : Fin 8192) :
    val_main_v28 (F := Ideal) x0 x1 x2 (ix1 r) = pos (stack x0 x1) (stackLab x2) r := by
  rw [val_main_v28_apply, val_main_cst_3_apply]
  simp only [Ideal.ofBits_def, Ideal.ofBits_zero_f32, zero_add]
  unfold pos
  refine Finset.sum_congr rfl fun k _ => ?_
  have e : idx_main_v28 (ix1 r) k = ix2 r k :=
    funext fun a => match a with | ⟨0, _⟩ => rfl | ⟨1, _⟩ => rfl
  rw [e, val_main_v27_apply, sim_read, mask_read]
  rfl

/-- The sum over everything but the positives of row `r`, plus ε. -/
theorem denom_read (r : Fin 8192) (z : Fin 1) :
    val_main_v26 (F := Ideal) x0 x1 x2 (ix2 r z) = denom (stack x0 x1) (stackLab x2) r := by
  rw [val_main_v26_apply, val_main_v24_apply, val_main_v25_apply, val_main_cst_2_apply, val_main_v23_apply,
    val_main_cst_1_apply]
  simp only [Ideal.addf_def, Ideal.ofBits_def, Ideal.ofBits_zero_f32, zero_add]
  unfold denom eps
  refine congrArg (· + _) (Finset.sum_congr rfl fun k _ => ?_)
  have e : idx_main_v23 (idx_main_v24 (ix2 r z)) k = ix2 r k :=
    funext fun a => match a with | ⟨0, _⟩ => rfl | ⟨1, _⟩ => rfl
  rw [e, val_main_v22_apply, val_main_v21_apply, val_main_v20_apply, val_main_cst_0_apply, sim_read, mask_read]
  simp only [Ideal.mulf_def, Ideal.subf_def, Ideal.ofBits_def, ofBits_one_f32]

/-- The loss of row `r`. -/
theorem lossRow_read (r : Fin 8192) (z : Fin 1) :
    val_main_v34 (F := Ideal) x0 x1 x2 (ix2 r z) = lossRow (stack x0 x1) (stackLab x2) r := by
  rw [val_main_v34_apply, val_main_v33_apply, val_main_v32_apply, val_main_v30_apply, val_main_v29_apply,
    val_main_v31_apply, val_main_cst_4_apply, denom_read]
  have e : idx_main_v29 (ix2 r z) = ix1 r := funext fun a => match a with | ⟨0, _⟩ => rfl
  rw [e, pos_read]
  simp only [Ideal.hostNegf_def, Ideal.negf_def, Ideal.hostUnary_log_def, Ideal.addf_def, Ideal.hostDivf_def,
    Ideal.ofBits_def]
  rfl

/-- The reference's result, at its one index, is the mean of the row losses of the stacked arrays. -/
theorem reference_is_loss (i : S_.Idx) :
    val_main_v36 (F := Ideal) x0 x1 x2 i = loss (stack x0 x1) (stackLab x2) := by
  rw [val_main_v36_apply, val_main_v35_apply, val_main_cst_5_apply, val_main_cst_6_apply]
  simp only [Ideal.hostDivf_def, Ideal.ofBits_def, Ideal.ofBits_zero_f32, zero_add]
  unfold loss
  refine congrArg (Ideal.div · _) ?_
  rw [sum_idx2]
  refine Finset.sum_congr rfl fun r _ => ?_
  rw [Fin.sum_univ_one]
  exact lossRow_read x0 x1 x2 r 0

/-- The same, as an equation of the whole (one-entry) result. -/
theorem reference_eq :
    val_main_v36 (F := Ideal) x0 x1 x2 = fun _ => loss (stack x0 x1) (stackLab x2) :=
  funext (reference_is_loss x0 x1 x2)

end Cert.ReferenceIdeal.RefValue

end
-- ==== Proof.Finite.lean ====
/-
  The precondition read back: every entry of the two views is a real number.

  The precondition compares the absolute value of every entry with +∞ (the word `0x7F800000`) and takes
  the conjunction over all entries of both arrays. If the result is 1, each compare is 1, so each entry's
  absolute value is below +∞; on the extended reals that leaves only the real numbers.
-/
import proofs.«124993_j78073915507043_1_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Cert.Pre_finite_inputs Cert.Pre_finite_inputs.Gen

instance : Subsingleton S_.Idx := ⟨fun a b => funext fun d => d.elim0⟩

/-- The word `0x7F800000` is +∞. -/
theorem ofBits_inf_f32 : Ideal.ofBits .f32 0x7F800000#32 = ⊤ := by
  simp [Ideal.ofBits, Ideal.ieee]

/-- An extended real whose absolute value compares below +∞ is a real number. -/
theorem real_of_abs_lt_inf (x : EReal)
    (h : FloatOps.cmpf (F := Ideal) (φ := .f32) .olt (FloatOps.absf (F := Ideal) (φ := .f32) x) (Ideal.ofBits .f32 0x7F800000#32) = 1#1) :
    ∃ r : ℝ, x = (r : EReal) := by
  rw [ofBits_inf_f32, Ideal.cmpf_def, Ideal.absf_def] at h
  induction x using EReal.rec with
  | bot => simp [Ideal.cmp] at h
  | coe r => exact ⟨r, rfl⟩
  | top => simp [Ideal.cmp] at h

/-- If the precondition holds, every entry of both views is a real number. -/
theorem entries_real (x0 x1 : FVec Ideal S4096x128 .f32) (x2 : IVec S4096 32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_abs_lt_inf (x0 i) (Host.reduce_andi_all _ _ reducesTo_S4096x128_S_d0_1 h_S_ ValueIdx.ix0 ha i)
  · exact real_of_abs_lt_inf (x1 i) (Host.reduce_andi_all _ _ reducesTo_S4096x128_S_d0_1 h_S_ ValueIdx.ix0 hb i)

end Cert.Proof.Finite

end
-- ==== Proof.lean ====
/-
  The certificate: the supervised-contrastive loss kernel against its reference.

  The three frames: each program runs to the end, faults nowhere, and leaves its three argument arrays as launched —
  the kernel's at both instances by the run of its three segments (host operations, the pipelined region, host
  operations), the reference's by its run as a line of host operations. The idealization changes no operation, so
  nothing is owed for it. At the ideal instance both results are the mean, over the 8192 rows of the two views
  stacked, of  - log (pos / denom + ε):  the reference forms  denom = Σ s·(1 - mask) + ε  in one pass over the
  8192 x 8192 similarity matrix, the kernel accumulates  Σ s  and  Σ s·mask  tile by tile and subtracts; on real
  entries the two agree, and the precondition makes every entry real.
-/
import proofs.«124993_j78073915507043_1_alg».proof.Defs
import proofs.«124993_j78073915507043_1_alg».proof.Proof.Gen.Kernel
import proofs.«124993_j78073915507043_1_alg».proof.Proof.Gen.KernelIdeal
import proofs.«124993_j78073915507043_1_alg».proof.Proof.Gen.ReferenceIdeal
import proofs.«124993_j78073915507043_1_alg».proof.Proof.Gen.Pre_finite_inputs
import proofs.«124993_j78073915507043_1_alg».proof.Proof.KBClaims
import proofs.«124993_j78073915507043_1_alg».proof.Proof.KIValue
import proofs.«124993_j78073915507043_1_alg».proof.Proof.RefRun
import proofs.«124993_j78073915507043_1_alg».proof.Proof.RefIsSpec
import proofs.«124993_j78073915507043_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the mean of the row losses of the stacked inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hZ : ∀ c r k, ∃ x : ℝ, Cert.KernelIdeal.Hand.Zof m c r k = (x : EReal) := fun c =>
    Cert.KernelIdeal.Hand.Zof_real m c (Cert.Proof.Finite.entries_real _ _ _ (hpre c)).1 (Cert.Proof.Finite.entries_real _ _ _ (hpre c)).2
  refine ⟨fun c => (fun _ => Cert.Proof.SupCon.loss (Cert.KernelIdeal.Hand.Zof m c) (Cert.KernelIdeal.Hand.Lof m c)),
    Cert.KernelIdeal.Hand.run_value m ρ hZ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.reference_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
